-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x20000 : Shape := ⟨2, ![32, 20000]⟩
abbrev S2x640000 : Shape := ⟨2, ![2, 640000]⟩
abbrev S20000x64 : Shape := ⟨2, ![20000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S32x20000 : S_.BroadcastsInDim S32x20000 (![] : Fin 0 → Fin S32x20000.rank)
  reducesTo_S32x20000_S_d0_1 : S32x20000.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S128x1 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S64x128 .f32) (main_arg6 : FVec F S128 .f32) (main_arg7 : FVec F S128 .f32) (main_arg8 : FVec F S128 .f32) (main_arg9 : FVec F S128x1 .f32) (main_arg10 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S32x20000 .f32) (main_arg1 : IVec S2x640000 32) (main_arg2 : FVec F S20000x64 .f32) (main_arg3 : FVec F S64x64 .f32) (main_arg4 : FVec F S64 .f32) (main_arg5 : FVec F S64x128 .f32) (main_arg6 : FVec F S128 .f32) (main_arg7 : FVec F S128 .f32) (main_arg8 : FVec F S128 .f32) (main_arg9 : FVec F S128x1 .f32) (main_arg10 : FVec F S1 .f32) : IVec S_ 1 :=
  let main_v0 : FVec F S32x20000 .f32 := Host.absf main_arg0
  let main_cst : FVec F S_ .f32 := constant S_ .f32 0x7F800000#32
  let main_v1 : FVec F S32x20000 .f32 := broadcastInDim S32x20000 ![] bcast_S_S32x20000 main_cst
  let main_v2 : IVec S32x20000 1 := cmpf .olt main_v0 main_v1
  let main_c : IVec S_ 1 := constantI S_ 1 1#1
  let main_v3 : IVec S_ 1 := (fun x v => Host.reduce IntOp.andi x v reducesTo_S32x20000_S_d0_1 h_S_) main_v2 main_c
  let main_v4 : FVec F S20000x64 .f32 := Host.absf main_arg2
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S32x20000 : Shape := ⟨2, ![32, 20000]⟩
abbrev S2x640000 : Shape := ⟨2, ![2, 640000]⟩
abbrev S20000x64 : Shape := ⟨2, ![20000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S20000 : Shape := ⟨1, ![20000]⟩
abbrev S640000x1 : Shape := ⟨2, ![640000, 1]⟩
abbrev S20000x1 : Shape := ⟨2, ![20000, 1]⟩
abbrev S640000x64 : Shape := ⟨2, ![640000, 64]⟩
abbrev S1x64 : Shape := ⟨2, ![1, 64]⟩
abbrev S20000x128 : Shape := ⟨2, ![20000, 128]⟩
abbrev S32x20224 : Shape := ⟨2, ![32, 20224]⟩
abbrev S20224x128 : Shape := ⟨2, ![20224, 128]⟩
abbrev S32x256 : Shape := ⟨2, ![32, 256]⟩
abbrev S256x128 : Shape := ⟨2, ![256, 128]⟩
abbrev S32x256x1 : Shape := ⟨3, ![32, 256, 1]⟩
abbrev S1x256x128 : Shape := ⟨3, ![1, 256, 128]⟩
abbrev S32x256x128 : Shape := ⟨3, ![32, 256, 128]⟩
abbrev S1x1x128 : Shape := ⟨3, ![1, 1, 128]⟩
abbrev S1x256 : Shape := ⟨2, ![1, 256]⟩
abbrev S1x256x1 : Shape := ⟨3, ![1, 256, 1]⟩

abbrev nBuf : Space → Nat
  | .hbm => 107
  | .vmem => 22
  | .smem => 0
  | _ => 0

abbrev bufTy : (tb : Table) → Fin (tcTables nBuf tb) → BufTy
  | .hbm, ⟨0, _⟩ => ⟨S32x20000, .f32⟩
  | .hbm, ⟨1, _⟩ => ⟨S2x640000, .i32⟩
  | .hbm, ⟨2, _⟩ => ⟨S20000x64, .f32⟩
  | .hbm, ⟨3, _⟩ => ⟨S64x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S20000, .f32⟩
  | .hbm, ⟨19, _⟩ => ⟨S640000x1, .i32⟩
  | .hbm, ⟨20, _⟩ => ⟨S20000, .f32⟩
  | .hbm, ⟨21, _⟩ => ⟨S_, .f32⟩
  | .hbm, ⟨22, _⟩ => ⟨S20000, .f32⟩
  | .hbm, ⟨23, _⟩ => ⟨S20000, .f32⟩
  | .hbm, ⟨24, _⟩ => ⟨S20000, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000, .f32⟩
  | .hbm, ⟨43, _⟩ => ⟨S640000, .f32⟩
  | .hbm, ⟨44, _⟩ => ⟨S20000, .f32⟩
  | .hbm, ⟨45, _⟩ => ⟨S20000x1, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x64, .f32⟩
  | .hbm, ⟨55, _⟩ => ⟨S640000x1, .f32⟩
  | .hbm, ⟨56, _⟩ => ⟨S640000x64, .f32⟩
  | .hbm, ⟨57, _⟩ => ⟨S640000x64, .f32⟩
  | .hbm, ⟨58, _⟩ => ⟨S_, .f32⟩
  | .hbm, ⟨59, _⟩ => ⟨S20000x64, .f32⟩
  | .hbm, ⟨60, _⟩ => ⟨S640000x1, .i32⟩
  | .hbm, ⟨61, _⟩ => ⟨S20000x64, .f32⟩
  | .hbm, ⟨62, _⟩ => ⟨S20000x64, .f32⟩
  | .hbm, ⟨63, _⟩ => ⟨S20000x64, .f32⟩
  | .hbm, ⟨64, _⟩ => ⟨S20000x64, .f32⟩
  | .hbm, ⟨65, _⟩ => ⟨S_, .i32⟩
  | .hbm, ⟨66, _⟩ => ⟨S640000, .i32⟩
  | .hbm, ⟨67, _⟩ => ⟨S640000, .i1⟩
  | .hbm, ⟨68, _⟩ => ⟨S_, .i32⟩
  | .hbm, ⟨69, _⟩ => ⟨S640000, .i32⟩
  | .hbm, ⟨70, _⟩ => ⟨S640000, .i32⟩
  | .hbm, ⟨71, _⟩ => ⟨S640000, .i32⟩
  | .hbm, ⟨72, _⟩ => ⟨S640000x1, .i32⟩
  | .hbm, ⟨73, _⟩ => ⟨S640000x64, .f32⟩
  | .hbm, ⟨74, _⟩ => ⟨S640000x1, .f32⟩
  | .hbm, ⟨75, _⟩ => ⟨S640000x64, .f32⟩
  | .hbm, ⟨76, _⟩ => ⟨S640000x64, .f32⟩
  | .hbm, ⟨77, _⟩ => ⟨S_, .f32⟩
  | .hbm, ⟨78, _⟩ => ⟨S20000x64, .f32⟩
  | .hbm, ⟨79, _⟩ => ⟨S640000x1, .i32⟩
  | .hbm, ⟨80, _⟩ => ⟨S20000x64, .f32⟩
  | .hbm, ⟨81, _⟩ => ⟨S20000x64, .f32⟩
  | .hbm, ⟨82, _⟩ => ⟨S20000x64, .f32⟩
  | .hbm, ⟨83, _⟩ => ⟨S20000x64, .f32⟩
  | .hbm, ⟨84, _⟩ => ⟨S20000x64, .f32⟩
  | .hbm, ⟨85, _⟩ => ⟨S1x64, .f32⟩
  | .hbm, ⟨86, _⟩ => ⟨S20000x64, .f32⟩
  | .hbm, ⟨87, _⟩ => ⟨S20000x64, .f32⟩
  | .hbm, ⟨88, _⟩ => ⟨S20000x128, .f32⟩
  | .hbm, ⟨89, _⟩ => ⟨S_, .i32⟩
  | .hbm, ⟨90, _⟩ => ⟨S_, .f32⟩
  | .hbm, ⟨91, _⟩ => ⟨S32x20224, .f32⟩
  | .hbm, ⟨92, _⟩ => ⟨S_, .i32⟩
  | .hbm, ⟨93, _⟩ => ⟨S_, .f32⟩
  | .hbm, ⟨94, _⟩ => ⟨S20224x128, .f32⟩
  | .hbm, ⟨95, _⟩ => ⟨S128, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S32x20224, .f32⟩
  | .hbm, ⟨106, _⟩ => ⟨S32x20000, .f32⟩
  | .local _ .vmem, ⟨0, _⟩ => ⟨S32x256, .f32⟩
  | .local _ .vmem, ⟨1, _⟩ => ⟨S32x256, .f32⟩
  | .local _ .vmem, ⟨2, _⟩ => ⟨S256x128, .f32⟩
  | .local _ .vmem, ⟨3, _⟩ => ⟨S256x128, .f32⟩
  | .local _ .vmem, ⟨4, _⟩ => ⟨S128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S32x256, .f32⟩
  | .local _ .vmem, ⟨10, _⟩ => ⟨S32x256, .f32⟩
  | .local _ .vmem, ⟨11, _⟩ => ⟨S256x128, .f32⟩
  | .local _ .vmem, ⟨12, _⟩ => ⟨S256x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128x1, .f32⟩
  | .local _ .vmem, ⟨17, _⟩ => ⟨S1, .f32⟩
  | .local _ .vmem, ⟨18, _⟩ => ⟨S128, .f32⟩
  | .local _ .vmem, ⟨19, _⟩ => ⟨S128, .f32⟩
  | .local _ .vmem, ⟨20, _⟩ => ⟨S32x256, .f32⟩
  | .local _ .vmem, ⟨21, _⟩ => ⟨S32x256, .f32⟩
  | _, _ => ⟨S32x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_11 : Ref sig .tc := ⟨.hbm, 89, rfl⟩
abbrev main_call0_v0 : Ref sig .tc := ⟨.hbm, 90, rfl⟩
abbrev main_v65 : Ref sig .tc := ⟨.hbm, 91, rfl⟩
abbrev main_c_12 : Ref sig .tc := ⟨.hbm, 92, rfl⟩
abbrev main_call1_v0 : Ref sig .tc := ⟨.hbm, 93, rfl⟩
abbrev main_v66 : Ref sig .tc := ⟨.hbm, 94, rfl⟩
abbrev main_v67_0 : Ref sig .tc := ⟨.hbm, 95, rfl⟩
abbrev main_v67_1 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![79], ![false]⟩

def k0_cond2 (i : grid0.Coords) : BitVec 1 :=
  let arg0 : BitVec 32 := BitVec.ofNat 32 (i 0).val
  let c78_i32 : BitVec 32 := 78#32
  let v42 : BitVec 1 := Scalar.cmpi .eq arg0 c78_i32
  let v43 : BitVec 32 := Scalar.extui v42
  let c0_i32_12 : BitVec 32 := 0#32
  let v44 : BitVec 1 := Scalar.cmpi .ne v43 c0_i32_12
  v44

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![79], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S32x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  bcast_S20000_S20000x1_0 : S20000.BroadcastsInDim S20000x1 (![0] : Fin 1 → Fin S20000x1.rank)
  bcast_S640000x1_S640000x64_0_1 : S640000x1.BroadcastsInDim S640000x64 (![0, 1] : Fin 2 → Fin S640000x64.rank)
  bcast_S_S20000x64 : S_.BroadcastsInDim S20000x64 (![] : Fin 0 → Fin S20000x64.rank)
  bcast_S20000x1_S20000x64_0_1 : S20000x1.BroadcastsInDim S20000x64 (![0, 1] : Fin 2 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  pads_S32x20000_S32x20224_000_02240 : S32x20000.Pads (![0, 0] : Fin 2 → Nat) ![0, 224] ![0, 0] S32x20224
  h_S_ : 0 < S_.numel
  pads_S20000x128_S20224x128_02240_000 : S20000x128.Pads (![0, 0] : Fin 2 → Nat) ![224, 0] ![0, 0] S20224x128
  inb_S128_S128_0 : ∀ a, (![0] : Fin 1 → Nat) a + S128.size a ≤ S128.size a
  h_S128 : 0 < S128.numel
  shapeCasts_S128_S128 : S128.ShapeCasts S128
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S32x256_S32x256x1 : S32x256.ShapeCasts S32x256x1
  shapeCasts_S256x128_S1x256x128 : S256x128.ShapeCasts S1x256x128
  broadcasts_S32x256x1_S32x256x128 : S32x256x1.Broadcasts S32x256x128
  broadcasts_S1x256x128_S32x256x128 : S1x256x128.Broadcasts S32x256x128
  shapeCasts_S128_S1x1x128 : S128.ShapeCasts S1x1x128
  broadcasts_S1x1x128_S32x256x128 : S1x1x128.Broadcasts S32x256x128
  iota_S1x256_d1_w32 : S1x256.Iotas .tc 32 [1]
  natLt_1_32 : 1 < 32
  shapeCasts_S1x256_S1x256x1 : S1x256.ShapeCasts S1x256x1
  broadcasts_S1x256x1_S32x256x128 : S1x256x1.Broadcasts S32x256x128
  reduces_S32x256x128_S256x128 : S32x256x128.Reduces [0] S256x128
  reduces_S256x128_S128 : S256x128.Reduces [0] S128
  bcast_S_S128 : S_.BroadcastsInDim S128 (![] : Fin 0 → Fin S128.rank)
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S128x1_S128 : S128x1.ShapeCasts S128
  reduces_S32x256x128_S32x256 : S32x256x128.Reduces [2] S32x256
  inpos_S1_p0 : ∀ a, (![0] : Fin 1 → Nat) a < S1.size a
  slices_S32x20224_S32x20000_0_0 : S32x20224.Slices ![0, 0] S32x20000
  scatter_S20000_S640000x1_S640000_n_0_0_1_wf : ScatterDims.WF S20000 S640000x1 S640000 [] [0] [0] 1
  gather_S20000_S640000x1_S640000_n_0_n_n_0_1_1_wf : GatherDims.WF S20000 S640000x1 S640000 [] [0] [] [0] [] 1 ![1]
  gather_S20000x64_S640000x1_S640000x64_1_0_n_n_0_1_164_wf : GatherDims.WF S20000x64 S640000x1 S640000x64 [1] [0] [] [0] [] 1 ![1, 64]
  scatter_S20000x64_S640000x1_S640000x64_1_0_0_1_wf : ScatterDims.WF S20000x64 S640000x1 S640000x64 [1] [0] [0] 1
  dot_S20000x64_S64x64_S20000x64_1_0_0_1_n_n_wf : DotDims.WF S20000x64 S64x64 S20000x64 [1] [0] [0] [1] [] []
  dot_S20000x64_S64x128_S20000x128_1_0_0_1_n_n_wf : DotDims.WF S20000x64 S64x128 S20000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S32x20224.size a
  hwx0_0 : ∀ i : grid0.Coords, EltTy.bits .f32 = 32 ∨ (Rect.block (s := S32x20224) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S20224x128.size a
  hwx0_1 : ∀ i : grid0.Coords, EltTy.bits .f32 = 32 ∨ (Rect.block (s := S20224x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x256.size a ≤ S32x20224.size a
  hwx1_0 : ∀ i : grid1.Coords, EltTy.bits .f32 = 32 ∨ (Rect.block (s := S32x20224) S32x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S20224x128.size a
  hwx1_1 : ∀ i : grid1.Coords, EltTy.bits .f32 = 32 ∨ (Rect.block (s := S20224x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S32x256.size a ≤ S32x20224.size a
  hwx1_9 : ∀ i : grid1.Coords, EltTy.bits .f32 = 32 ∨ (Rect.block (s := S32x20224) S32x256.size (cc1_transform_9 i) (hinb1_9 i)).WholeWords (EltTy.packing .f32)

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf

abbrev win0_0 : Pipeline.Window sig grid0 :=
  Pipeline.Window.ofSpec (Memref.whole main_v65) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v67_0) S128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v67_1) S128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v65) S32x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v69) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v73) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v74) S32x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S32x20000 : Shape := ⟨2, ![32, 20000]⟩
abbrev S2x640000 : Shape := ⟨2, ![2, 640000]⟩
abbrev S20000x64 : Shape := ⟨2, ![20000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S20000 : Shape := ⟨1, ![20000]⟩
abbrev S640000x1 : Shape := ⟨2, ![640000, 1]⟩
abbrev S20000x1 : Shape := ⟨2, ![20000, 1]⟩
abbrev S640000x64 : Shape := ⟨2, ![640000, 64]⟩
abbrev S1x64 : Shape := ⟨2, ![1, 64]⟩
abbrev S32x20000x1 : Shape := ⟨3, ![32, 20000, 1]⟩
abbrev S1x20000x64 : Shape := ⟨3, ![1, 20000, 64]⟩
abbrev S32x20000x64 : Shape := ⟨3, ![32, 20000, 64]⟩
abbrev S640000x128 : Shape := ⟨2, ![640000, 128]⟩
abbrev S1x128 : Shape := ⟨2, ![1, 128]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S32x20000, .f32⟩
  | 1 => ⟨S2x640000, .i32⟩
  | 2 => ⟨S20000x64, .f32⟩
  | 3 => ⟨S64x64, .f32⟩
  | 4 => ⟨S64, .f32⟩
  | 5 => ⟨S64x128, .f32⟩
  | 6 => ⟨S128, .f32⟩
  | 7 => ⟨S128, .f32⟩
  | 8 => ⟨S128, .f32⟩
  | 9 => ⟨S128x1, .f32⟩
  | 10 => ⟨S1, .f32⟩
  | 11 => ⟨S1x640000, .i32⟩
  | 12 => ⟨S640000, .i32⟩
  | 13 => ⟨S1x640000, .i32⟩
  | 14 => ⟨S640000, .i32⟩
  | 15 => ⟨S_, .f32⟩
  | 16 => ⟨S640000, .f32⟩
  | 17 => ⟨S_, .f32⟩
  | 18 => ⟨S20000, .f32⟩
  | 19 => ⟨S640000x1, .i32⟩
  | 20 => ⟨S20000, .f32⟩
  | 21 => ⟨S_, .f32⟩
  | 22 => ⟨S20000, .f32⟩
  | 23 => ⟨S20000, .f32⟩
  | 24 => ⟨S20000, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000, .f32⟩
  | 43 => ⟨S640000, .f32⟩
  | 44 => ⟨S20000, .f32⟩
  | 45 => ⟨S20000x1, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x64, .f32⟩
  | 55 => ⟨S640000x1, .f32⟩
  | 56 => ⟨S640000x64, .f32⟩
  | 57 => ⟨S640000x64, .f32⟩
  | 58 => ⟨S_, .f32⟩
  | 59 => ⟨S20000x64, .f32⟩
  | 60 => ⟨S640000x1, .i32⟩
  | 61 => ⟨S20000x64, .f32⟩
  | 62 => ⟨S20000x64, .f32⟩
  | 63 => ⟨S20000x64, .f32⟩
  | 64 => ⟨S20000x64, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S640000x64, .f32⟩
  | 74 => ⟨S640000x1, .f32⟩
  | 75 => ⟨S640000x64, .f32⟩
  | 76 => ⟨S640000x64, .f32⟩
  | 77 => ⟨S_, .f32⟩
  | 78 => ⟨S20000x64, .f32⟩
  | 79 => ⟨S640000x1, .i32⟩
  | 80 => ⟨S20000x64, .f32⟩
  | 81 => ⟨S20000x64, .f32⟩
  | 82 => ⟨S20000x64, .f32⟩
  | 83 => ⟨S20000x64, .f32⟩
  | 84 => ⟨S20000x64, .f32⟩
  | 85 => ⟨S1x64, .f32⟩
  | 86 => ⟨S20000x64, .f32⟩
  | 87 => ⟨S20000x64, .f32⟩
  | 88 => ⟨S32x20000x1, .f32⟩
  | 89 => ⟨S1x20000x64, .f32⟩
  | 90 => ⟨S32x20000x64, .f32⟩
  | 91 => ⟨S32x20000x64, .f32⟩
  | 92 => ⟨S32x20000x64, .f32⟩
  | 93 => ⟨S640000x64, .f32⟩
  | 94 => ⟨S640000x128, .f32⟩
  | 95 => ⟨S1x128, .f32⟩
  | 96 => ⟨S640000x128, .f32⟩
  | 97 => ⟨S640000x128, .f32⟩
  | 98 => ⟨S_, .f32⟩
  | 99 => ⟨S128, .f32⟩
  | 100 => ⟨S_, .f32⟩
  | 101 => ⟨S128, .f32⟩
  | 102 => ⟨S128, .f32⟩
  | 103 => ⟨S_, .i32⟩
  | 104 => ⟨S_, .f32⟩
  | 105 => ⟨S128, .f32⟩
  | 106 => ⟨S1x128, .f32⟩
  | 107 => ⟨S_, .f32⟩
  | 108 => ⟨S1x128, .f32⟩
  | 109 => ⟨S1x128, .f32⟩
  | 110 => ⟨S640000x128, .f32⟩
  | 111 => ⟨S640000x128, .f32⟩
  | 112 => ⟨S640000x128, .f32⟩
  | 113 => ⟨S_, .f32⟩
  | 114 => ⟨S_, .f32⟩
  | 115 => ⟨S_, .f32⟩
  | 116 => ⟨S_, .f32⟩
  | 117 => ⟨S128, .f32⟩
  | 118 => ⟨S128, .f32⟩
  | 119 => ⟨S128, .f32⟩
  | 120 => ⟨S_, .f32⟩
  | 121 => ⟨S_, .i1⟩
  | 122 => ⟨S_, .f32⟩
  | 123 => ⟨S_, .f32⟩
  | 124 => ⟨S128, .f32⟩
  | 125 => ⟨S128, .f32⟩
  | 126 => ⟨S1x128, .f32⟩
  | 127 => ⟨S640000x128, .f32⟩
  | _ => ⟨S32x20000, .f32⟩

abbrev hbmTy0_1 (i : Nat) : BufTy := match i % 128 with
  | 0 => ⟨S640000x128, .f32⟩
  | 1 => ⟨S_, .f32⟩
  | 2 => ⟨S128, .f32⟩
  | 3 => ⟨S128, .f32⟩
  | 4 => ⟨S128, .f32⟩
  | 5 => ⟨S1x128, .f32⟩
  | 6 => ⟨S640000x128, .f32⟩
  | 7 => ⟨S640000x128, .f32⟩
  | 8 => ⟨S1x128, .f32⟩
  | 9 => ⟨S640000x128, .f32⟩
  | 10 => ⟨S640000x128, .f32⟩
  | 11 => ⟨S1x128, .f32⟩
  | 12 => ⟨S640000x128, .f32⟩
  | 13 => ⟨S640000x128, .f32⟩
  | 14 => ⟨S_, .f32⟩
  | 15 => ⟨S640000x128, .f32⟩
  | 16 => ⟨S640000x128, .f32⟩
  | 17 => ⟨S640000x1, .f32⟩
  | 18 => ⟨S1x1, .f32⟩
  | 19 => ⟨S640000x1, .f32⟩
  | 20 => ⟨S640000x1, .f32⟩
  | 21 => ⟨S32x20000, .f32⟩
  | 22 => ⟨S32x20000, .f32⟩
  | _ => ⟨S32x20000, .f32⟩

abbrev hbmTy (i : Nat) : BufTy := match i / 128 with
  | 0 => hbmTy0_0 i
  | 1 => hbmTy0_1 i
  | _ => ⟨S32x20000, .f32⟩

abbrev bufTy : (tb : Table) → Fin (tcTables nBuf tb) → BufTy
  | .hbm, ⟨i, _⟩ => hbmTy i
  | _, _ => ⟨S32x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_c_13 : Ref sig .tc := ⟨.hbm, 103, rfl⟩
abbrev main_call0_cst : Ref sig .tc := ⟨.hbm, 104, rfl⟩
abbrev main_call0_v0 : Ref sig .tc := ⟨.hbm, 105, rfl⟩
abbrev main_call0_v1 : Ref sig .tc := ⟨.hbm, 106, rfl⟩
abbrev main_call0_cst_0 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_v5 : Ref sig .tc := ⟨.hbm, 111, rfl⟩
abbrev main_call0_v6 : Ref sig .tc := ⟨.hbm, 112, rfl⟩
abbrev main_call0_v7 : Ref sig .tc := ⟨.hbm, 113, rfl⟩
abbrev main_call0_cst_1 : Ref sig .tc := ⟨.hbm, 114, rfl⟩
abbrev main_call0_v8 : Ref sig .tc := ⟨.hbm, 115, rfl⟩
abbrev main_call0_cst_2 : Ref sig .tc := ⟨.hbm, 116, rfl⟩
abbrev main_call0_v9 : Ref sig .tc := ⟨.hbm, 117, rfl⟩
abbrev main_call0_v10 : Ref sig .tc := ⟨.hbm, 118, rfl⟩
abbrev main_call0_v11 : Ref sig .tc := ⟨.hbm, 119, rfl⟩
abbrev main_call0_cst_3 : Ref sig .tc := ⟨.hbm, 120, rfl⟩
abbrev main_call0_v12 : Ref sig .tc := ⟨.hbm, 121, rfl⟩
abbrev main_call0_cst_4 : Ref sig .tc := ⟨.hbm, 122, rfl⟩
abbrev main_call0_call0_v0 : Ref sig .tc := ⟨.hbm, 123, rfl⟩
abbrev main_call0_call0_v1 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_14 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_call1_cst : Ref sig .tc := ⟨.hbm, 142, rfl⟩
abbrev main_call1_v0 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  bcast_S20000_S20000x1_0 : S20000.BroadcastsInDim S20000x1 (![0] : Fin 1 → Fin S20000x1.rank)
  bcast_S640000x1_S640000x64_0_1 : S640000x1.BroadcastsInDim S640000x64 (![0, 1] : Fin 2 → Fin S640000x64.rank)
  bcast_S_S20000x64 : S_.BroadcastsInDim S20000x64 (![] : Fin 0 → Fin S20000x64.rank)
  bcast_S20000x1_S20000x64_0_1 : S20000x1.BroadcastsInDim S20000x64 (![0, 1] : Fin 2 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S32x20000_S32x20000x1_0_1 : S32x20000.BroadcastsInDim S32x20000x1 (![0, 1] : Fin 2 → Fin S32x20000x1.rank)
  bcast_S20000x64_S1x20000x64_1_2 : S20000x64.BroadcastsInDim S1x20000x64 (![1, 2] : Fin 2 → Fin S1x20000x64.rank)
  bcast_S32x20000x1_S32x20000x64_0_1_2 : S32x20000x1.BroadcastsInDim S32x20000x64 (![0, 1, 2] : Fin 3 → Fin S32x20000x64.rank)
  bcast_S1x20000x64_S32x20000x64_0_1_2 : S1x20000x64.BroadcastsInDim S32x20000x64 (![0, 1, 2] : Fin 3 → Fin S32x20000x64.rank)
  shapeCasts_S32x20000x64_S640000x64 : S32x20000x64.ShapeCasts S640000x64
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  reducesTo_S640000x128_S128_d0 : S640000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  shapeCasts_S640000x1_S32x20000 : S640000x1.ShapeCasts S32x20000
  scatter_S20000_S640000x1_S640000_n_0_0_1_wf : ScatterDims.WF S20000 S640000x1 S640000 [] [0] [0] 1
  gather_S20000_S640000x1_S640000_n_0_n_n_0_1_1_wf : GatherDims.WF S20000 S640000x1 S640000 [] [0] [] [0] [] 1 ![1]
  gather_S20000x64_S640000x1_S640000x64_1_0_n_n_0_1_164_wf : GatherDims.WF S20000x64 S640000x1 S640000x64 [1] [0] [] [0] [] 1 ![1, 64]
  scatter_S20000x64_S640000x1_S640000x64_1_0_0_1_wf : ScatterDims.WF S20000x64 S640000x1 S640000x64 [1] [0] [0] 1
  dot_S20000x64_S64x64_S20000x64_1_0_0_1_n_n_wf : DotDims.WF S20000x64 S64x64 S20000x64 [1] [0] [0] [1] [] []
  dot_S640000x64_S64x128_S640000x128_1_0_0_1_n_n_wf : DotDims.WF S640000x64 S64x128 S640000x128 [1] [0] [0] [1] [] []
  dot_S640000x128_S128x1_S640000x1_1_0_0_1_n_n_wf : DotDims.WF S640000x128 S128x1 S640000x1 [1] [0] [0] [1] [] []

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf

class Facts : Prop extends Facts₀ where

variable [Facts]
-- ==== Proof.FinalRegion.lean ====
/-
  The final call's half of the program's run, at the buffer contents `V` the call is entered from.

  The call normalises and projects: at grid point `t` (79 points) it is handed the block of 256 genes
  `[32, 256]` of the padded expression matrix, the matching block `[256, 128]` of the padded projected
  embedding, and whole the bias, scale, shift, output weight, output bias, batch mean and batch variance;
  it writes one block `[32, 256]` of the result. Nothing is kept between points and no point reads what
  another wrote, so what the output block holds after the body is ONE function of the nine input blocks
  (`out1`): the body's single store, whole-block, of its payload.

  Stated here, for either reading of the floats: each window's block at a point (`iblk1`), the body's
  triple (`sound_kernel1`), the proof data of the call (`dat1`: arrays as entered, after the body each
  input's buffer at its block and the output's at `out1` of the blocks) and the body obligation at every
  point (`body_obligation1`).
-/
import proofs.«121308_j17678085390437_1_alg».proof.Proof.Gen.KernelIdeal.Launch
import proofs.«121308_j17678085390437_1_alg».proof.Proof.Gen.KernelIdeal.Skeleton
import proofs.«121308_j17678085390437_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole block -/

abbrev rX : Rect S32x256 := Rect.unit (s := S32x256) ![0, 0] S32x256.size inb_S32x256_S32x256_0_0
abbrev rH : Rect S256x128 := Rect.unit (s := S256x128) ![0, 0] S256x128.size inb_S256x128_S256x128_0_0
abbrev rV : Rect S128 := Rect.unit (s := S128) ![0] S128.size inb_S128_S128_0
abbrev rW : Rect S128x1 := Rect.unit (s := S128x1) ![0, 0] S128x1.size inb_S128x1_S128x1_0_0
abbrev rB : Rect S1 := Rect.unit (s := S1) ![0] S1.size inb_S1_S1_0

/-! ## What the body leaves in the output block -/

/-- The output block after the body, from the nine input blocks: the expression block plus, gene by gene, the
    projection of the normalised, rectified hidden row and the output bias — the body's one store, through the
    skeleton's payloads. -/
def out1 (x0 : Vec F S32x256 .f32) (x1 : Vec F S256x128 .f32) (x2 : Vec F S128 .f32) (x3 : Vec F S128 .f32) (x4 : Vec F S128 .f32) (x5 : Vec F S128x1 .f32) (x6 : Vec F S1 .f32) (x7 : Vec F S128 .f32) (x8 : Vec F S128 .f32) : Vec F S32x256 .f32 :=
  View.canon [⟨rX, k1_pay1 (k1_pay2 (View.ld x0 rX))
    (k1_pay3 (View.ld x0 rX) (View.ld x1 rH) (View.ld x2 rV) (View.ld x7 rV) (View.ld x8 rV) (View.ld x3 rV) (View.ld x4 rV) (View.ld x5 rW))
    (k1_pay4 (View.ld x6 rB))⟩]

/-- The store takes the whole block. -/
theorem cover1 (p0 : Vec F S32x256 .f32) (y : S32x256.Idx) :
    ∃ pc ∈ ([⟨rX, p0⟩] : List (View.Piece (Elt F) S32x256 .f32)), y ∈ pc.1.set :=
  View.cover_of_tiled [⟨rX, p0⟩] S32x256.size (by rfl) y

/-! ## The body's triple -/

set_option maxHeartbeats 4000000 in
/-- The body on whole staging memrefs, the inputs' at contents `x0 … x8` and the output's at anything, runs to the
    continuation holding the inputs' as they were and the output's at `out1` of them. -/
theorem sound_kernel1 (c : Dev nD) (E : Set ℕ) (i : grid1.Coords) (arg1 : Memref sig .tc .vmem S32x256 .f32) (harg1 : arg1.IsWhole) (arg2 : Memref sig .tc .vmem S256x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x1 .f32) (harg6 : arg6.IsWhole) (arg7 : Memref sig .tc .vmem S1 .f32) (harg7 : arg7.IsWhole) (arg8 : Memref sig .tc .vmem S128 .f32) (harg8 : arg8.IsWhole) (arg9 : Memref sig .tc .vmem S128 .f32) (harg9 : arg9.IsWhole) (arg10 : Memref sig .tc .vmem S32x256 .f32) (harg10 : arg10.IsWhole)
    (x0 : Vec F S32x256 .f32) (x1 : Vec F S256x128 .f32) (x2 : Vec F S128 .f32) (x3 : Vec F S128 .f32) (x4 : Vec F S128 .f32) (x5 : Vec F S128x1 .f32) (x6 : Vec F S1 .f32) (x7 : Vec F S128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1 x0 x1 x2 x3 x4 x5 x6 x7 x8)) -∗ K ⟨⟩))
      ⊢ wp frame (wpE (defs₀ (F := F)) Variants.none c none) E (cc1__final_kernel i arg1 harg1 arg2 harg2 arg3 harg3 arg4 harg4 arg5 harg5 arg6 harg6 arg7 harg7 arg8 harg8 arg9 harg9 arg10 harg10) K := by
  simp only [cc1__final_kernel_eq_skeleton]; unfold cc1__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1 _)

/-! ## The call's proof data -/

/-- The proof data of the call on core `c`: the arrays as the call finds them; after the body at point `t` each
    input's buffer at its block and the output's at `out1` of the blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Final

end
-- ==== Proof.StatsBody.lean ====
/-
  The statistics kernel's body, case by case.

  The body of the first pallas_call keeps two accumulators of shape [128] in scratch memory across its 79 grid
  points. At every point it loads the point's blocks `x` [32,256], `h` [256,128], `b` [128], forms the masked affine
  image `P = k0_pay4 i x h b` [32,256,128] and adds the column sums of `P` to the first accumulator (`k0_pay5`) and the
  column sums of `P * P` to the second (`k0_pay1 ∘ k0_pay6`). Under its first condition (the first grid point) it zeroes
  both accumulators beforehand; under its second (the last grid point) it copies both into the two outputs' buffers
  afterwards. No point satisfies both conditions, so three control cases occur; this module proves the body's triple in
  each, on whole memrefs, with what every buffer holds afterwards stated through the skeleton's payloads.
-/
import proofs.«121308_j17678085390437_1_alg».proof.Proof.Gen.KernelIdeal.Launch
import proofs.«121308_j17678085390437_1_alg».proof.Proof.Gen.KernelIdeal.Skeleton
import proofs.«121308_j17678085390437_1_alg».proof.Proof.Gen.KernelIdeal.Points
import Idealize.ShloMosaic.Lib.Pipeline.FrameBody
import Idealize.ShloMosaic.Lib.Pipeline.Value
import Idealize.ShloMosaic.Lib.WholeRead
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores -/

theorem hz1 : (![0] : Fin 1 → Nat) = fun _ => 0 := funext fun a => by fin_cases a; rfl
theorem hz2 : (![0, 0] : Fin 2 → Nat) = fun _ => 0 := funext fun a => by fin_cases a <;> rfl

/-- A load of the whole shape, at zero offsets, through a whole memref held at the contents that read `X`, reads `X`. -/
theorem readAt_whole {sp : Space} {S : Shape} {e : EltTy} {m : Memref sig .tc sp S e} (hm : m.IsWhole) (X : S.Idx → Elt F e)
    {off : Fin S.rank → ℕ} (hoff : off = fun _ => 0) (inb : ∀ a, off a + S.size a ≤ S.size a) :
    View.readAt (Elt F) m.view (Rect.unit off S.size inb).toLoadRect (hm.unread X) = X := by
  funext x
  exact (Memref.IsWhole.readAt_unread hm X _ x).trans (congrFun (View.ld_unit_zero hoff inb X) x)

/-- A store of the whole shape, at zero offsets, LAST, leaves its payload, whatever the buffer held and the earlier stores were. -/
theorem read_store_whole {sp : Space} {S : Shape} {e : EltTy} (v : View sig .tc sp S e) (f : v.ty.Contents (Elt F))
    {off : Fin S.rank → ℕ} (hoff : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨⟨Rect.unit off S.size inb, w⟩, List.mem_cons_self .., View.mem_set_unit_zero hoff inb y⟩),
    View.canon_cons_unit_zero hoff inb]

/-! ## The body's two conditions, in closed form -/

/-- The condition of the body's first `scf.if` (zero the accumulators), from the grid coordinate. -/
abbrev condFirst (i : grid0.Coords) : Prop :=
  (Scalar.cmpi .ne (Scalar.extui (Scalar.cmpi .eq (BitVec.ofNat 32 (i 0).val) 0#32)) 0#32) = 1#1
/-- The condition of its second (copy the accumulators to the outputs). -/
abbrev condLast (i : grid0.Coords) : Prop := k0_cond2 i = 1#1

/-- The first holds at the grid's first point only, -/
theorem hcondFirst : ∀ t : Fin cfg0.N, condFirst (grid0.coords t) ↔ t.val % 79 = 0 :=
  (by decide +kernel : ∀ t : Fin grid0.N, condFirst (grid0.coords t) ↔ t.val % 79 = 0)
/-- the second at its last point only. -/
theorem hcondLast : ∀ t : Fin cfg0.N, condLast (grid0.coords t) ↔ t.val % 79 = 78 :=
  (by decide +kernel : ∀ t : Fin grid0.N, condLast (grid0.coords t) ↔ t.val % 79 = 78)

/-! ## The body's triple, one per control case

On whole memrefs: the three inputs' staging buffers at their blocks `x`, `h`, `b`; the two accumulators `arg6`, `arg7`.
With `P = k0_pay4 i x h b` the masked affine image of the blocks, `k0_pay5 i x h b s` is `s` plus the column sums of `P` and
`k0_pay1 (k0_pay6 i x h b s)` is `s` plus the column sums of `P * P`. -/

set_option maxHeartbeats 1000000 in
/-- The FIRST point (the first condition only): the accumulators, found at anything, are zeroed (`k0_pay2`, `k0_pay3`)
    and then added to. The outputs' buffers are not touched. -/
theorem run_first (c : Dev nD) (E : Set ℕ) (i : grid0.Coords)
    (arg1 : Memref sig .tc .vmem S32x256 .f32) (harg1 : arg1.IsWhole) (arg2 : Memref sig .tc .vmem S256x128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S128 .f32) (harg7 : arg7.IsWhole)
    (hc1 : condFirst i) (hc2 : ¬condLast i)
    (x : Vec F S32x256 .f32) (h : Vec F S256x128 .f32) (b : Vec F S128 .f32)
    (K : PUnit → sProp 𝕄) :
    iprop(owns (c : Thread nD τ) arg1 fullShare x ∗ owns (c : Thread nD τ) arg2 fullShare h ∗ owns (c : Thread nD τ) arg3 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare b
            ∗ owns (c : Thread nD τ) arg6 fullShare (k0_pay5 i x h b k0_pay2) ∗ owns (c : Thread nD τ) arg7 fullShare (k0_pay1 (k0_pay6 i x h b k0_pay3))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%d6, %f6, -, H6⟩, ⟨%d7, %f7, -, H7⟩, Hk⟩
  obtain rfl := harg1.eq_unread hf1; obtain rfl := harg2.eq_unread hf2; obtain rfl := harg3.eq_unread hf3
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro
    (try sl_unfold_run_names); simp only [read_store_whole (S := S128) _ _ hz1, View.readCov_unit_zero (S := S128) _ hz1, readAt_whole harg1 x hz2, readAt_whole harg2 h hz2, readAt_whole harg3 b hz1]
  iexists _; isplitr
  swap; · iexact H7
  ipureintro
  (try sl_unfold_run_names); simp only [read_store_whole (S := S128) _ _ hz1, View.readCov_unit_zero (S := S128) _ hz1, readAt_whole harg1 x hz2, readAt_whole harg2 h hz2, readAt_whole harg3 b hz1]

set_option maxHeartbeats 1000000 in
/-- A MIDDLE point (neither condition): the accumulators, found at `s6`, `s7`, are added to. The outputs' buffers are
    not touched. -/
theorem run_mid (c : Dev nD) (E : Set ℕ) (i : grid0.Coords)
    (arg1 : Memref sig .tc .vmem S32x256 .f32) (harg1 : arg1.IsWhole) (arg2 : Memref sig .tc .vmem S256x128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S128 .f32) (harg7 : arg7.IsWhole)
    (hc1 : ¬condFirst i) (hc2 : ¬condLast i)
    (x : Vec F S32x256 .f32) (h : Vec F S256x128 .f32) (b : Vec F S128 .f32) (s6 s7 : Vec F S128 .f32)
    (K : PUnit → sProp 𝕄) :
    iprop(owns (c : Thread nD τ) arg1 fullShare x ∗ owns (c : Thread nD τ) arg2 fullShare h ∗ owns (c : Thread nD τ) arg3 fullShare b
        ∗ owns (c : Thread nD τ) arg6 fullShare s6 ∗ owns (c : Thread nD τ) arg7 fullShare s7
        ∗ (iprop(owns (c : Thread nD τ) arg1 fullShare x ∗ owns (c : Thread nD τ) arg2 fullShare h ∗ owns (c : Thread nD τ) arg3 fullShare b
            ∗ owns (c : Thread nD τ) arg6 fullShare (k0_pay5 i x h b s6) ∗ owns (c : Thread nD τ) arg7 fullShare (k0_pay1 (k0_pay6 i x h b s7))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro
    (try sl_unfold_run_names); simp only [read_store_whole (S := S128) _ _ hz1, View.readCov_unit_zero (S := S128) _ hz1, readAt_whole harg1 x hz2, readAt_whole harg2 h hz2, readAt_whole harg3 b hz1, readAt_whole harg6 s6 hz1]
  iexists _; isplitr
  swap; · iexact H7
  ipureintro
  (try sl_unfold_run_names); simp only [read_store_whole (S := S128) _ _ hz1, View.readCov_unit_zero (S := S128) _ hz1, readAt_whole harg1 x hz2, readAt_whole harg2 h hz2, readAt_whole harg3 b hz1, readAt_whole harg7 s7 hz1]

set_option maxHeartbeats 1000000 in
/-- The LAST point (the second condition only): the accumulators, found at `s6`, `s7`, are added to and then copied
    into the two outputs' buffers, found at anything. -/
theorem run_last (c : Dev nD) (E : Set ℕ) (i : grid0.Coords)
    (arg1 : Memref sig .tc .vmem S32x256 .f32) (harg1 : arg1.IsWhole) (arg2 : Memref sig .tc .vmem S256x128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S128 .f32) (harg7 : arg7.IsWhole)
    (hc1 : ¬condFirst i) (hc2 : condLast i)
    (x : Vec F S32x256 .f32) (h : Vec F S256x128 .f32) (b : Vec F S128 .f32) (s6 s7 : Vec F S128 .f32)
    (K : PUnit → sProp 𝕄) :
    iprop(owns (c : Thread nD τ) arg1 fullShare x ∗ owns (c : Thread nD τ) arg2 fullShare h ∗ owns (c : Thread nD τ) arg3 fullShare b
        ∗ (∃ d, owns (c : Thread nD τ) arg4 fullShare d) ∗ (∃ d, owns (c : Thread nD τ) arg5 fullShare d)
        ∗ owns (c : Thread nD τ) arg6 fullShare s6 ∗ owns (c : Thread nD τ) arg7 fullShare s7
        ∗ (iprop(owns (c : Thread nD τ) arg1 fullShare x ∗ owns (c : Thread nD τ) arg2 fullShare h ∗ owns (c : Thread nD τ) arg3 fullShare b
            ∗ owns (c : Thread nD τ) arg4 fullShare (k0_pay5 i x h b s6) ∗ owns (c : Thread nD τ) arg5 fullShare (k0_pay1 (k0_pay6 i x h b s7))
            ∗ owns (c : Thread nD τ) arg6 fullShare (k0_pay5 i x h b s6) ∗ owns (c : Thread nD τ) arg7 fullShare (k0_pay1 (k0_pay6 i x h b s7))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    (try sl_unfold_run_names); simp only [read_store_whole (S := S128) _ _ hz1, View.readCov_unit_zero (S := S128) _ hz1, readAt_whole harg1 x hz2, readAt_whole harg2 h hz2, readAt_whole harg3 b hz1, readAt_whole harg6 s6 hz1]
  isplitl [H5]
  · iexists _; isplitr
    swap; · iexact H5
    ipureintro
    (try sl_unfold_run_names); simp only [read_store_whole (S := S128) _ _ hz1, View.readCov_unit_zero (S := S128) _ hz1, readAt_whole harg1 x hz2, readAt_whole harg2 h hz2, readAt_whole harg3 b hz1, readAt_whole harg7 s7 hz1]
  isplitl [H6]
  · iexists _; isplitr
    swap; · iexact H6
    ipureintro
    (try sl_unfold_run_names); simp only [read_store_whole (S := S128) _ _ hz1, View.readCov_unit_zero (S := S128) _ hz1, readAt_whole harg1 x hz2, readAt_whole harg2 h hz2, readAt_whole harg3 b hz1, readAt_whole harg6 s6 hz1]
  iexists _; isplitr
  swap; · iexact H7
  ipureintro
  (try sl_unfold_run_names); simp only [read_store_whole (S := S128) _ _ hz1, View.readCov_unit_zero (S := S128) _ hz1, readAt_whole harg1 x hz2, readAt_whole harg2 h hz2, readAt_whole harg3 b hz1, readAt_whole harg7 s7 hz1]

end Cert.KernelIdeal.Stats

end
-- ==== Proof.StatsRegion.lean ====
/-
  The statistics region at a parameter `V`, the TensorCore's buffer contents when the region is entered.

  The first pallas_call runs its body at 79 grid points over five windows — the inputs `x` (block [32,256] at column
  block `t`), `h` (block [256,128] at row block `t`) and `b` ([128], one block), and the two outputs `sum` and `sumsq`
  ([128], one block each, written back after the last point only) — and carries two accumulators in scratch memory
  from point to point. With `P_t` the masked affine image of point `t`'s blocks (`k0_pay4`), after point `n` the first
  accumulator holds `accS V c n` = 0 + Σ_{t ≤ n} (column sums of `P_t`) and the second `accQ V c n` = 0 + Σ_{t ≤ n}
  (column sums of `P_t * P_t`), each sum taken in point order through the skeleton's payloads (`k0_pay5`, `k0_pay1 ∘ k0_pay6`).

  Stated here: the windows' blocks (`iblk0`), the two recursions with their step equations, the pipeline's proof data
  (`dat0`: arrays as found; inputs' buffers at their blocks; the invariant tracking the accumulators point by point), the
  body obligation from the three control cases' triples (first point: zero, then add; middle points: add; last point:
  add, then copy to the outputs), the invariant at the region's two ends, and the arrays after the region: inputs as
  found, `sum` at `accS V c 78`, `sumsq` at `accQ V c 78`.
-/
import proofs.«121308_j17678085390437_1_alg».proof.Proof.StatsBody

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid's points by number -/

/-- The grid point numbered `n` (numbers are taken modulo the 79 points). -/
def pt (n : ℕ) : Fin cfg0.N :=
  ⟨n % 79, lt_of_lt_of_eq (Nat.mod_lt n (by decide)) (show 79 = cfg0.N from N_0.symm)⟩

theorem pt_of_lt (n : ℕ) (h : n < cfg0.N) : pt n = ⟨n, h⟩ :=
  Fin.ext (Nat.mod_eq_of_lt (lt_of_lt_of_eq h (show cfg0.N = 79 from N_0)))

theorem pt_val (t : Fin cfg0.N) : pt t.val = t := pt_of_lt t.val t.isLt

/-! ## Where the two outputs' windows are idle, and when they are written back -/

/-- The output windows are idle at every point but the last, -/
theorem idle0_3 : ∀ t : Fin cfg0.N, t.val ≠ 78 → cfg0.idle 3 (grid0.coords t) = true := by decide +kernel
theorem idle0_4 : ∀ t : Fin cfg0.N, t.val ≠ 78 → cfg0.idle 4 (grid0.coords t) = true := by decide +kernel
/-- live at the last, -/
theorem live0_3 : ∀ t : Fin cfg0.N, t.val = 78 → cfg0.idle 3 (grid0.coords t) = false := by decide +kernel
theorem live0_4 : ∀ t : Fin cfg0.N, t.val = 78 → cfg0.idle 4 (grid0.coords t) = false := by decide +kernel
/-- and written back at the last point only. -/
theorem noFlush0_3 (t : Fin cfg0.N) (h : t.val ≠ 78) : (cfg0.win 3).flush t = false := by
  have hN : t.val < 79 := lt_of_lt_of_eq t.isLt (show cfg0.N = 79 from N_0)
  cases hf : (cfg0.win 3).flush t with
  | false => rfl
  | true => exact absurd ((flush0_3 t).mp hf) (by omega)
theorem noFlush0_4 (t : Fin cfg0.N) (h : t.val ≠ 78) : (cfg0.win 4).flush t = false := by
  have hN : t.val < 79 := lt_of_lt_of_eq t.isLt (show cfg0.N = 79 from N_0)
  cases hf : (cfg0.win 4).flush t with
  | false => rfl
  | true => exact absurd ((flush0_4 t).mp hf) (by omega)

/-- The two scratch accumulators, as memrefs. -/
abbrev scM0 : Memref sig .tc .vmem S128 .f32 := Memref.whole cc0_scratch0
abbrev scM1 : Memref sig .tc .vmem S128 .f32 := Memref.whole cc0_scratch1

/-- The core's scoped buffers that are neither a staging buffer of this pallas_call nor one of its two accumulators (the
    second pallas_call's staging buffers), each whole at some contents. -/
def restOther (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg8_0), ((c : Thread nD τ).loc cc1_stg8_0) ↦{fullShare} f)
      ∗ (∃ f : Buf (Elt F) ((c : Thread nD τ).loc cc1_stg9_0), ((c : Thread nD τ).loc cc1_stg9_0) ↦{fullShare} f)
      ∗ (∃ f : Buf (Elt F) ((c : Thread nD τ).loc cc1_stg9_1), ((c : Thread nD τ).loc cc1_stg9_1) ↦{fullShare} f))

/-- The scoped rest of this pallas_call: its two accumulators, at some contents, and the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ restOther c) := by
  rw [scopedRest0_eq]; unfold restOther; simp only [scM0, scM1, owns_whole]; try rfl

/-! # The region at the entry contents `V` -/

section Region

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the accumulators hold after each point -/

/-- THE FIRST ACCUMULATOR after point `n`: zero (`k0_pay2`) plus, point by point up to `n`, the column sums of the masked
    affine image of the point's blocks. -/
def accS (c : Dev nD) : ℕ → FVec F S128 .f32
  | 0 => k0_pay5 (grid0.coords (pt 0)) (iblk0 V c 0 (pt 0)) (iblk0 V c 1 (pt 0)) (iblk0 V c 2 (pt 0)) k0_pay2
  | n + 1 => k0_pay5 (grid0.coords (pt (n + 1))) (iblk0 V c 0 (pt (n + 1))) (iblk0 V c 1 (pt (n + 1))) (iblk0 V c 2 (pt (n + 1))) (accS c n)

/-- THE SECOND ACCUMULATOR after point `n`: zero (`k0_pay3`) plus, point by point up to `n`, the column sums of the square
    of that image. -/
def accQ (c : Dev nD) : ℕ → FVec F S128 .f32
  | 0 => k0_pay1 (k0_pay6 (grid0.coords (pt 0)) (iblk0 V c 0 (pt 0)) (iblk0 V c 1 (pt 0)) (iblk0 V c 2 (pt 0)) k0_pay3)
  | n + 1 => k0_pay1 (k0_pay6 (grid0.coords (pt (n + 1))) (iblk0 V c 0 (pt (n + 1))) (iblk0 V c 1 (pt (n + 1))) (iblk0 V c 2 (pt (n + 1))) (accQ c n))

theorem accS_zero (c : Dev nD) :
    accS V c 0 = k0_pay5 (grid0.coords (pt 0)) (iblk0 V c 0 (pt 0)) (iblk0 V c 1 (pt 0)) (iblk0 V c 2 (pt 0)) k0_pay2 := rfl
theorem accS_succ (c : Dev nD) (n : ℕ) :
    accS V c (n + 1) = k0_pay5 (grid0.coords (pt (n + 1))) (iblk0 V c 0 (pt (n + 1))) (iblk0 V c 1 (pt (n + 1))) (iblk0 V c 2 (pt (n + 1))) (accS V c n) := rfl
theorem accQ_zero (c : Dev nD) :
    accQ V c 0 = k0_pay1 (k0_pay6 (grid0.coords (pt 0)) (iblk0 V c 0 (pt 0)) (iblk0 V c 1 (pt 0)) (iblk0 V c 2 (pt 0)) k0_pay3) := rfl
theorem accQ_succ (c : Dev nD) (n : ℕ) :
    accQ V c (n + 1) = k0_pay1 (k0_pay6 (grid0.coords (pt (n + 1))) (iblk0 V c 0 (pt (n + 1))) (iblk0 V c 1 (pt (n + 1))) (iblk0 V c 2 (pt (n + 1))) (accQ V c n)) := rfl

/-- At the first point: the step from zero. -/
theorem accS_first (c : Dev nD) (t : Fin cfg0.N) (hz : t.val = 0) :
    accS V c t.val = k0_pay5 (grid0.coords t) (iblk0 V c 0 t) (iblk0 V c 1 t) (iblk0 V c 2 t) k0_pay2 := by
  have hp : pt 0 = t := by have := pt_val t; rwa [hz] at this
  rw [hz, accS_zero, hp]
theorem accQ_first (c : Dev nD) (t : Fin cfg0.N) (hz : t.val = 0) :
    accQ V c t.val = k0_pay1 (k0_pay6 (grid0.coords t) (iblk0 V c 0 t) (iblk0 V c 1 t) (iblk0 V c 2 t) k0_pay3) := by
  have hp : pt 0 = t := by have := pt_val t; rwa [hz] at this
  rw [hz, accQ_zero, hp]

/-- At a later point: the step from what the point before left. -/
theorem accS_later (c : Dev nD) (t : Fin cfg0.N) (hz : t.val ≠ 0) :
    accS V c t.val = k0_pay5 (grid0.coords t) (iblk0 V c 0 t) (iblk0 V c 1 t) (iblk0 V c 2 t) (accS V c (t.val - 1)) := by
  obtain ⟨n, hn⟩ := t
  cases n with
  | zero => exact absurd rfl hz
  | succ n =>
    exact (by rw [accS_succ, pt_of_lt (n + 1) hn] :
      accS V c (n + 1) = k0_pay5 (grid0.coords ⟨n + 1, hn⟩) (iblk0 V c 0 ⟨n + 1, hn⟩) (iblk0 V c 1 ⟨n + 1, hn⟩) (iblk0 V c 2 ⟨n + 1, hn⟩) (accS V c n))
theorem accQ_later (c : Dev nD) (t : Fin cfg0.N) (hz : t.val ≠ 0) :
    accQ V c t.val = k0_pay1 (k0_pay6 (grid0.coords t) (iblk0 V c 0 t) (iblk0 V c 1 t) (iblk0 V c 2 t) (accQ V c (t.val - 1))) := by
  obtain ⟨n, hn⟩ := t
  cases n with
  | zero => exact absurd rfl hz
  | succ n =>
    exact (by rw [accQ_succ, pt_of_lt (n + 1) hn] :
      accQ V c (n + 1) = k0_pay1 (k0_pay6 (grid0.coords ⟨n + 1, hn⟩) (iblk0 V c 0 ⟨n + 1, hn⟩) (iblk0 V c 1 ⟨n + 1, hn⟩) (iblk0 V c 2 ⟨n + 1, hn⟩) (accQ V c n)))

/-! ## The invariant -/

/-- The region's invariant before the point numbered `n`: before the first, both accumulators at anything; afterwards
    at what the point before left; throughout, the other scoped buffers at anything and the generator register at some
    state. -/
def PhiSt (c : Dev nD) : ℕ → sProp 𝕄
  | 0 => iprop((∃ d, owns (c : Thread nD τ) scM0 fullShare d) ∗ (∃ d, owns (c : Thread nD τ) scM1 fullShare d)
      ∗ restOther c ∗ ∃ r, prngReg c r)
  | n + 1 => iprop(owns (c : Thread nD τ) scM0 fullShare (accS V c n) ∗ owns (c : Thread nD τ) scM1 fullShare (accQ V c n)
      ∗ restOther c ∗ ∃ r, prngReg c r)

theorem PhiSt_zero (c : Dev nD) (n : ℕ) (hz : n = 0) :
    PhiSt V c n = iprop((∃ d, owns (c : Thread nD τ) scM0 fullShare d) ∗ (∃ d, owns (c : Thread nD τ) scM1 fullShare d)
      ∗ restOther c ∗ ∃ r, prngReg c r) := by
  subst hz; rfl

theorem PhiSt_succ (c : Dev nD) (n : ℕ) :
    PhiSt V c (n + 1) = iprop(owns (c : Thread nD τ) scM0 fullShare (accS V c n) ∗ owns (c : Thread nD τ) scM1 fullShare (accQ V c n)
      ∗ restOther c ∗ ∃ r, prngReg c r) := rfl

theorem PhiSt_pos (c : Dev nD) (n : ℕ) (hz : n ≠ 0) :
    PhiSt V c n = iprop(owns (c : Thread nD τ) scM0 fullShare (accS V c (n - 1)) ∗ owns (c : Thread nD τ) scM1 fullShare (accQ V c (n - 1))
      ∗ restOther c ∗ ∃ r, prngReg c r) := by
  cases n with
  | zero => exact absurd rfl hz
  | succ n => rfl

/-! ## The pipeline's proof data -/

/-- The proof data of the pipeline on core `c`: the arrays as the region finds them (`V`); after the body at point `t`
    each input's buffer at its block, and the outputs' at the accumulators after `t` (what the last point copies there;
    at the earlier points the outputs' windows are idle and this is not consulted); the invariant `PhiSt`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => accS V c t.val
    | ⟨4, _⟩ => accQ V c t.val
  Φ t := PhiSt V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = accS V c t.val := by dsimp only [dat0]
theorem after0_4 (c : Dev nD) (t : Fin cfg0.N) : (dat0 V c).after 4 t = accQ V c t.val := by dsimp only [dat0]

theorem Phi_castSucc (c : Dev nD) (t : Fin cfg0.N) : (dat0 V c).Φ t.castSucc = PhiSt V c t.val := by
  dsimp only [dat0]; simp only [Fin.coe_castSucc]

theorem Phi_succ (c : Dev nD) (t : Fin cfg0.N) : (dat0 V c).Φ t.succ = PhiSt V c (t.val + 1) := rfl

/-- Each input's current staging buffer holds its block at every point, fetched there or not: an unfetched window's
    block index has not moved, and the body leaves the inputs' buffers as it finds them. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The inputs' windows are never idle: the body hands their buffers back at their blocks. -/
theorem leaves0_0 (c : Dev nD) (t : Fin cfg0.N) :
    (dat0 V c).leavesExact 0 t = owns (c : Thread nD τ) (st0_0 t) fullShare (iblk0 V c 0 t) := by
  rw [← after0_0]
theorem leaves0_1 (c : Dev nD) (t : Fin cfg0.N) :
    (dat0 V c).leavesExact 1 t = owns (c : Thread nD τ) (st0_1 t) fullShare (iblk0 V c 1 t) := by
  rw [← after0_1]
theorem leaves0_2 (c : Dev nD) (t : Fin cfg0.N) :
    (dat0 V c).leavesExact 2 t = owns (c : Thread nD τ) (st0_2 t) fullShare (iblk0 V c 2 t) := by
  rw [← after0_2]
/-- At the last point the outputs' windows are live: their buffers are handed back at the accumulators. -/
theorem leaves0_3 (c : Dev nD) (t : Fin cfg0.N) (hl : t.val = 78) :
    (dat0 V c).leavesExact 3 t = owns (c : Thread nD τ) (st0_3 t) fullShare (accS V c t.val) := by
  rw [← after0_3]; unfold Dat.leavesExact; rw [live0_3 t hl]
theorem leaves0_4 (c : Dev nD) (t : Fin cfg0.N) (hl : t.val = 78) :
    (dat0 V c).leavesExact 4 t = owns (c : Thread nD τ) (st0_4 t) fullShare (accQ V c t.val) := by
  rw [← after0_4]; unfold Dat.leavesExact; rw [live0_4 t hl]

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 2000000 in
/-- The body at any point. The inputs' memrefs hold their blocks (`before0_W`). At the first point the invariant hands the
    accumulators over at anything and `run_first` leaves them at the first step from zero; at a later point it hands them
    over at what the point before left and `run_mid` / `run_last` leave them one step further. Before the last point the
    outputs' windows are idle and their buffers go back as they came; at the last they go back at the accumulators. The
    other scoped buffers, the generator register and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    Phi_succ, Phi_castSucc, PhiSt_succ, leaves0_0, leaves0_1, leaves0_2]
  have hN : t.val < 79 := lt_of_lt_of_eq t.isLt (show cfg0.N = 79 from N_0)
  by_cases hl : t.val = 78
  · -- the last point
    have hz : t.val ≠ 0 := by omega
    have hc1 : ¬condFirst (grid0.coords t) := fun h => hz (by have := (hcondFirst t).mp h; omega)
    have hc2 : condLast (grid0.coords t) := (hcondLast t).mpr (by omega)
    rw [leaves0_3 V c t hl, leaves0_4 V c t hl, PhiSt_pos V c _ hz, accS_later V c t hz, accQ_later V c t hz]
    iintro ⟨⟨HS0, HS1, HR, Hg⟩, Ho, ⟨%d0, H0⟩, ⟨%d1, H1⟩, ⟨%d2, H2⟩, ⟨%d3, H3⟩, ⟨%d4, H4⟩⟩
    iapply (run_last c Set.univ (grid0.coords t) _ _ _ _ _ _ _ _ _ _ _ _ _ _ hc1 hc2 (iblk0 V c 0 t) (iblk0 V c 1 t) (iblk0 V c 2 t)
      (accS V c (t.val - 1)) (accQ V c (t.val - 1)) _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    iexact H4
  · have hc2 : ¬condLast (grid0.coords t) := fun h => hl (by have := (hcondLast t).mp h; omega)
    rw [Dat.leavesExact_idle (dat0 V c) 3 t (idle0_3 t hl) (noFlush0_3 t hl),
      Dat.leavesExact_idle (dat0 V c) 4 t (idle0_4 t hl) (noFlush0_4 t hl)]
    by_cases hz : t.val = 0
    · -- the first point
      have hc1 : condFirst (grid0.coords t) := (hcondFirst t).mpr (by omega)
      rw [PhiSt_zero V c _ hz, accS_first V c t hz, accQ_first V c t hz]
      iintro ⟨⟨HS0, HS1, HR, Hg⟩, Ho, ⟨%d0, H0⟩, ⟨%d1, H1⟩, ⟨%d2, H2⟩, H3, H4⟩
      iapply (run_first c Set.univ (grid0.coords t) _ _ _ _ _ _ _ _ _ _ _ _ _ _ hc1 hc2 (iblk0 V c 0 t) (iblk0 V c 1 t) (iblk0 V c 2 t) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · -- a middle point
      have hc1 : ¬condFirst (grid0.coords t) := fun h => hz (by have := (hcondFirst t).mp h; omega)
      rw [PhiSt_pos V c _ hz, accS_later V c t hz, accQ_later V c t hz]
      iintro ⟨⟨HS0, HS1, HR, Hg⟩, Ho, ⟨%d0, H0⟩, ⟨%d1, H1⟩, ⟨%d2, H2⟩, H3, H4⟩
      iapply (run_mid c Set.univ (grid0.coords t) _ _ _ _ _ _ _ _ _ _ _ _ _ _ hc1 hc2 (iblk0 V c 0 t) (iblk0 V c 1 t) (iblk0 V c 2 t)
        (accS V c (t.val - 1)) (accQ V c (t.val - 1)) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the region is entered with — the generator register at some state and the scoped rest — is the invariant before
    the first point. -/
theorem Phi0_in (c : Dev nD) :
    iprop((∃ r, prngReg c r) ∗ Pipeline.scopedRest (Ix := Unit) (Name := ℕ) (U := UR sig nD τ) (Lvl := ℕ) (Val := Elt F) spec0 c)
      ⊢ (dat0 V c).Φ 0 := by
  rw [show (dat0 V c).Φ 0 = PhiSt V c 0 from rfl, PhiSt_zero V c 0 rfl, scopedRest0_split]
  iintro ⟨Hg, HS0, HS1, HR⟩
  isplitl [HS0]; · iexact HS0
  isplitl [HS1]; · iexact HS1
  isplitl [HR]; · iexact HR
  iexact Hg

/-- After the last point the invariant gives both back: what the accumulators hold is forgotten. -/
theorem Phi0_out (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiSt V c cfg0.N from rfl,
    PhiSt_pos V c cfg0.N (by have : cfg0.N = 79 := N_0; omega), scopedRest0_split]
  iintro ⟨HS0, HS1, HR, Hg⟩
  isplitl [Hg]; · iexact Hg
  isplitl [HS0]; · iexists _; iexact HS0
  isplitl [HS1]; · iexists _; iexact HS1
  iexact HR

/-! ## The arrays after the region -/

/-- The inputs' arrays end as the region found them: no write-back touches an input. -/
theorem arr_in0 (c : Dev nD) (w : Fin cfg0.W) (hw : w.val < 3) : (dat0 V c).arrAt w cfg0.N = V c (Pipeline.arrRef spec0 w) :=
  match w, hw with
  | ⟨0, _⟩, _ => ((dat0 V c).arrAt_in 0 rfl _).trans (A_eq0 V c 0)
  | ⟨1, _⟩, _ => ((dat0 V c).arrAt_in 1 rfl _).trans (A_eq0 V c 1)
  | ⟨2, _⟩, _ => ((dat0 V c).arrAt_in 2 rfl _).trans (A_eq0 V c 2)
  | ⟨n + 3, _⟩, h => absurd h (Nat.not_lt.2 (Nat.le_add_left 3 n))

/-- The outputs' one block is their whole array, at block index zero: read through it, contents are themselves. -/
theorem read_blk0_3 (c : Dev nD) (t : Fin cfg0.N) (G : Buf (Elt F) ((cfg0.win 3).arr.view.loc (c.tc : Thread nD τ))) :
    ((cfg0.win 3).blk t).view.read (Elt F) G = G := by
  have hoff : (fun a => (cfg0.win 3).index t a * (cfg0.win 3).size a) = fun _ => 0 :=
    funext fun a => by fin_cases a; rfl
  exact View.ld_unit_zero (S := S128) hoff _ G
theorem read_blk0_4 (c : Dev nD) (t : Fin cfg0.N) (G : Buf (Elt F) ((cfg0.win 4).arr.view.loc (c.tc : Thread nD τ))) :
    ((cfg0.win 4).blk t).view.read (Elt F) G = G := by
  have hoff : (fun a => (cfg0.win 4).index t a * (cfg0.win 4).size a) = fun _ => 0 :=
    funext fun a => by fin_cases a; rfl
  exact View.ld_unit_zero (S := S128) hoff _ G

/-- and it covers the array. -/
theorem mem_blk0_3 (c : Dev nD) (t : Fin cfg0.N) (i : ((cfg0.win 3).arr.view.loc (c.tc : Thread nD τ)).2.ty.Idx) :
    i ∈ ((cfg0.win 3).blk t).view.set := by
  have hoff : (fun a => (cfg0.win 3).index t a * (cfg0.win 3).size a) = fun _ => 0 :=
    funext fun a => by fin_cases a; rfl
  show i ∈ ((View.whole main_v67_0).slice ((cfg0.win 3).rect t)).set
  rw [View.set_slice_whole]
  exact View.mem_set_unit_zero (S := S128) hoff _ i
theorem mem_blk0_4 (c : Dev nD) (t : Fin cfg0.N) (i : ((cfg0.win 4).arr.view.loc (c.tc : Thread nD τ)).2.ty.Idx) :
    i ∈ ((cfg0.win 4).blk t).view.set := by
  have hoff : (fun a => (cfg0.win 4).index t a * (cfg0.win 4).size a) = fun _ => 0 :=
    funext fun a => by fin_cases a; rfl
  show i ∈ ((View.whole main_v67_1).slice ((cfg0.win 4).rect t)).set
  rw [View.set_slice_whole]
  exact View.mem_set_unit_zero (S := S128) hoff _ i

/-- THE SUMS' ARRAY after the region: the one write-back, after the last point, of the first accumulator. -/
theorem sum_out (c : Dev nD) : (dat0 V c).arrAt 3 cfg0.N = accS V c 78 := by
  have hN : cfg0.N = 79 := N_0
  refine (dat0 V c).arrAt_eq_of_cover 3 (accS V c 78) (fun t hf => ?_) (fun i => ?_)
  · have ht : t.val = 78 := by
      have h1 := (flush0_3 t).mp hf; have h2 := t.isLt; omega
    rw [read_blk0_3 c]
    show (cfg0.win 3).cut (grid0.coords t) ((dat0 V c).after 3 t) = _
    rw [after0_3, ht]; rfl
  · exact ⟨⟨78, by omega⟩, (flush0_3 _).mpr rfl, mem_blk0_3 c _ i⟩

/-- THE SUMS OF SQUARES' ARRAY after the region: likewise, of the second accumulator. -/
theorem sumsq_out (c : Dev nD) : (dat0 V c).arrAt 4 cfg0.N = accQ V c 78 := by
  have hN : cfg0.N = 79 := N_0
  refine (dat0 V c).arrAt_eq_of_cover 4 (accQ V c 78) (fun t hf => ?_) (fun i => ?_)
  · have ht : t.val = 78 := by
      have h1 := (flush0_4 t).mp hf; have h2 := t.isLt; omega
    rw [read_blk0_4 c]
    show (cfg0.win 4).cut (grid0.coords t) ((dat0 V c).after 4 t) = _
    rw [after0_4, ht]; rfl
  · exact ⟨⟨78, by omega⟩, (flush0_4 _).mpr rfl, mem_blk0_4 c _ i⟩

end Region

end Cert.KernelIdeal.Stats

end
-- ==== Proof.KRun.lean ====
/-
  The program's run from the launch to the return, for either reading of the floats.

  @main is nine stretches: the graph convolution and the projection (two stretches of host operations),
  the two paddings, the stats call, the host operations that turn the two sums into the batch mean and
  variance, the final call, and the slice that drops the padding. The buffer contents at each boundary are
  a fold through those stretches from the launch memory (`W0 … W9`): a host stretch applies its
  operations; a call leaves its arrays at what its write-backs folded over the grid give (`Dat.arrAt … N`)
  and every other buffer as entered. No stretch writes an argument, so each argument's buffer read through
  the fold is the launch memory's (`W9_main_argK`). `run_main`: every weakly fair execution terminates,
  nothing faulting, with the result buffer at the fold's last contents and the eleven arguments as launched;
  `frame` forgets the result.
-/
import proofs.«121308_j17678085390437_1_alg».proof.Proof.FinalRegion
import proofs.«121308_j17678085390437_1_alg».proof.Proof.StatsRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Stats Cert.KernelIdeal.Final
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first sixty host operations, -/
abbrev W1 : Dev nD → Valuation τ sig (Elt F) := fun c => StableHlo.after main_part0_ops0 (W0 m ρ c)
/-- after the rest of the graph convolution and the projection, -/
abbrev W2 : Dev nD → Valuation τ sig (Elt F) := fun c => StableHlo.after main_part1_ops0 (W1 m ρ c)
/-- after the expression matrix is padded, -/
abbrev W3 : Dev nD → Valuation τ sig (Elt F) := fun c => StableHlo.after main_part1_ops1 (W2 m ρ c)
abbrev W4 : Dev nD → Valuation τ sig (Elt F) := fun c => StableHlo.after main_part1_ops2 (W3 m ρ c)
/-- after the projected embedding is padded: the stats call's entry. -/
abbrev W5 : Dev nD → Valuation τ sig (Elt F) := fun c => StableHlo.after main_part1_ops3 (W4 m ρ c)
abbrev V5 : (c : Dev nD) → (b : Ref sig .tc) → Buf (Elt F) ((c : Thread nD τ).loc b) := fun c b => W5 m ρ c b
/-- At the stats call's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- After the mean and the variance are formed: the final call's entry. -/
abbrev W7 : Dev nD → Valuation τ sig (Elt F) := fun c => StableHlo.after main_part1_ops4 (W6 m ρ c)
abbrev V7 : (c : Dev nD) → (b : Ref sig .tc) → Buf (Elt F) ((c : Thread nD τ).loc b) := fun c b => W7 m ρ c b
/-- At the final call's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- After the closing slice: the return. -/
abbrev W9 : Dev nD → Valuation τ sig (Elt F) := fun c => StableHlo.after main_part1_ops5 (W8 m ρ c)

/-! ## The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg0) := W8_of_ne m ρ c main_arg0 (by decide)
    _ = W6 m ρ c (Proc.devRef .tc main_arg0) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg6) := (W8_arr m ρ c 2).trans (((dat1 (V7 m ρ) c).arrAt_in 2 rfl _).trans (A_eq1 (V7 m ρ) c 2))
    _ = W6 m ρ c (Proc.devRef .tc main_arg6) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg6) := (W6_arr m ρ c 2).trans (arr_in0 (V5 m ρ) c 2 (by decide))
    _ = W4 m ρ c (Proc.devRef .tc main_arg6) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg7) := (W8_arr m ρ c 3).trans (((dat1 (V7 m ρ) c).arrAt_in 3 rfl _).trans (A_eq1 (V7 m ρ) c 3))
    _ = W6 m ρ c (Proc.devRef .tc main_arg7) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg7) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg8) := (W8_arr m ρ c 4).trans (((dat1 (V7 m ρ) c).arrAt_in 4 rfl _).trans (A_eq1 (V7 m ρ) c 4))
    _ = W6 m ρ c (Proc.devRef .tc main_arg8) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg8) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg9) := (W8_arr m ρ c 5).trans (((dat1 (V7 m ρ) c).arrAt_in 5 rfl _).trans (A_eq1 (V7 m ρ) c 5))
    _ = W6 m ρ c (Proc.devRef .tc main_arg9) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg9) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg10) := (W8_arr m ρ c 6).trans (((dat1 (V7 m ρ) c).arrAt_in 6 rfl _).trans (A_eq1 (V7 m ρ) c 6))
    _ = W6 m ρ c (Proc.devRef .tc main_arg10) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg10) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg10) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg10) := rfl

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem main_part1_ops4_fresh : (main_part1_ops4 : List (HloOp τ sig (Elt F))).Forall fun op => op.fresh = ∅ := by
  simp only [List.Forall]; repeat' constructor
theorem main_part1_ops5_fresh : (main_part1_ops5 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The calls as segments -/

set_option backward.isDefEq.respectTransparency.types false in
/-- The stats call over the thread state: entered from every unscoped buffer at `W5`, left at `W6`; the generator
    register and the scoped buffers no window stages — the two accumulators among them — into its invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V5 m ρ) c).Φ 0 from rfl]
    iintro ⟨Hp, -, Hr⟩
    iapply (Phi0_in (V5 m ρ) c)
    isplitl [Hp]; · iexact Hp
    iexact Hr
  hout c := by
    rw [Pipeline.ownSems0_none, show (pdats m ρ 0 c).Φ (Fin.last _) = (dat0 (V5 m ρ) c).Φ (Fin.last cfg0.N) from rfl]
    iintro H
    ihave H2 := (Phi0_out (V5 m ρ) c) $$ H
    icases H2 with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The final call over the thread state: entered from every unscoped buffer at `W7`, left at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .host (hseg main_part1_ops1 main_part1_ops1_sub main_part1_ops1_fresh (W2 m ρ)),
    .host (hseg main_part1_ops2 main_part1_ops2_sub main_part1_ops2_fresh (W3 m ρ)),
    .host (hseg main_part1_ops3 main_part1_ops3_sub main_part1_ops3_fresh (W4 m ρ)),
    .region (reg0 m ρ),
    .host (hseg main_part1_ops4 main_part1_ops4_sub main_part1_ops4_fresh (W6 m ρ)),
    .region (reg1 m ρ),
    .host (hseg main_part1_ops5 main_part1_ops5_sub main_part1_ops5_fresh (W8 m ρ)) ]
/-- @main is the run of the segments. -/
theorem main_run (c : Dev nD) : main (F := F) c = Pipeline.Seg.run (segs m ρ) := (main_chain_windows c).trans (by chain_rfl)

set_option backward.isDefEq.respectTransparency.types false in
/-- THE RUN: from any memory with zero counters every weakly fair execution of @main terminates, nothing faulting, with
    the result buffer at the fold's last contents and every argument array as launched. -/
theorem run_main : θ_run defs (onTc (τ := τ) (main (F := F))) ⟨m, fun _ => 0, ρ⟩ (fun r => ∀ c : Dev nD,
      r.2.mem ((c.tc : Thread nD τ).loc main_v75) = W9 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v75 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

/-- THE FRAME: the run, the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_main m ρ)

end Cert.KernelIdeal.Run

end
-- ==== Proof.FinalRegionK.lean ====
/-
  The final call's half of the program's run, at the buffer contents `V` the call is entered from.

  The call normalises and projects: at grid point `t` (79 points) it is handed the block of 256 genes
  `[32, 256]` of the padded expression matrix, the matching block `[256, 128]` of the padded projected
  embedding, and whole the bias, scale, shift, output weight, output bias, batch mean and batch variance;
  it writes one block `[32, 256]` of the result. Nothing is kept between points and no point reads what
  another wrote, so what the output block holds after the body is ONE function of the nine input blocks
  (`out1`): the body's single store, whole-block, of its payload.

  Stated here, for either reading of the floats: each window's block at a point (`iblk1`), the body's
  triple (`sound_kernel1`), the proof data of the call (`dat1`: arrays as entered, after the body each
  input's buffer at its block and the output's at `out1` of the blocks) and the body obligation at every
  point (`body_obligation1`).
-/
import proofs.«121308_j17678085390437_1_alg».proof.Proof.Gen.Kernel.Launch
import proofs.«121308_j17678085390437_1_alg».proof.Proof.Gen.Kernel.Skeleton
import proofs.«121308_j17678085390437_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Final

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole block -/

abbrev rX : Rect S32x256 := Rect.unit (s := S32x256) ![0, 0] S32x256.size inb_S32x256_S32x256_0_0
abbrev rH : Rect S256x128 := Rect.unit (s := S256x128) ![0, 0] S256x128.size inb_S256x128_S256x128_0_0
abbrev rV : Rect S128 := Rect.unit (s := S128) ![0] S128.size inb_S128_S128_0
abbrev rW : Rect S128x1 := Rect.unit (s := S128x1) ![0, 0] S128x1.size inb_S128x1_S128x1_0_0
abbrev rB : Rect S1 := Rect.unit (s := S1) ![0] S1.size inb_S1_S1_0

/-! ## What the body leaves in the output block -/

/-- The output block after the body, from the nine input blocks: the expression block plus, gene by gene, the
    projection of the normalised, rectified hidden row and the output bias — the body's one store, through the
    skeleton's payloads. -/
def out1 (x0 : Vec F S32x256 .f32) (x1 : Vec F S256x128 .f32) (x2 : Vec F S128 .f32) (x3 : Vec F S128 .f32) (x4 : Vec F S128 .f32) (x5 : Vec F S128x1 .f32) (x6 : Vec F S1 .f32) (x7 : Vec F S128 .f32) (x8 : Vec F S128 .f32) : Vec F S32x256 .f32 :=
  View.canon [⟨rX, k1_pay1 (k1_pay2 (View.ld x0 rX))
    (k1_pay3 (View.ld x0 rX) (View.ld x1 rH) (View.ld x2 rV) (View.ld x7 rV) (View.ld x8 rV) (View.ld x3 rV) (View.ld x4 rV) (View.ld x5 rW))
    (k1_pay4 (View.ld x6 rB))⟩]

/-- The store takes the whole block. -/
theorem cover1 (p0 : Vec F S32x256 .f32) (y : S32x256.Idx) :
    ∃ pc ∈ ([⟨rX, p0⟩] : List (View.Piece (Elt F) S32x256 .f32)), y ∈ pc.1.set :=
  View.cover_of_tiled [⟨rX, p0⟩] S32x256.size (by rfl) y

/-! ## The body's triple -/

set_option maxHeartbeats 4000000 in
/-- The body on whole staging memrefs, the inputs' at contents `x0 … x8` and the output's at anything, runs to the
    continuation holding the inputs' as they were and the output's at `out1` of them. -/
theorem sound_kernel1 (c : Dev nD) (E : Set ℕ) (i : grid1.Coords) (arg1 : Memref sig .tc .vmem S32x256 .f32) (harg1 : arg1.IsWhole) (arg2 : Memref sig .tc .vmem S256x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x1 .f32) (harg6 : arg6.IsWhole) (arg7 : Memref sig .tc .vmem S1 .f32) (harg7 : arg7.IsWhole) (arg8 : Memref sig .tc .vmem S128 .f32) (harg8 : arg8.IsWhole) (arg9 : Memref sig .tc .vmem S128 .f32) (harg9 : arg9.IsWhole) (arg10 : Memref sig .tc .vmem S32x256 .f32) (harg10 : arg10.IsWhole)
    (x0 : Vec F S32x256 .f32) (x1 : Vec F S256x128 .f32) (x2 : Vec F S128 .f32) (x3 : Vec F S128 .f32) (x4 : Vec F S128 .f32) (x5 : Vec F S128x1 .f32) (x6 : Vec F S1 .f32) (x7 : Vec F S128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1 x0 x1 x2 x3 x4 x5 x6 x7 x8)) -∗ K ⟨⟩))
      ⊢ wp frame (wpE (defs₀ (F := F)) Variants.none c none) E (cc1__final_kernel i arg1 harg1 arg2 harg2 arg3 harg3 arg4 harg4 arg5 harg5 arg6 harg6 arg7 harg7 arg8 harg8 arg9 harg9 arg10 harg10) K := by
  simp only [cc1__final_kernel_eq_skeleton]; unfold cc1__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1 _)

/-! ## The call's proof data -/

/-- The proof data of the call on core `c`: the arrays as the call finds them; after the body at point `t` each
    input's buffer at its block and the output's at `out1` of the blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Final

end
-- ==== Proof.StatsBodyK.lean ====
/-
  The statistics kernel's body, case by case.

  The body of the first pallas_call keeps two accumulators of shape [128] in scratch memory across its 79 grid
  points. At every point it loads the point's blocks `x` [32,256], `h` [256,128], `b` [128], forms the masked affine
  image `P = k0_pay4 i x h b` [32,256,128] and adds the column sums of `P` to the first accumulator (`k0_pay5`) and the
  column sums of `P * P` to the second (`k0_pay1 ∘ k0_pay6`). Under its first condition (the first grid point) it zeroes
  both accumulators beforehand; under its second (the last grid point) it copies both into the two outputs' buffers
  afterwards. No point satisfies both conditions, so three control cases occur; this module proves the body's triple in
  each, on whole memrefs, with what every buffer holds afterwards stated through the skeleton's payloads.
-/
import proofs.«121308_j17678085390437_1_alg».proof.Proof.Gen.Kernel.Launch
import proofs.«121308_j17678085390437_1_alg».proof.Proof.Gen.Kernel.Skeleton
import proofs.«121308_j17678085390437_1_alg».proof.Proof.Gen.Kernel.Points
import Idealize.ShloMosaic.Lib.Pipeline.FrameBody
import Idealize.ShloMosaic.Lib.Pipeline.Value
import Idealize.ShloMosaic.Lib.WholeRead
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores -/

theorem hz1 : (![0] : Fin 1 → Nat) = fun _ => 0 := funext fun a => by fin_cases a; rfl
theorem hz2 : (![0, 0] : Fin 2 → Nat) = fun _ => 0 := funext fun a => by fin_cases a <;> rfl

/-- A load of the whole shape, at zero offsets, through a whole memref held at the contents that read `X`, reads `X`. -/
theorem readAt_whole {sp : Space} {S : Shape} {e : EltTy} {m : Memref sig .tc sp S e} (hm : m.IsWhole) (X : S.Idx → Elt F e)
    {off : Fin S.rank → ℕ} (hoff : off = fun _ => 0) (inb : ∀ a, off a + S.size a ≤ S.size a) :
    View.readAt (Elt F) m.view (Rect.unit off S.size inb).toLoadRect (hm.unread X) = X := by
  funext x
  exact (Memref.IsWhole.readAt_unread hm X _ x).trans (congrFun (View.ld_unit_zero hoff inb X) x)

/-- A store of the whole shape, at zero offsets, LAST, leaves its payload, whatever the buffer held and the earlier stores were. -/
theorem read_store_whole {sp : Space} {S : Shape} {e : EltTy} (v : View sig .tc sp S e) (f : v.ty.Contents (Elt F))
    {off : Fin S.rank → ℕ} (hoff : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨⟨Rect.unit off S.size inb, w⟩, List.mem_cons_self .., View.mem_set_unit_zero hoff inb y⟩),
    View.canon_cons_unit_zero hoff inb]

/-! ## The body's two conditions, in closed form -/

/-- The condition of the body's first `scf.if` (zero the accumulators), from the grid coordinate. -/
abbrev condFirst (i : grid0.Coords) : Prop :=
  (Scalar.cmpi .ne (Scalar.extui (Scalar.cmpi .eq (BitVec.ofNat 32 (i 0).val) 0#32)) 0#32) = 1#1
/-- The condition of its second (copy the accumulators to the outputs). -/
abbrev condLast (i : grid0.Coords) : Prop := k0_cond2 i = 1#1

/-- The first holds at the grid's first point only, -/
theorem hcondFirst : ∀ t : Fin cfg0.N, condFirst (grid0.coords t) ↔ t.val % 79 = 0 :=
  (by decide +kernel : ∀ t : Fin grid0.N, condFirst (grid0.coords t) ↔ t.val % 79 = 0)
/-- the second at its last point only. -/
theorem hcondLast : ∀ t : Fin cfg0.N, condLast (grid0.coords t) ↔ t.val % 79 = 78 :=
  (by decide +kernel : ∀ t : Fin grid0.N, condLast (grid0.coords t) ↔ t.val % 79 = 78)

/-! ## The body's triple, one per control case

On whole memrefs: the three inputs' staging buffers at their blocks `x`, `h`, `b`; the two accumulators `arg6`, `arg7`.
With `P = k0_pay4 i x h b` the masked affine image of the blocks, `k0_pay5 i x h b s` is `s` plus the column sums of `P` and
`k0_pay1 (k0_pay6 i x h b s)` is `s` plus the column sums of `P * P`. -/

set_option maxHeartbeats 1000000 in
/-- The FIRST point (the first condition only): the accumulators, found at anything, are zeroed (`k0_pay2`, `k0_pay3`)
    and then added to. The outputs' buffers are not touched. -/
theorem run_first (c : Dev nD) (E : Set ℕ) (i : grid0.Coords)
    (arg1 : Memref sig .tc .vmem S32x256 .f32) (harg1 : arg1.IsWhole) (arg2 : Memref sig .tc .vmem S256x128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S128 .f32) (harg7 : arg7.IsWhole)
    (hc1 : condFirst i) (hc2 : ¬condLast i)
    (x : Vec F S32x256 .f32) (h : Vec F S256x128 .f32) (b : Vec F S128 .f32)
    (K : PUnit → sProp 𝕄) :
    iprop(owns (c : Thread nD τ) arg1 fullShare x ∗ owns (c : Thread nD τ) arg2 fullShare h ∗ owns (c : Thread nD τ) arg3 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare b
            ∗ owns (c : Thread nD τ) arg6 fullShare (k0_pay5 i x h b k0_pay2) ∗ owns (c : Thread nD τ) arg7 fullShare (k0_pay1 (k0_pay6 i x h b k0_pay3))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%d6, %f6, -, H6⟩, ⟨%d7, %f7, -, H7⟩, Hk⟩
  obtain rfl := harg1.eq_unread hf1; obtain rfl := harg2.eq_unread hf2; obtain rfl := harg3.eq_unread hf3
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro
    (try sl_unfold_run_names); simp only [read_store_whole (S := S128) _ _ hz1, View.readCov_unit_zero (S := S128) _ hz1, readAt_whole harg1 x hz2, readAt_whole harg2 h hz2, readAt_whole harg3 b hz1]
  iexists _; isplitr
  swap; · iexact H7
  ipureintro
  (try sl_unfold_run_names); simp only [read_store_whole (S := S128) _ _ hz1, View.readCov_unit_zero (S := S128) _ hz1, readAt_whole harg1 x hz2, readAt_whole harg2 h hz2, readAt_whole harg3 b hz1]

set_option maxHeartbeats 1000000 in
/-- A MIDDLE point (neither condition): the accumulators, found at `s6`, `s7`, are added to. The outputs' buffers are
    not touched. -/
theorem run_mid (c : Dev nD) (E : Set ℕ) (i : grid0.Coords)
    (arg1 : Memref sig .tc .vmem S32x256 .f32) (harg1 : arg1.IsWhole) (arg2 : Memref sig .tc .vmem S256x128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S128 .f32) (harg7 : arg7.IsWhole)
    (hc1 : ¬condFirst i) (hc2 : ¬condLast i)
    (x : Vec F S32x256 .f32) (h : Vec F S256x128 .f32) (b : Vec F S128 .f32) (s6 s7 : Vec F S128 .f32)
    (K : PUnit → sProp 𝕄) :
    iprop(owns (c : Thread nD τ) arg1 fullShare x ∗ owns (c : Thread nD τ) arg2 fullShare h ∗ owns (c : Thread nD τ) arg3 fullShare b
        ∗ owns (c : Thread nD τ) arg6 fullShare s6 ∗ owns (c : Thread nD τ) arg7 fullShare s7
        ∗ (iprop(owns (c : Thread nD τ) arg1 fullShare x ∗ owns (c : Thread nD τ) arg2 fullShare h ∗ owns (c : Thread nD τ) arg3 fullShare b
            ∗ owns (c : Thread nD τ) arg6 fullShare (k0_pay5 i x h b s6) ∗ owns (c : Thread nD τ) arg7 fullShare (k0_pay1 (k0_pay6 i x h b s7))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro
    (try sl_unfold_run_names); simp only [read_store_whole (S := S128) _ _ hz1, View.readCov_unit_zero (S := S128) _ hz1, readAt_whole harg1 x hz2, readAt_whole harg2 h hz2, readAt_whole harg3 b hz1, readAt_whole harg6 s6 hz1]
  iexists _; isplitr
  swap; · iexact H7
  ipureintro
  (try sl_unfold_run_names); simp only [read_store_whole (S := S128) _ _ hz1, View.readCov_unit_zero (S := S128) _ hz1, readAt_whole harg1 x hz2, readAt_whole harg2 h hz2, readAt_whole harg3 b hz1, readAt_whole harg7 s7 hz1]

set_option maxHeartbeats 1000000 in
/-- The LAST point (the second condition only): the accumulators, found at `s6`, `s7`, are added to and then copied
    into the two outputs' buffers, found at anything. -/
theorem run_last (c : Dev nD) (E : Set ℕ) (i : grid0.Coords)
    (arg1 : Memref sig .tc .vmem S32x256 .f32) (harg1 : arg1.IsWhole) (arg2 : Memref sig .tc .vmem S256x128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S128 .f32) (harg7 : arg7.IsWhole)
    (hc1 : ¬condFirst i) (hc2 : condLast i)
    (x : Vec F S32x256 .f32) (h : Vec F S256x128 .f32) (b : Vec F S128 .f32) (s6 s7 : Vec F S128 .f32)
    (K : PUnit → sProp 𝕄) :
    iprop(owns (c : Thread nD τ) arg1 fullShare x ∗ owns (c : Thread nD τ) arg2 fullShare h ∗ owns (c : Thread nD τ) arg3 fullShare b
        ∗ (∃ d, owns (c : Thread nD τ) arg4 fullShare d) ∗ (∃ d, owns (c : Thread nD τ) arg5 fullShare d)
        ∗ owns (c : Thread nD τ) arg6 fullShare s6 ∗ owns (c : Thread nD τ) arg7 fullShare s7
        ∗ (iprop(owns (c : Thread nD τ) arg1 fullShare x ∗ owns (c : Thread nD τ) arg2 fullShare h ∗ owns (c : Thread nD τ) arg3 fullShare b
            ∗ owns (c : Thread nD τ) arg4 fullShare (k0_pay5 i x h b s6) ∗ owns (c : Thread nD τ) arg5 fullShare (k0_pay1 (k0_pay6 i x h b s7))
            ∗ owns (c : Thread nD τ) arg6 fullShare (k0_pay5 i x h b s6) ∗ owns (c : Thread nD τ) arg7 fullShare (k0_pay1 (k0_pay6 i x h b s7))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    (try sl_unfold_run_names); simp only [read_store_whole (S := S128) _ _ hz1, View.readCov_unit_zero (S := S128) _ hz1, readAt_whole harg1 x hz2, readAt_whole harg2 h hz2, readAt_whole harg3 b hz1, readAt_whole harg6 s6 hz1]
  isplitl [H5]
  · iexists _; isplitr
    swap; · iexact H5
    ipureintro
    (try sl_unfold_run_names); simp only [read_store_whole (S := S128) _ _ hz1, View.readCov_unit_zero (S := S128) _ hz1, readAt_whole harg1 x hz2, readAt_whole harg2 h hz2, readAt_whole harg3 b hz1, readAt_whole harg7 s7 hz1]
  isplitl [H6]
  · iexists _; isplitr
    swap; · iexact H6
    ipureintro
    (try sl_unfold_run_names); simp only [read_store_whole (S := S128) _ _ hz1, View.readCov_unit_zero (S := S128) _ hz1, readAt_whole harg1 x hz2, readAt_whole harg2 h hz2, readAt_whole harg3 b hz1, readAt_whole harg6 s6 hz1]
  iexists _; isplitr
  swap; · iexact H7
  ipureintro
  (try sl_unfold_run_names); simp only [read_store_whole (S := S128) _ _ hz1, View.readCov_unit_zero (S := S128) _ hz1, readAt_whole harg1 x hz2, readAt_whole harg2 h hz2, readAt_whole harg3 b hz1, readAt_whole harg7 s7 hz1]

end Cert.Kernel.Stats

end
-- ==== Proof.StatsRegionK.lean ====
/-
  The statistics region at a parameter `V`, the TensorCore's buffer contents when the region is entered.

  The first pallas_call runs its body at 79 grid points over five windows — the inputs `x` (block [32,256] at column
  block `t`), `h` (block [256,128] at row block `t`) and `b` ([128], one block), and the two outputs `sum` and `sumsq`
  ([128], one block each, written back after the last point only) — and carries two accumulators in scratch memory
  from point to point. With `P_t` the masked affine image of point `t`'s blocks (`k0_pay4`), after point `n` the first
  accumulator holds `accS V c n` = 0 + Σ_{t ≤ n} (column sums of `P_t`) and the second `accQ V c n` = 0 + Σ_{t ≤ n}
  (column sums of `P_t * P_t`), each sum taken in point order through the skeleton's payloads (`k0_pay5`, `k0_pay1 ∘ k0_pay6`).

  Stated here: the windows' blocks (`iblk0`), the two recursions with their step equations, the pipeline's proof data
  (`dat0`: arrays as found; inputs' buffers at their blocks; the invariant tracking the accumulators point by point), the
  body obligation from the three control cases' triples (first point: zero, then add; middle points: add; last point:
  add, then copy to the outputs), the invariant at the region's two ends, and the arrays after the region: inputs as
  found, `sum` at `accS V c 78`, `sumsq` at `accQ V c 78`.
-/
import proofs.«121308_j17678085390437_1_alg».proof.Proof.StatsBodyK

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid's points by number -/

/-- The grid point numbered `n` (numbers are taken modulo the 79 points). -/
def pt (n : ℕ) : Fin cfg0.N :=
  ⟨n % 79, lt_of_lt_of_eq (Nat.mod_lt n (by decide)) (show 79 = cfg0.N from N_0.symm)⟩

theorem pt_of_lt (n : ℕ) (h : n < cfg0.N) : pt n = ⟨n, h⟩ :=
  Fin.ext (Nat.mod_eq_of_lt (lt_of_lt_of_eq h (show cfg0.N = 79 from N_0)))

theorem pt_val (t : Fin cfg0.N) : pt t.val = t := pt_of_lt t.val t.isLt

/-! ## Where the two outputs' windows are idle, and when they are written back -/

/-- The output windows are idle at every point but the last, -/
theorem idle0_3 : ∀ t : Fin cfg0.N, t.val ≠ 78 → cfg0.idle 3 (grid0.coords t) = true := by decide +kernel
theorem idle0_4 : ∀ t : Fin cfg0.N, t.val ≠ 78 → cfg0.idle 4 (grid0.coords t) = true := by decide +kernel
/-- live at the last, -/
theorem live0_3 : ∀ t : Fin cfg0.N, t.val = 78 → cfg0.idle 3 (grid0.coords t) = false := by decide +kernel
theorem live0_4 : ∀ t : Fin cfg0.N, t.val = 78 → cfg0.idle 4 (grid0.coords t) = false := by decide +kernel
/-- and written back at the last point only. -/
theorem noFlush0_3 (t : Fin cfg0.N) (h : t.val ≠ 78) : (cfg0.win 3).flush t = false := by
  have hN : t.val < 79 := lt_of_lt_of_eq t.isLt (show cfg0.N = 79 from N_0)
  cases hf : (cfg0.win 3).flush t with
  | false => rfl
  | true => exact absurd ((flush0_3 t).mp hf) (by omega)
theorem noFlush0_4 (t : Fin cfg0.N) (h : t.val ≠ 78) : (cfg0.win 4).flush t = false := by
  have hN : t.val < 79 := lt_of_lt_of_eq t.isLt (show cfg0.N = 79 from N_0)
  cases hf : (cfg0.win 4).flush t with
  | false => rfl
  | true => exact absurd ((flush0_4 t).mp hf) (by omega)

/-- The two scratch accumulators, as memrefs. -/
abbrev scM0 : Memref sig .tc .vmem S128 .f32 := Memref.whole cc0_scratch0
abbrev scM1 : Memref sig .tc .vmem S128 .f32 := Memref.whole cc0_scratch1

/-- The core's scoped buffers that are neither a staging buffer of this pallas_call nor one of its two accumulators (the
    second pallas_call's staging buffers), each whole at some contents. -/
def restOther (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg8_0), ((c : Thread nD τ).loc cc1_stg8_0) ↦{fullShare} f)
      ∗ (∃ f : Buf (Elt F) ((c : Thread nD τ).loc cc1_stg9_0), ((c : Thread nD τ).loc cc1_stg9_0) ↦{fullShare} f)
      ∗ (∃ f : Buf (Elt F) ((c : Thread nD τ).loc cc1_stg9_1), ((c : Thread nD τ).loc cc1_stg9_1) ↦{fullShare} f))

/-- The scoped rest of this pallas_call: its two accumulators, at some contents, and the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ restOther c) := by
  rw [scopedRest0_eq]; unfold restOther; simp only [scM0, scM1, owns_whole]; try rfl

/-! # The region at the entry contents `V` -/

section Region

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the accumulators hold after each point -/

/-- THE FIRST ACCUMULATOR after point `n`: zero (`k0_pay2`) plus, point by point up to `n`, the column sums of the masked
    affine image of the point's blocks. -/
def accS (c : Dev nD) : ℕ → FVec F S128 .f32
  | 0 => k0_pay5 (grid0.coords (pt 0)) (iblk0 V c 0 (pt 0)) (iblk0 V c 1 (pt 0)) (iblk0 V c 2 (pt 0)) k0_pay2
  | n + 1 => k0_pay5 (grid0.coords (pt (n + 1))) (iblk0 V c 0 (pt (n + 1))) (iblk0 V c 1 (pt (n + 1))) (iblk0 V c 2 (pt (n + 1))) (accS c n)

/-- THE SECOND ACCUMULATOR after point `n`: zero (`k0_pay3`) plus, point by point up to `n`, the column sums of the square
    of that image. -/
def accQ (c : Dev nD) : ℕ → FVec F S128 .f32
  | 0 => k0_pay1 (k0_pay6 (grid0.coords (pt 0)) (iblk0 V c 0 (pt 0)) (iblk0 V c 1 (pt 0)) (iblk0 V c 2 (pt 0)) k0_pay3)
  | n + 1 => k0_pay1 (k0_pay6 (grid0.coords (pt (n + 1))) (iblk0 V c 0 (pt (n + 1))) (iblk0 V c 1 (pt (n + 1))) (iblk0 V c 2 (pt (n + 1))) (accQ c n))

theorem accS_zero (c : Dev nD) :
    accS V c 0 = k0_pay5 (grid0.coords (pt 0)) (iblk0 V c 0 (pt 0)) (iblk0 V c 1 (pt 0)) (iblk0 V c 2 (pt 0)) k0_pay2 := rfl
theorem accS_succ (c : Dev nD) (n : ℕ) :
    accS V c (n + 1) = k0_pay5 (grid0.coords (pt (n + 1))) (iblk0 V c 0 (pt (n + 1))) (iblk0 V c 1 (pt (n + 1))) (iblk0 V c 2 (pt (n + 1))) (accS V c n) := rfl
theorem accQ_zero (c : Dev nD) :
    accQ V c 0 = k0_pay1 (k0_pay6 (grid0.coords (pt 0)) (iblk0 V c 0 (pt 0)) (iblk0 V c 1 (pt 0)) (iblk0 V c 2 (pt 0)) k0_pay3) := rfl
theorem accQ_succ (c : Dev nD) (n : ℕ) :
    accQ V c (n + 1) = k0_pay1 (k0_pay6 (grid0.coords (pt (n + 1))) (iblk0 V c 0 (pt (n + 1))) (iblk0 V c 1 (pt (n + 1))) (iblk0 V c 2 (pt (n + 1))) (accQ V c n)) := rfl

/-- At the first point: the step from zero. -/
theorem accS_first (c : Dev nD) (t : Fin cfg0.N) (hz : t.val = 0) :
    accS V c t.val = k0_pay5 (grid0.coords t) (iblk0 V c 0 t) (iblk0 V c 1 t) (iblk0 V c 2 t) k0_pay2 := by
  have hp : pt 0 = t := by have := pt_val t; rwa [hz] at this
  rw [hz, accS_zero, hp]
theorem accQ_first (c : Dev nD) (t : Fin cfg0.N) (hz : t.val = 0) :
    accQ V c t.val = k0_pay1 (k0_pay6 (grid0.coords t) (iblk0 V c 0 t) (iblk0 V c 1 t) (iblk0 V c 2 t) k0_pay3) := by
  have hp : pt 0 = t := by have := pt_val t; rwa [hz] at this
  rw [hz, accQ_zero, hp]

/-- At a later point: the step from what the point before left. -/
theorem accS_later (c : Dev nD) (t : Fin cfg0.N) (hz : t.val ≠ 0) :
    accS V c t.val = k0_pay5 (grid0.coords t) (iblk0 V c 0 t) (iblk0 V c 1 t) (iblk0 V c 2 t) (accS V c (t.val - 1)) := by
  obtain ⟨n, hn⟩ := t
  cases n with
  | zero => exact absurd rfl hz
  | succ n =>
    exact (by rw [accS_succ, pt_of_lt (n + 1) hn] :
      accS V c (n + 1) = k0_pay5 (grid0.coords ⟨n + 1, hn⟩) (iblk0 V c 0 ⟨n + 1, hn⟩) (iblk0 V c 1 ⟨n + 1, hn⟩) (iblk0 V c 2 ⟨n + 1, hn⟩) (accS V c n))
theorem accQ_later (c : Dev nD) (t : Fin cfg0.N) (hz : t.val ≠ 0) :
    accQ V c t.val = k0_pay1 (k0_pay6 (grid0.coords t) (iblk0 V c 0 t) (iblk0 V c 1 t) (iblk0 V c 2 t) (accQ V c (t.val - 1))) := by
  obtain ⟨n, hn⟩ := t
  cases n with
  | zero => exact absurd rfl hz
  | succ n =>
    exact (by rw [accQ_succ, pt_of_lt (n + 1) hn] :
      accQ V c (n + 1) = k0_pay1 (k0_pay6 (grid0.coords ⟨n + 1, hn⟩) (iblk0 V c 0 ⟨n + 1, hn⟩) (iblk0 V c 1 ⟨n + 1, hn⟩) (iblk0 V c 2 ⟨n + 1, hn⟩) (accQ V c n)))

/-! ## The invariant -/

/-- The region's invariant before the point numbered `n`: before the first, both accumulators at anything; afterwards
    at what the point before left; throughout, the other scoped buffers at anything and the generator register at some
    state. -/
def PhiSt (c : Dev nD) : ℕ → sProp 𝕄
  | 0 => iprop((∃ d, owns (c : Thread nD τ) scM0 fullShare d) ∗ (∃ d, owns (c : Thread nD τ) scM1 fullShare d)
      ∗ restOther c ∗ ∃ r, prngReg c r)
  | n + 1 => iprop(owns (c : Thread nD τ) scM0 fullShare (accS V c n) ∗ owns (c : Thread nD τ) scM1 fullShare (accQ V c n)
      ∗ restOther c ∗ ∃ r, prngReg c r)

theorem PhiSt_zero (c : Dev nD) (n : ℕ) (hz : n = 0) :
    PhiSt V c n = iprop((∃ d, owns (c : Thread nD τ) scM0 fullShare d) ∗ (∃ d, owns (c : Thread nD τ) scM1 fullShare d)
      ∗ restOther c ∗ ∃ r, prngReg c r) := by
  subst hz; rfl

theorem PhiSt_succ (c : Dev nD) (n : ℕ) :
    PhiSt V c (n + 1) = iprop(owns (c : Thread nD τ) scM0 fullShare (accS V c n) ∗ owns (c : Thread nD τ) scM1 fullShare (accQ V c n)
      ∗ restOther c ∗ ∃ r, prngReg c r) := rfl

theorem PhiSt_pos (c : Dev nD) (n : ℕ) (hz : n ≠ 0) :
    PhiSt V c n = iprop(owns (c : Thread nD τ) scM0 fullShare (accS V c (n - 1)) ∗ owns (c : Thread nD τ) scM1 fullShare (accQ V c (n - 1))
      ∗ restOther c ∗ ∃ r, prngReg c r) := by
  cases n with
  | zero => exact absurd rfl hz
  | succ n => rfl

/-! ## The pipeline's proof data -/

/-- The proof data of the pipeline on core `c`: the arrays as the region finds them (`V`); after the body at point `t`
    each input's buffer at its block, and the outputs' at the accumulators after `t` (what the last point copies there;
    at the earlier points the outputs' windows are idle and this is not consulted); the invariant `PhiSt`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => accS V c t.val
    | ⟨4, _⟩ => accQ V c t.val
  Φ t := PhiSt V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = accS V c t.val := by dsimp only [dat0]
theorem after0_4 (c : Dev nD) (t : Fin cfg0.N) : (dat0 V c).after 4 t = accQ V c t.val := by dsimp only [dat0]

theorem Phi_castSucc (c : Dev nD) (t : Fin cfg0.N) : (dat0 V c).Φ t.castSucc = PhiSt V c t.val := by
  dsimp only [dat0]; simp only [Fin.coe_castSucc]

theorem Phi_succ (c : Dev nD) (t : Fin cfg0.N) : (dat0 V c).Φ t.succ = PhiSt V c (t.val + 1) := rfl

/-- Each input's current staging buffer holds its block at every point, fetched there or not: an unfetched window's
    block index has not moved, and the body leaves the inputs' buffers as it finds them. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The inputs' windows are never idle: the body hands their buffers back at their blocks. -/
theorem leaves0_0 (c : Dev nD) (t : Fin cfg0.N) :
    (dat0 V c).leavesExact 0 t = owns (c : Thread nD τ) (st0_0 t) fullShare (iblk0 V c 0 t) := by
  rw [← after0_0]
theorem leaves0_1 (c : Dev nD) (t : Fin cfg0.N) :
    (dat0 V c).leavesExact 1 t = owns (c : Thread nD τ) (st0_1 t) fullShare (iblk0 V c 1 t) := by
  rw [← after0_1]
theorem leaves0_2 (c : Dev nD) (t : Fin cfg0.N) :
    (dat0 V c).leavesExact 2 t = owns (c : Thread nD τ) (st0_2 t) fullShare (iblk0 V c 2 t) := by
  rw [← after0_2]
/-- At the last point the outputs' windows are live: their buffers are handed back at the accumulators. -/
theorem leaves0_3 (c : Dev nD) (t : Fin cfg0.N) (hl : t.val = 78) :
    (dat0 V c).leavesExact 3 t = owns (c : Thread nD τ) (st0_3 t) fullShare (accS V c t.val) := by
  rw [← after0_3]; unfold Dat.leavesExact; rw [live0_3 t hl]
theorem leaves0_4 (c : Dev nD) (t : Fin cfg0.N) (hl : t.val = 78) :
    (dat0 V c).leavesExact 4 t = owns (c : Thread nD τ) (st0_4 t) fullShare (accQ V c t.val) := by
  rw [← after0_4]; unfold Dat.leavesExact; rw [live0_4 t hl]

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 2000000 in
/-- The body at any point. The inputs' memrefs hold their blocks (`before0_W`). At the first point the invariant hands the
    accumulators over at anything and `run_first` leaves them at the first step from zero; at a later point it hands them
    over at what the point before left and `run_mid` / `run_last` leave them one step further. Before the last point the
    outputs' windows are idle and their buffers go back as they came; at the last they go back at the accumulators. The
    other scoped buffers, the generator register and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    Phi_succ, Phi_castSucc, PhiSt_succ, leaves0_0, leaves0_1, leaves0_2]
  have hN : t.val < 79 := lt_of_lt_of_eq t.isLt (show cfg0.N = 79 from N_0)
  by_cases hl : t.val = 78
  · -- the last point
    have hz : t.val ≠ 0 := by omega
    have hc1 : ¬condFirst (grid0.coords t) := fun h => hz (by have := (hcondFirst t).mp h; omega)
    have hc2 : condLast (grid0.coords t) := (hcondLast t).mpr (by omega)
    rw [leaves0_3 V c t hl, leaves0_4 V c t hl, PhiSt_pos V c _ hz, accS_later V c t hz, accQ_later V c t hz]
    iintro ⟨⟨HS0, HS1, HR, Hg⟩, Ho, ⟨%d0, H0⟩, ⟨%d1, H1⟩, ⟨%d2, H2⟩, ⟨%d3, H3⟩, ⟨%d4, H4⟩⟩
    iapply (run_last c Set.univ (grid0.coords t) _ _ _ _ _ _ _ _ _ _ _ _ _ _ hc1 hc2 (iblk0 V c 0 t) (iblk0 V c 1 t) (iblk0 V c 2 t)
      (accS V c (t.val - 1)) (accQ V c (t.val - 1)) _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    iexact H4
  · have hc2 : ¬condLast (grid0.coords t) := fun h => hl (by have := (hcondLast t).mp h; omega)
    rw [Dat.leavesExact_idle (dat0 V c) 3 t (idle0_3 t hl) (noFlush0_3 t hl),
      Dat.leavesExact_idle (dat0 V c) 4 t (idle0_4 t hl) (noFlush0_4 t hl)]
    by_cases hz : t.val = 0
    · -- the first point
      have hc1 : condFirst (grid0.coords t) := (hcondFirst t).mpr (by omega)
      rw [PhiSt_zero V c _ hz, accS_first V c t hz, accQ_first V c t hz]
      iintro ⟨⟨HS0, HS1, HR, Hg⟩, Ho, ⟨%d0, H0⟩, ⟨%d1, H1⟩, ⟨%d2, H2⟩, H3, H4⟩
      iapply (run_first c Set.univ (grid0.coords t) _ _ _ _ _ _ _ _ _ _ _ _ _ _ hc1 hc2 (iblk0 V c 0 t) (iblk0 V c 1 t) (iblk0 V c 2 t) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · -- a middle point
      have hc1 : ¬condFirst (grid0.coords t) := fun h => hz (by have := (hcondFirst t).mp h; omega)
      rw [PhiSt_pos V c _ hz, accS_later V c t hz, accQ_later V c t hz]
      iintro ⟨⟨HS0, HS1, HR, Hg⟩, Ho, ⟨%d0, H0⟩, ⟨%d1, H1⟩, ⟨%d2, H2⟩, H3, H4⟩
      iapply (run_mid c Set.univ (grid0.coords t) _ _ _ _ _ _ _ _ _ _ _ _ _ _ hc1 hc2 (iblk0 V c 0 t) (iblk0 V c 1 t) (iblk0 V c 2 t)
        (accS V c (t.val - 1)) (accQ V c (t.val - 1)) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the region is entered with — the generator register at some state and the scoped rest — is the invariant before
    the first point. -/
theorem Phi0_in (c : Dev nD) :
    iprop((∃ r, prngReg c r) ∗ Pipeline.scopedRest (Ix := Unit) (Name := ℕ) (U := UR sig nD τ) (Lvl := ℕ) (Val := Elt F) spec0 c)
      ⊢ (dat0 V c).Φ 0 := by
  rw [show (dat0 V c).Φ 0 = PhiSt V c 0 from rfl, PhiSt_zero V c 0 rfl, scopedRest0_split]
  iintro ⟨Hg, HS0, HS1, HR⟩
  isplitl [HS0]; · iexact HS0
  isplitl [HS1]; · iexact HS1
  isplitl [HR]; · iexact HR
  iexact Hg

/-- After the last point the invariant gives both back: what the accumulators hold is forgotten. -/
theorem Phi0_out (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiSt V c cfg0.N from rfl,
    PhiSt_pos V c cfg0.N (by have : cfg0.N = 79 := N_0; omega), scopedRest0_split]
  iintro ⟨HS0, HS1, HR, Hg⟩
  isplitl [Hg]; · iexact Hg
  isplitl [HS0]; · iexists _; iexact HS0
  isplitl [HS1]; · iexists _; iexact HS1
  iexact HR

/-! ## The arrays after the region -/

/-- The inputs' arrays end as the region found them: no write-back touches an input. -/
theorem arr_in0 (c : Dev nD) (w : Fin cfg0.W) (hw : w.val < 3) : (dat0 V c).arrAt w cfg0.N = V c (Pipeline.arrRef spec0 w) :=
  match w, hw with
  | ⟨0, _⟩, _ => ((dat0 V c).arrAt_in 0 rfl _).trans (A_eq0 V c 0)
  | ⟨1, _⟩, _ => ((dat0 V c).arrAt_in 1 rfl _).trans (A_eq0 V c 1)
  | ⟨2, _⟩, _ => ((dat0 V c).arrAt_in 2 rfl _).trans (A_eq0 V c 2)
  | ⟨n + 3, _⟩, h => absurd h (Nat.not_lt.2 (Nat.le_add_left 3 n))

/-- The outputs' one block is their whole array, at block index zero: read through it, contents are themselves. -/
theorem read_blk0_3 (c : Dev nD) (t : Fin cfg0.N) (G : Buf (Elt F) ((cfg0.win 3).arr.view.loc (c.tc : Thread nD τ))) :
    ((cfg0.win 3).blk t).view.read (Elt F) G = G := by
  have hoff : (fun a => (cfg0.win 3).index t a * (cfg0.win 3).size a) = fun _ => 0 :=
    funext fun a => by fin_cases a; rfl
  exact View.ld_unit_zero (S := S128) hoff _ G
theorem read_blk0_4 (c : Dev nD) (t : Fin cfg0.N) (G : Buf (Elt F) ((cfg0.win 4).arr.view.loc (c.tc : Thread nD τ))) :
    ((cfg0.win 4).blk t).view.read (Elt F) G = G := by
  have hoff : (fun a => (cfg0.win 4).index t a * (cfg0.win 4).size a) = fun _ => 0 :=
    funext fun a => by fin_cases a; rfl
  exact View.ld_unit_zero (S := S128) hoff _ G

/-- and it covers the array. -/
theorem mem_blk0_3 (c : Dev nD) (t : Fin cfg0.N) (i : ((cfg0.win 3).arr.view.loc (c.tc : Thread nD τ)).2.ty.Idx) :
    i ∈ ((cfg0.win 3).blk t).view.set := by
  have hoff : (fun a => (cfg0.win 3).index t a * (cfg0.win 3).size a) = fun _ => 0 :=
    funext fun a => by fin_cases a; rfl
  show i ∈ ((View.whole main_v67_0).slice ((cfg0.win 3).rect t)).set
  rw [View.set_slice_whole]
  exact View.mem_set_unit_zero (S := S128) hoff _ i
theorem mem_blk0_4 (c : Dev nD) (t : Fin cfg0.N) (i : ((cfg0.win 4).arr.view.loc (c.tc : Thread nD τ)).2.ty.Idx) :
    i ∈ ((cfg0.win 4).blk t).view.set := by
  have hoff : (fun a => (cfg0.win 4).index t a * (cfg0.win 4).size a) = fun _ => 0 :=
    funext fun a => by fin_cases a; rfl
  show i ∈ ((View.whole main_v67_1).slice ((cfg0.win 4).rect t)).set
  rw [View.set_slice_whole]
  exact View.mem_set_unit_zero (S := S128) hoff _ i

/-- THE SUMS' ARRAY after the region: the one write-back, after the last point, of the first accumulator. -/
theorem sum_out (c : Dev nD) : (dat0 V c).arrAt 3 cfg0.N = accS V c 78 := by
  have hN : cfg0.N = 79 := N_0
  refine (dat0 V c).arrAt_eq_of_cover 3 (accS V c 78) (fun t hf => ?_) (fun i => ?_)
  · have ht : t.val = 78 := by
      have h1 := (flush0_3 t).mp hf; have h2 := t.isLt; omega
    rw [read_blk0_3 c]
    show (cfg0.win 3).cut (grid0.coords t) ((dat0 V c).after 3 t) = _
    rw [after0_3, ht]; rfl
  · exact ⟨⟨78, by omega⟩, (flush0_3 _).mpr rfl, mem_blk0_3 c _ i⟩

/-- THE SUMS OF SQUARES' ARRAY after the region: likewise, of the second accumulator. -/
theorem sumsq_out (c : Dev nD) : (dat0 V c).arrAt 4 cfg0.N = accQ V c 78 := by
  have hN : cfg0.N = 79 := N_0
  refine (dat0 V c).arrAt_eq_of_cover 4 (accQ V c 78) (fun t hf => ?_) (fun i => ?_)
  · have ht : t.val = 78 := by
      have h1 := (flush0_4 t).mp hf; have h2 := t.isLt; omega
    rw [read_blk0_4 c]
    show (cfg0.win 4).cut (grid0.coords t) ((dat0 V c).after 4 t) = _
    rw [after0_4, ht]; rfl
  · exact ⟨⟨78, by omega⟩, (flush0_4 _).mpr rfl, mem_blk0_4 c _ i⟩

end Region

end Cert.Kernel.Stats

end
-- ==== Proof.KRunK.lean ====
/-
  The program's run from the launch to the return, for either reading of the floats.

  @main is nine stretches: the graph convolution and the projection (two stretches of host operations),
  the two paddings, the stats call, the host operations that turn the two sums into the batch mean and
  variance, the final call, and the slice that drops the padding. The buffer contents at each boundary are
  a fold through those stretches from the launch memory (`W0 … W9`): a host stretch applies its
  operations; a call leaves its arrays at what its write-backs folded over the grid give (`Dat.arrAt … N`)
  and every other buffer as entered. No stretch writes an argument, so each argument's buffer read through
  the fold is the launch memory's (`W9_main_argK`). `run_main`: every weakly fair execution terminates,
  nothing faulting, with the result buffer at the fold's last contents and the eleven arguments as launched;
  `frame` forgets the result.
-/
import proofs.«121308_j17678085390437_1_alg».proof.Proof.FinalRegionK
import proofs.«121308_j17678085390437_1_alg».proof.Proof.StatsRegionK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.Stats Cert.Kernel.Final
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first sixty host operations, -/
abbrev W1 : Dev nD → Valuation τ sig (Elt F) := fun c => StableHlo.after main_part0_ops0 (W0 m ρ c)
/-- after the rest of the graph convolution and the projection, -/
abbrev W2 : Dev nD → Valuation τ sig (Elt F) := fun c => StableHlo.after main_part1_ops0 (W1 m ρ c)
/-- after the expression matrix is padded, -/
abbrev W3 : Dev nD → Valuation τ sig (Elt F) := fun c => StableHlo.after main_part1_ops1 (W2 m ρ c)
abbrev W4 : Dev nD → Valuation τ sig (Elt F) := fun c => StableHlo.after main_part1_ops2 (W3 m ρ c)
/-- after the projected embedding is padded: the stats call's entry. -/
abbrev W5 : Dev nD → Valuation τ sig (Elt F) := fun c => StableHlo.after main_part1_ops3 (W4 m ρ c)
abbrev V5 : (c : Dev nD) → (b : Ref sig .tc) → Buf (Elt F) ((c : Thread nD τ).loc b) := fun c b => W5 m ρ c b
/-- At the stats call's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- After the mean and the variance are formed: the final call's entry. -/
abbrev W7 : Dev nD → Valuation τ sig (Elt F) := fun c => StableHlo.after main_part1_ops4 (W6 m ρ c)
abbrev V7 : (c : Dev nD) → (b : Ref sig .tc) → Buf (Elt F) ((c : Thread nD τ).loc b) := fun c b => W7 m ρ c b
/-- At the final call's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- After the closing slice: the return. -/
abbrev W9 : Dev nD → Valuation τ sig (Elt F) := fun c => StableHlo.after main_part1_ops5 (W8 m ρ c)

/-! ## The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg0) := W8_of_ne m ρ c main_arg0 (by decide)
    _ = W6 m ρ c (Proc.devRef .tc main_arg0) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg6) := (W8_arr m ρ c 2).trans (((dat1 (V7 m ρ) c).arrAt_in 2 rfl _).trans (A_eq1 (V7 m ρ) c 2))
    _ = W6 m ρ c (Proc.devRef .tc main_arg6) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg6) := (W6_arr m ρ c 2).trans (arr_in0 (V5 m ρ) c 2 (by decide))
    _ = W4 m ρ c (Proc.devRef .tc main_arg6) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg7) := (W8_arr m ρ c 3).trans (((dat1 (V7 m ρ) c).arrAt_in 3 rfl _).trans (A_eq1 (V7 m ρ) c 3))
    _ = W6 m ρ c (Proc.devRef .tc main_arg7) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg7) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg8) := (W8_arr m ρ c 4).trans (((dat1 (V7 m ρ) c).arrAt_in 4 rfl _).trans (A_eq1 (V7 m ρ) c 4))
    _ = W6 m ρ c (Proc.devRef .tc main_arg8) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg8) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg9) := (W8_arr m ρ c 5).trans (((dat1 (V7 m ρ) c).arrAt_in 5 rfl _).trans (A_eq1 (V7 m ρ) c 5))
    _ = W6 m ρ c (Proc.devRef .tc main_arg9) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg9) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := StableHlo.after_of_forall_not_mem _ _ (List.forall_iff_forall_mem.mp (by
          simp only [main_part1_ops5, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W7 m ρ c (Proc.devRef .tc main_arg10) := (W8_arr m ρ c 6).trans (((dat1 (V7 m ρ) c).arrAt_in 6 rfl _).trans (A_eq1 (V7 m ρ) c 6))
    _ = W6 m ρ c (Proc.devRef .tc main_arg10) := StableHlo.after_of_forall_not_mem _ _ (List.forall_iff_forall_mem.mp (by
          simp only [main_part1_ops4, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem _ _ (List.forall_iff_forall_mem.mp (by
          simp only [main_part1_ops3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W3 m ρ c (Proc.devRef .tc main_arg10) := StableHlo.after_of_forall_not_mem _ _ (List.forall_iff_forall_mem.mp (by
          simp only [main_part1_ops2, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W2 m ρ c (Proc.devRef .tc main_arg10) := StableHlo.after_of_forall_not_mem _ _ (List.forall_iff_forall_mem.mp (by
          simp only [main_part1_ops1, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem _ _ (List.forall_iff_forall_mem.mp (by
          simp only [main_part1_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem _ _ (List.forall_iff_forall_mem.mp (by
          simp only [main_part0_ops0, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)))
    _ = m ((c : Thread nD τ).loc main_arg10) := rfl

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem main_part1_ops4_fresh : (main_part1_ops4 : List (HloOp τ sig (Elt F))).Forall fun op => op.fresh = ∅ := by
  simp only [List.Forall]; repeat' constructor
theorem main_part1_ops5_fresh : (main_part1_ops5 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The calls as segments -/

set_option backward.isDefEq.respectTransparency.types false in
/-- The stats call over the thread state: entered from every unscoped buffer at `W5`, left at `W6`; the generator
    register and the scoped buffers no window stages — the two accumulators among them — into its invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V5 m ρ) c).Φ 0 from rfl]
    iintro ⟨Hp, -, Hr⟩
    iapply (Phi0_in (V5 m ρ) c)
    isplitl [Hp]; · iexact Hp
    iexact Hr
  hout c := by
    rw [Pipeline.ownSems0_none, show (pdats m ρ 0 c).Φ (Fin.last _) = (dat0 (V5 m ρ) c).Φ (Fin.last cfg0.N) from rfl]
    iintro H
    ihave H2 := (Phi0_out (V5 m ρ) c) $$ H
    icases H2 with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The final call over the thread state: entered from every unscoped buffer at `W7`, left at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .host (hseg main_part1_ops1 main_part1_ops1_sub main_part1_ops1_fresh (W2 m ρ)),
    .host (hseg main_part1_ops2 main_part1_ops2_sub main_part1_ops2_fresh (W3 m ρ)),
    .host (hseg main_part1_ops3 main_part1_ops3_sub main_part1_ops3_fresh (W4 m ρ)),
    .region (reg0 m ρ),
    .host (hseg main_part1_ops4 main_part1_ops4_sub main_part1_ops4_fresh (W6 m ρ)),
    .region (reg1 m ρ),
    .host (hseg main_part1_ops5 main_part1_ops5_sub main_part1_ops5_fresh (W8 m ρ)) ]
/-- @main is the run of the segments. -/
theorem main_run (c : Dev nD) : main (F := F) c = Pipeline.Seg.run (segs m ρ) := (main_chain_windows c).trans (by chain_rfl)

set_option backward.isDefEq.respectTransparency.types false in
/-- THE RUN: from any memory with zero counters every weakly fair execution of @main terminates, nothing faulting, with
    the result buffer at the fold's last contents and every argument array as launched. -/
theorem run_main : θ_run defs (onTc (τ := τ) (main (F := F))) ⟨m, fun _ => 0, ρ⟩ (fun r => ∀ c : Dev nD,
      r.2.mem ((c.tc : Thread nD τ).loc main_v75) = W9 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v75 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

/-- THE FRAME: the run, the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_main m ρ)

end Cert.Kernel.Run

end
-- ==== Proof.RefRun.lean ====
import proofs.«121308_j17678085390437_1_alg».proof.Proof.Gen.ReferenceIdeal
import Idealize.ShloMosaic.Lib.StableHlo.Run

/-!
# The reference's run

The reference is a straight line of host operations: its `@main`, printed in two windows, with the bodies of the three
functions it calls (the column variance, the selection inside it, the positive part) read at their call sites over the
calls' own buffers. This module lists those operations in order (`opsA`, `opsB`, `opsC`), shows `@main` is their
sequence, and reads the fold of their results back as a function of the eleven arguments:

* `refH`: the graph-convolution prefix `h = (D^(-1/2) (A + I) D^(-1/2))^2 X W + b`, computed edge by edge — degrees by a
  scatter-add of ones, edge weights `dinv[src] * dinv[dst]`, two hops `g ↦ segment_sum (g[src] * ew) dst + g * dinv²`;
* `refTail`: from `h` on — `z = (x ⊗ h) @ W1 + b1` over the 640000 (cell, gene) rows, the columns' mean and variance,
  the normalisation `(z - mu) * rsqrt (var + eps) * γ + β`, its positive part, `· @ W2 + b2` reshaped and added to `x`;
* `refOut`: their composition.

`run`: every weakly fair execution of `@main` terminates with the result buffer at `refOut` of the arguments' launch
contents and the arguments unchanged.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations -/

/-- Operations %0 … %47: the two index rows of the edge table, the degree vector by a scatter-add of ones,
    its inverse square root, the edge weights, and the first graph-convolution hop. -/
abbrev opsA : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_cst (constant S_ .f32 0x3F800000#32),
    StableHlo.unary main_cst main_v4 (broadcastInDim S640000 ![] bcast_S_S640000 : (⟨S_, .f32⟩ : BufTy).Contents (Elt F) → (⟨S640000, .f32⟩ : BufTy).Contents (Elt F)),
    StableHlo.nullary main_cst_0 (constant S_ .f32 0x00000000#32),
    StableHlo.unary main_cst_0 main_v5 (broadcastInDim S20000 ![] bcast_S_S20000 : (⟨S_, .f32⟩ : BufTy).Contents (Elt F) → (⟨S20000, .f32⟩ : BufTy).Contents (Elt F)),
    StableHlo.unary main_v3 main_v6 (broadcastInDim S640000x1 ![0] bcast_S640000_S640000x1_0 : (⟨S640000, .i32⟩ : BufTy).Contents (Elt F) → (⟨S640000x1, .i32⟩ : BufTy).Contents (Elt F)),
    StableHlo.ternary main_v5 main_v6 main_v4 main_v7 ((fun x i u => Host.scatterAdd scatter_S20000_S640000x1_S640000_n_0_0_1 x i u) : (⟨S20000, .f32⟩ : BufTy).Contents (Elt F) → (⟨S640000x1, .i32⟩ : BufTy).Contents (Elt F) → (⟨S640000, .f32⟩ : BufTy).Contents (Elt F) → (⟨S20000, .f32⟩ : BufTy).Contents (Elt F)),
    StableHlo.nullary main_cst_1 (constant S_ .f32 0x3F800000#32),
    StableHlo.unary main_cst_1 main_v8 (broadcastInDim S20000 ![] bcast_S_S20000 : (⟨S_, .f32⟩ : BufTy).Contents (Elt F) → (⟨S20000, .f32⟩ : BufTy).Contents (Elt F)),
    StableHlo.binary main_v7 main_v8 main_v9 (addf : (⟨S20000, .f32⟩ : BufTy).Contents (Elt F) → (⟨S20000, .f32⟩ : BufTy).Contents (Elt F) → (⟨S20000, .f32⟩ : BufTy).Contents (Elt F)),
    StableHlo.unary main_v9 main_v10 (Host.rsqrt : (⟨S20000, .f32⟩ : BufTy).Contents (Elt F) → (⟨S20000, .f32⟩ : BufTy).Contents (Elt F)),
    StableHlo.nullary main_c (constantI S_ 32 0#32),
    StableHlo.unary main_c main_v11 (broadcastInDim S640000 ![] bcast_S_S640000 : (⟨S_, .i32⟩ : BufTy).Contents (Elt F) → (⟨S640000, .i32⟩ : BufTy).Contents (Elt F)),
    StableHlo.binary main_v1 main_v11 main_v12 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 20000#32),
    StableHlo.unary main_c_2 main_v13 (broadcastInDim S640000 ![] bcast_S_S640000 : (⟨S_, .i32⟩ : BufTy).Contents (Elt F) → (⟨S640000, .i32⟩ : BufTy).Contents (Elt F)),
    StableHlo.binary main_v1 main_v13 main_v14 (addi : (⟨S640000, .i32⟩ : BufTy).Contents (Elt F) → (⟨S640000, .i32⟩ : BufTy).Contents (Elt F) → (⟨S640000, .i32⟩ : BufTy).Contents (Elt F)),
    StableHlo.ternary main_v12 main_v14 main_v1 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v15 main_v16 (broadcastInDim S640000x1 ![0] bcast_S640000_S640000x1_0 : (⟨S640000, .i32⟩ : BufTy).Contents (Elt F) → (⟨S640000x1, .i32⟩ : BufTy).Contents (Elt F)),
    StableHlo.binary main_v10 main_v16 main_v17 ((fun x i => Host.gather gather_S20000_S640000x1_S640000_n_0_n_n_0_1_1 x i) : (⟨S20000, .f32⟩ : BufTy).Contents (Elt F) → (⟨S640000x1, .i32⟩ : BufTy).Contents (Elt F) → (⟨S640000, .f32⟩ : BufTy).Contents (Elt F)),
    StableHlo.nullary main_c_3 (constantI S_ 32 0#32),
    StableHlo.unary main_c_3 main_v18 (broadcastInDim S640000 ![] bcast_S_S640000 : (⟨S_, .i32⟩ : BufTy).Contents (Elt F) → (⟨S640000, .i32⟩ : BufTy).Contents (Elt F)),
    StableHlo.binary main_v3 main_v18 main_v19 (cmpi .slt : (⟨S640000, .i32⟩ : BufTy).Contents (Elt F) → (⟨S640000, .i32⟩ : BufTy).Contents (Elt F) → (⟨S640000, .i1⟩ : BufTy).Contents (Elt F)),
    StableHlo.nullary main_c_4 (constantI S_ 32 20000#32),
    StableHlo.unary main_c_4 main_v20 (broadcastInDim S640000 ![] bcast_S_S640000 : (⟨S_, .i32⟩ : BufTy).Contents (Elt F) → (⟨S640000, .i32⟩ : BufTy).Contents (Elt F)),
    StableHlo.binary main_v3 main_v20 main_v21 (addi : (⟨S640000, .i32⟩ : BufTy).Contents (Elt F) → (⟨S640000, .i32⟩ : BufTy).Contents (Elt F) → (⟨S640000, .i32⟩ : BufTy).Contents (Elt F)),
    StableHlo.ternary main_v19 main_v21 main_v3 main_v22 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v22 main_v23 (broadcastInDim S640000x1 ![0] bcast_S640000_S640000x1_0 : (⟨S640000, .i32⟩ : BufTy).Contents (Elt F) → (⟨S640000x1, .i32⟩ : BufTy).Contents (Elt F)),
    StableHlo.binary main_v10 main_v23 main_v24 ((fun x i => Host.gather gather_S20000_S640000x1_S640000_n_0_n_n_0_1_1 x i) : (⟨S20000, .f32⟩ : BufTy).Contents (Elt F) → (⟨S640000x1, .i32⟩ : BufTy).Contents (Elt F) → (⟨S640000, .f32⟩ : BufTy).Contents (Elt F)),
    StableHlo.binary main_v17 main_v24 main_v25 (mulf : (⟨S640000, .f32⟩ : BufTy).Contents (Elt F) → (⟨S640000, .f32⟩ : BufTy).Contents (Elt F) → (⟨S640000, .f32⟩ : BufTy).Contents (Elt F)),
    StableHlo.binary main_v10 main_v10 main_v26 (mulf : (⟨S20000, .f32⟩ : BufTy).Contents (Elt F) → (⟨S20000, .f32⟩ : BufTy).Contents (Elt F) → (⟨S20000, .f32⟩ : BufTy).Contents (Elt F)),
    StableHlo.unary main_v26 main_v27 (broadcastInDim S20000x1 ![0] bcast_S20000_S20000x1_0 : (⟨S20000, .f32⟩ : BufTy).Contents (Elt F) → (⟨S20000x1, .f32⟩ : BufTy).Contents (Elt F)),
    StableHlo.nullary main_c_5 (constantI S_ 32 0#32),
    StableHlo.unary main_c_5 main_v28 (broadcastInDim S640000 ![] bcast_S_S640000 : (⟨S_, .i32⟩ : BufTy).Contents (Elt F) → (⟨S640000, .i32⟩ : BufTy).Contents (Elt F)),
    StableHlo.binary main_v1 main_v28 main_v29 (cmpi .slt : (⟨S640000, .i32⟩ : BufTy).Contents (Elt F) → (⟨S640000, .i32⟩ : BufTy).Contents (Elt F) → (⟨S640000, .i1⟩ : BufTy).Contents (Elt F)),
    StableHlo.nullary main_c_6 (constantI S_ 32 20000#32),
    StableHlo.unary main_c_6 main_v30 (broadcastInDim S640000 ![] bcast_S_S640000 : (⟨S_, .i32⟩ : BufTy).Contents (Elt F) → (⟨S640000, .i32⟩ : BufTy).Contents (Elt F)),
    StableHlo.binary main_v1 main_v30 main_v31 (addi : (⟨S640000, .i32⟩ : BufTy).Contents (Elt F) → (⟨S640000, .i32⟩ : BufTy).Contents (Elt F) → (⟨S640000, .i32⟩ : BufTy).Contents (Elt F)),
    StableHlo.ternary main_v29 main_v31 main_v1 main_v32 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v32 main_v33 (broadcastInDim S640000x1 ![0] bcast_S640000_S640000x1_0 : (⟨S640000, .i32⟩ : BufTy).Contents (Elt F) → (⟨S640000x1, .i32⟩ : BufTy).Contents (Elt F)),
    StableHlo.binary main_arg2 main_v33 main_v34 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    StableHlo.unary main_v25 main_v35 (broadcastInDim S640000x1 ![0] bcast_S640000_S640000x1_0 : (⟨S640000, .f32⟩ : BufTy).Contents (Elt F) → (⟨S640000x1, .f32⟩ : BufTy).Contents (Elt F)),
    StableHlo.unary main_v35 main_v36 (broadcastInDim S640000x64 ![0, 1] bcast_S640000x1_S640000x64_0_1 : (⟨S640000x1, .f32⟩ : BufTy).Contents (Elt F) → (⟨S640000x64, .f32⟩ : BufTy).Contents (Elt F)),
    StableHlo.binary main_v34 main_v36 main_v37 (mulf : (⟨S640000x64, .f32⟩ : BufTy).Contents (Elt F) → (⟨S640000x64, .f32⟩ : BufTy).Contents (Elt F) → (⟨S640000x64, .f32⟩ : BufTy).Contents (Elt F)),
    StableHlo.nullary main_cst_7 (constant S_ .f32 0x00000000#32),
    StableHlo.unary main_cst_7 main_v38 (broadcastInDim S20000x64 ![] bcast_S_S20000x64 : (⟨S_, .f32⟩ : BufTy).Contents (Elt F) → (⟨S20000x64, .f32⟩ : BufTy).Contents (Elt F)),
    StableHlo.unary main_v3 main_v39 (broadcastInDim S640000x1 ![0] bcast_S640000_S640000x1_0 : (⟨S640000, .i32⟩ : BufTy).Contents (Elt F) → (⟨S640000x1, .i32⟩ : BufTy).Contents (Elt F)),
    StableHlo.ternary main_v38 main_v39 main_v37 main_v40 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    StableHlo.unary main_v27 main_v41 (broadcastInDim S20000x64 ![0, 1] bcast_S20000x1_S20000x64_0_1 : (⟨S20000x1, .f32⟩ : BufTy).Contents (Elt F) → (⟨S20000x64, .f32⟩ : BufTy).Contents (Elt F)),
    StableHlo.binary main_arg2 main_v41 main_v42 (mulf : (⟨S20000x64, .f32⟩ : BufTy).Contents (Elt F) → (⟨S20000x64, .f32⟩ : BufTy).Contents (Elt F) → (⟨S20000x64, .f32⟩ : BufTy).Contents (Elt F)),
    StableHlo.binary main_v40 main_v42 main_v43 (addf : (⟨S20000x64, .f32⟩ : BufTy).Contents (Elt F) → (⟨S20000x64, .f32⟩ : BufTy).Contents (Elt F) → (⟨S20000x64, .f32⟩ : BufTy).Contents (Elt F)),
    StableHlo.nullary main_c_8 (constantI S_ 32 0#32),
    StableHlo.unary main_c_8 main_v44 (broadcastInDim S640000 ![] bcast_S_S640000 : (⟨S_, .i32⟩ : BufTy).Contents (Elt F) → (⟨S640000, .i32⟩ : BufTy).Contents (Elt F)),
    StableHlo.binary main_v1 main_v44 main_v45 (cmpi .slt : (⟨S640000, .i32⟩ : BufTy).Contents (Elt F) → (⟨S640000, .i32⟩ : BufTy).Contents (Elt F) → (⟨S640000, .i1⟩ : BufTy).Contents (Elt F)),
    StableHlo.nullary main_c_9 (constantI S_ 32 20000#32),
    StableHlo.unary main_c_9 main_v46 (broadcastInDim S640000 ![] bcast_S_S640000 : (⟨S_, .i32⟩ : BufTy).Contents (Elt F) → (⟨S640000, .i32⟩ : BufTy).Contents (Elt F)),
    StableHlo.binary main_v1 main_v46 main_v47 (addi : (⟨S640000, .i32⟩ : BufTy).Contents (Elt F) → (⟨S640000, .i32⟩ : BufTy).Contents (Elt F) → (⟨S640000, .i32⟩ : BufTy).Contents (Elt F)) ]

/-- Operations %48 … %63: the second hop, then the dense layer `· @ W + b` of the graph convolution. -/
abbrev opsB : List (HloOp τ sig (Elt F)) :=
  [ StableHlo.ternary main_v45 main_v47 main_v1 main_v48 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v48 main_v49 (broadcastInDim S640000x1 ![0] bcast_S640000_S640000x1_0 : (⟨S640000, .i32⟩ : BufTy).Contents (Elt F) → (⟨S640000x1, .i32⟩ : BufTy).Contents (Elt F)),
    StableHlo.binary main_v43 main_v49 main_v50 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    StableHlo.unary main_v25 main_v51 (broadcastInDim S640000x1 ![0] bcast_S640000_S640000x1_0 : (⟨S640000, .f32⟩ : BufTy).Contents (Elt F) → (⟨S640000x1, .f32⟩ : BufTy).Contents (Elt F)),
    StableHlo.unary main_v51 main_v52 (broadcastInDim S640000x64 ![0, 1] bcast_S640000x1_S640000x64_0_1 : (⟨S640000x1, .f32⟩ : BufTy).Contents (Elt F) → (⟨S640000x64, .f32⟩ : BufTy).Contents (Elt F)),
    StableHlo.binary main_v50 main_v52 main_v53 (mulf : (⟨S640000x64, .f32⟩ : BufTy).Contents (Elt F) → (⟨S640000x64, .f32⟩ : BufTy).Contents (Elt F) → (⟨S640000x64, .f32⟩ : BufTy).Contents (Elt F)),
    StableHlo.nullary main_cst_10 (constant S_ .f32 0x00000000#32),
    StableHlo.unary main_cst_10 main_v54 (broadcastInDim S20000x64 ![] bcast_S_S20000x64 : (⟨S_, .f32⟩ : BufTy).Contents (Elt F) → (⟨S20000x64, .f32⟩ : BufTy).Contents (Elt F)),
    StableHlo.unary main_v3 main_v55 (broadcastInDim S640000x1 ![0] bcast_S640000_S640000x1_0 : (⟨S640000, .i32⟩ : BufTy).Contents (Elt F) → (⟨S640000x1, .i32⟩ : BufTy).Contents (Elt F)),
    StableHlo.ternary main_v54 main_v55 main_v53 main_v56 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    StableHlo.unary main_v27 main_v57 (broadcastInDim S20000x64 ![0, 1] bcast_S20000x1_S20000x64_0_1 : (⟨S20000x1, .f32⟩ : BufTy).Contents (Elt F) → (⟨S20000x64, .f32⟩ : BufTy).Contents (Elt F)),
    StableHlo.binary main_v43 main_v57 main_v58 (mulf : (⟨S20000x64, .f32⟩ : BufTy).Contents (Elt F) → (⟨S20000x64, .f32⟩ : BufTy).Contents (Elt F) → (⟨S20000x64, .f32⟩ : BufTy).Contents (Elt F)),
    StableHlo.binary main_v56 main_v58 main_v59 (addf : (⟨S20000x64, .f32⟩ : BufTy).Contents (Elt F) → (⟨S20000x64, .f32⟩ : BufTy).Contents (Elt F) → (⟨S20000x64, .f32⟩ : BufTy).Contents (Elt F)),
    StableHlo.binary main_v59 main_arg3 main_v60 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.unary main_arg4 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S20000x64 ![0, 1] bcast_S1x64_S20000x64_0_1 : (⟨S1x64, .f32⟩ : BufTy).Contents (Elt F) → (⟨S20000x64, .f32⟩ : BufTy).Contents (Elt F)),
    StableHlo.binary main_v60 main_v62 main_v63 (addf : (⟨S20000x64, .f32⟩ : BufTy).Contents (Elt F) → (⟨S20000x64, .f32⟩ : BufTy).Contents (Elt F) → (⟨S20000x64, .f32⟩ : BufTy).Contents (Elt F)) ]

/-- Operations %64 … %99, the three outlined functions' bodies at their call sites over the calls' buffers. -/
abbrev opsC : List (HloOp τ sig (Elt F)) :=
  [ StableHlo.unary main_arg0 main_v64 (broadcastInDim S32x20000x1 ![0, 1] bcast_S32x20000_S32x20000x1_0_1 : (⟨S32x20000, .f32⟩ : BufTy).Contents (Elt F) → (⟨S32x20000x1, .f32⟩ : BufTy).Contents (Elt F)),
    StableHlo.unary main_v63 main_v65 (broadcastInDim S1x20000x64 ![1, 2] bcast_S20000x64_S1x20000x64_1_2 : (⟨S20000x64, .f32⟩ : BufTy).Contents (Elt F) → (⟨S1x20000x64, .f32⟩ : BufTy).Contents (Elt F)),
    StableHlo.unary main_v64 main_v66 (broadcastInDim S32x20000x64 ![0, 1, 2] bcast_S32x20000x1_S32x20000x64_0_1_2 : (⟨S32x20000x1, .f32⟩ : BufTy).Contents (Elt F) → (⟨S32x20000x64, .f32⟩ : BufTy).Contents (Elt F)),
    StableHlo.unary main_v65 main_v67 (broadcastInDim S32x20000x64 ![0, 1, 2] bcast_S1x20000x64_S32x20000x64_0_1_2 : (⟨S1x20000x64, .f32⟩ : BufTy).Contents (Elt F) → (⟨S32x20000x64, .f32⟩ : BufTy).Contents (Elt F)),
    StableHlo.binary main_v66 main_v67 main_v68 (mulf : (⟨S32x20000x64, .f32⟩ : BufTy).Contents (Elt F) → (⟨S32x20000x64, .f32⟩ : BufTy).Contents (Elt F) → (⟨S32x20000x64, .f32⟩ : BufTy).Contents (Elt F)),
    StableHlo.reshape main_v68 main_v69 rfl shapeCasts_S32x20000x64_S640000x64,
    StableHlo.binary main_v69 main_arg5 main_v70 ((fun l r => Host.dotGeneral dot_S640000x64_S64x128_S640000x128_1_0_0_1_n_n none l r) : (⟨S640000x64, .f32⟩ : BufTy).Contents (Elt F) → (⟨S64x128, .f32⟩ : BufTy).Contents (Elt F) → (⟨S640000x128, .f32⟩ : BufTy).Contents (Elt F)),
    StableHlo.unary main_arg6 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S640000x128 ![0, 1] bcast_S1x128_S640000x128_0_1 : (⟨S1x128, .f32⟩ : BufTy).Contents (Elt F) → (⟨S640000x128, .f32⟩ : BufTy).Contents (Elt F)),
    StableHlo.binary main_v70 main_v72 main_v73 (addf : (⟨S640000x128, .f32⟩ : BufTy).Contents (Elt F) → (⟨S640000x128, .f32⟩ : BufTy).Contents (Elt F) → (⟨S640000x128, .f32⟩ : BufTy).Contents (Elt F)),
    StableHlo.nullary main_cst_11 (constant S_ .f32 0x00000000#32),
    StableHlo.binary main_v73 main_cst_11 main_v74 ((fun x v => Host.reduceAdd x v reducesTo_S640000x128_S128_d0 h_S_) : (⟨S640000x128, .f32⟩ : BufTy).Contents (Elt F) → (⟨S_, .f32⟩ : BufTy).Contents (Elt F) → (⟨S128, .f32⟩ : BufTy).Contents (Elt F)),
    StableHlo.nullary main_cst_12 (constant S_ .f32 0x491C4000#32),
    StableHlo.unary main_cst_12 main_v75 (broadcastInDim S128 ![] bcast_S_S128 : (⟨S_, .f32⟩ : BufTy).Contents (Elt F) → (⟨S128, .f32⟩ : BufTy).Contents (Elt F)),
    StableHlo.binary main_v74 main_v75 main_v76 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary main_call0.cst (constant S_ .f32 0x00000000#32),
    StableHlo.TRef.binary (.of main_v73 : TRef sig ⟨S640000x128, .f32⟩) main_call0.cst main_call0.v0 (fun x v => Host.reduceAdd x v reducesTo_S640000x128_S128_d0 h_S_),
    StableHlo.TRef.unary main_call0.v0 main_call0.v1 (broadcastInDim S1x128 ![1] bcast_S128_S1x128_1),
    StableHlo.TRef.nullary main_call0.cst_0 (constant S_ .f32 0x491C4000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S640000x128 ![0, 1] bcast_S1x128_S640000x128_0_1),
    StableHlo.TRef.binary (.of main_v73 : TRef sig ⟨S640000x128, .f32⟩) main_call0.v4 main_call0.v5 subf,
    StableHlo.TRef.binary main_call0.v5 main_call0.v5 main_call0.v6 mulf,
    StableHlo.TRef.unary (.of main_c_13 : TRef sig ⟨S_, .i32⟩) main_call0.v7 (sitofp .f32),
    StableHlo.TRef.nullary main_call0.cst_1 (constant S_ .f32 0x491C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S640000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v76 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S640000x128 ![0, 1] bcast_S1x128_S640000x128_0_1 : (⟨S1x128, .f32⟩ : BufTy).Contents (Elt F) → (⟨S640000x128, .f32⟩ : BufTy).Contents (Elt F)),
    StableHlo.binary main_v73 main_v79 main_v80 (subf : (⟨S640000x128, .f32⟩ : BufTy).Contents (Elt F) → (⟨S640000x128, .f32⟩ : BufTy).Contents (Elt F) → (⟨S640000x128, .f32⟩ : BufTy).Contents (Elt F)),
    StableHlo.nullary main_cst_14 (constant S_ .f32 0x3727C5AC#32),
    StableHlo.unary main_cst_14 main_v81 (broadcastInDim S128 ![] bcast_S_S128 : (⟨S_, .f32⟩ : BufTy).Contents (Elt F) → (⟨S128, .f32⟩ : BufTy).Contents (Elt F)),
    StableHlo.binary main_v77 main_v81 main_v82 (addf : (⟨S128, .f32⟩ : BufTy).Contents (Elt F) → (⟨S128, .f32⟩ : BufTy).Contents (Elt F) → (⟨S128, .f32⟩ : BufTy).Contents (Elt F)),
    StableHlo.unary main_v82 main_v83 (Host.rsqrt : (⟨S128, .f32⟩ : BufTy).Contents (Elt F) → (⟨S128, .f32⟩ : BufTy).Contents (Elt F)),
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S640000x128 ![0, 1] bcast_S1x128_S640000x128_0_1 : (⟨S1x128, .f32⟩ : BufTy).Contents (Elt F) → (⟨S640000x128, .f32⟩ : BufTy).Contents (Elt F)),
    StableHlo.binary main_v80 main_v85 main_v86 (mulf : (⟨S640000x128, .f32⟩ : BufTy).Contents (Elt F) → (⟨S640000x128, .f32⟩ : BufTy).Contents (Elt F) → (⟨S640000x128, .f32⟩ : BufTy).Contents (Elt F)),
    StableHlo.unary main_arg7 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S640000x128 ![0, 1] bcast_S1x128_S640000x128_0_1 : (⟨S1x128, .f32⟩ : BufTy).Contents (Elt F) → (⟨S640000x128, .f32⟩ : BufTy).Contents (Elt F)),
    StableHlo.binary main_v86 main_v88 main_v89 (mulf : (⟨S640000x128, .f32⟩ : BufTy).Contents (Elt F) → (⟨S640000x128, .f32⟩ : BufTy).Contents (Elt F) → (⟨S640000x128, .f32⟩ : BufTy).Contents (Elt F)),
    StableHlo.unary main_arg8 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S640000x128 ![0, 1] bcast_S1x128_S640000x128_0_1 : (⟨S1x128, .f32⟩ : BufTy).Contents (Elt F) → (⟨S640000x128, .f32⟩ : BufTy).Contents (Elt F)),
    StableHlo.binary main_v89 main_v91 main_v92 (addf : (⟨S640000x128, .f32⟩ : BufTy).Contents (Elt F) → (⟨S640000x128, .f32⟩ : BufTy).Contents (Elt F) → (⟨S640000x128, .f32⟩ : BufTy).Contents (Elt F)),
    StableHlo.TRef.nullary main_call1.cst (constant S_ .f32 0x00000000#32),
    StableHlo.TRef.unary main_call1.cst main_call1.v0 (broadcastInDim S640000x128 ![] bcast_S_S640000x128),
    StableHlo.TRef.binary (.of main_v92 : TRef sig ⟨S640000x128, .f32⟩) main_call1.v0 main_call1.v1 maximumf,
    StableHlo.binary main_v93 main_arg9 main_v94 ((fun l r => Host.dotGeneral dot_S640000x128_S128x1_S640000x1_1_0_0_1_n_n none l r) : (⟨S640000x128, .f32⟩ : BufTy).Contents (Elt F) → (⟨S128x1, .f32⟩ : BufTy).Contents (Elt F) → (⟨S640000x1, .f32⟩ : BufTy).Contents (Elt F)),
    StableHlo.unary main_arg10 main_v95 (broadcastInDim S1x1 ![1] bcast_S1_S1x1_1 : (⟨S1, .f32⟩ : BufTy).Contents (Elt F) → (⟨S1x1, .f32⟩ : BufTy).Contents (Elt F)),
    StableHlo.unary main_v95 main_v96 (broadcastInDim S640000x1 ![0, 1] bcast_S1x1_S640000x1_0_1 : (⟨S1x1, .f32⟩ : BufTy).Contents (Elt F) → (⟨S640000x1, .f32⟩ : BufTy).Contents (Elt F)),
    StableHlo.binary main_v94 main_v96 main_v97 (addf : (⟨S640000x1, .f32⟩ : BufTy).Contents (Elt F) → (⟨S640000x1, .f32⟩ : BufTy).Contents (Elt F) → (⟨S640000x1, .f32⟩ : BufTy).Contents (Elt F)),
    StableHlo.reshape main_v97 main_v98 rfl shapeCasts_S640000x1_S32x20000,
    StableHlo.binary main_arg0 main_v98 main_v99 (addf : (⟨S32x20000, .f32⟩ : BufTy).Contents (Elt F) → (⟨S32x20000, .f32⟩ : BufTy).Contents (Elt F) → (⟨S32x20000, .f32⟩ : BufTy).Contents (Elt F)) ]

theorem part0_eq (c : Dev nD) : main_part0 (F := F) c = seq opsA := rfl

set_option maxRecDepth 4096 in
theorem part1_eq (c : Dev nD) : main_part1 (F := F) c = seq (opsB ++ opsC) := by
  simp only [main_part1, fn_var.body, fn_where.body, fn_relu.body, seq, bind_assoc, pure_bind]
  rfl

theorem main_eq (c : Dev nD) : main (F := F) c = seq (opsA ++ (opsB ++ opsC)) := by
  rw [seq_append, ← part0_eq c, ← part1_eq c]; rfl

/-! ## The reference as a function of its arguments -/

/-- The graph-convolution prefix (operations %0 … %63): with `src`, `dst` the two rows of the edge table,
    `deg = 1 + #{e | dst e = ·}`, `dinv = deg^(-1/2)`, `ew = dinv[src] * dinv[dst]`, `self_w = dinv * dinv`, two hops
    `g ↦ segment_sum (g[src] * ew) dst + g * self_w` from the embedding table, then `· @ W + b`. -/
def refH (a1 : IVec S2x640000 32) (a2 : FVec F S20000x64 .f32) (a3 : FVec F S64x64 .f32) (a4 : FVec F S64 .f32) :
    FVec F S20000x64 .f32 :=
  -- %0 … %3 : src, dst
  let v1 : IVec S640000 32 := shapeCast S640000 (extractStridedSlice S1x640000 ![0, 0] a1 slices_S2x640000_S1x640000_0_0) shapeCasts_S1x640000_S640000
  let v3 : IVec S640000 32 := shapeCast S640000 (extractStridedSlice S1x640000 ![1, 0] a1 slices_S2x640000_S1x640000_1_0) shapeCasts_S1x640000_S640000
  -- %4 … %10 : deg = segment_sum 1 dst + 1, dinv = rsqrt deg
  let v4 : FVec F S640000 .f32 := broadcastInDim S640000 ![] bcast_S_S640000 (constant (F := F) S_ .f32 0x3F800000#32)
  let v5 : FVec F S20000 .f32 := broadcastInDim S20000 ![] bcast_S_S20000 (constant (F := F) S_ .f32 0x00000000#32)
  let v6 : IVec S640000x1 32 := broadcastInDim S640000x1 ![0] bcast_S640000_S640000x1_0 v3
  let v7 : FVec F S20000 .f32 := Host.scatterAdd scatter_S20000_S640000x1_S640000_n_0_0_1 v5 v6 v4
  let v8 : FVec F S20000 .f32 := broadcastInDim S20000 ![] bcast_S_S20000 (constant (F := F) S_ .f32 0x3F800000#32)
  let v9 : FVec F S20000 .f32 := addf v7 v8
  let v10 : FVec F S20000 .f32 := Host.rsqrt v9
  -- %11 … %16 (and again %28 … %33, %44 … %49) : src, a negative entry wrapped by + 20000, as a column of indices
  let zero : IVec S640000 32 := broadcastInDim S640000 ![] bcast_S_S640000 (constantI S_ 32 0#32)
  let wrap : IVec S640000 32 := broadcastInDim S640000 ![] bcast_S_S640000 (constantI S_ 32 20000#32)
  let v16 : IVec S640000x1 32 := broadcastInDim S640000x1 ![0] bcast_S640000_S640000x1_0 (select (cmpi .slt v1 zero) (addi v1 wrap) v1)
  -- %18 … %23 : dst likewise
  let v23 : IVec S640000x1 32 := broadcastInDim S640000x1 ![0] bcast_S640000_S640000x1_0 (select (cmpi .slt v3 zero) (addi v3 wrap) v3)
  -- %17, %24, %25 : ew = dinv[src] * dinv[dst]
  let v17 : FVec F S640000 .f32 := Host.gather gather_S20000_S640000x1_S640000_n_0_n_n_0_1_1 v10 v16
  let v24 : FVec F S640000 .f32 := Host.gather gather_S20000_S640000x1_S640000_n_0_n_n_0_1_1 v10 v23
  let v25 : FVec F S640000 .f32 := mulf v17 v24
  -- %26, %27 : self_w = dinv * dinv, as a column
  let v27 : FVec F S20000x1 .f32 := broadcastInDim S20000x1 ![0] bcast_S20000_S20000x1_0 (mulf v10 v10)
  -- %35, %36 (and %51, %52) : ew along the feature axis; %41 (and %57) : self_w along it
  let v36 : FVec F S640000x64 .f32 := broadcastInDim S640000x64 ![0, 1] bcast_S640000x1_S640000x64_0_1 (broadcastInDim S640000x1 ![0] bcast_S640000_S640000x1_0 v25)
  let v41 : FVec F S20000x64 .f32 := broadcastInDim S20000x64 ![0, 1] bcast_S20000x1_S20000x64_0_1 v27
  -- %38 (and %54) : the zero accumulator
  let v38 : FVec F S20000x64 .f32 := broadcastInDim S20000x64 ![] bcast_S_S20000x64 (constant (F := F) S_ .f32 0x00000000#32)
  -- %34 … %43 : the first hop, from the embedding table
  let v37 : FVec F S640000x64 .f32 := mulf (Host.gather gather_S20000x64_S640000x1_S640000x64_1_0_n_n_0_1_164 a2 v16) v36
  let v43 : FVec F S20000x64 .f32 := addf (Host.scatterAdd scatter_S20000x64_S640000x1_S640000x64_1_0_0_1 v38 v6 v37) (mulf a2 v41)
  -- %50 … %59 : the second hop
  let v53 : FVec F S640000x64 .f32 := mulf (Host.gather gather_S20000x64_S640000x1_S640000x64_1_0_n_n_0_1_164 v43 v16) v36
  let v59 : FVec F S20000x64 .f32 := addf (Host.scatterAdd scatter_S20000x64_S640000x1_S640000x64_1_0_0_1 v38 v6 v53) (mulf v43 v41)
  -- %60 … %63 : · @ W + b
  addf (Host.dotGeneral dot_S20000x64_S64x64_S20000x64_1_0_0_1_n_n none v59 a3)
    (broadcastInDim S20000x64 ![0, 1] bcast_S1x64_S20000x64_0_1 (broadcastInDim S1x64 ![1] bcast_S64_S1x64_1 a4))

/-- The per-(cell, gene) head (operations %64 … %99) from the graph embedding `h` on: `z = (x[b, n] * h[n, :]) @ W1 + b1` over
    the 640000 rows `(b, n)`; `mu` the column means; the column variances as `jnp.var` computes them (the mean again, the sum
    of the centred squares over `640000 - 0`, NaN unless that divisor is positive); `(z - mu) * rsqrt (var + eps) * γ + β`;
    its positive part; `· @ W2 + b2` as a `[32, 20000]` array added to `x`. -/
def refTail (a0 : FVec F S32x20000 .f32) (h : FVec F S20000x64 .f32) (a5 : FVec F S64x128 .f32) (a6 a7 a8 : FVec F S128 .f32)
    (a9 : FVec F S128x1 .f32) (a10 : FVec F S1 .f32) : FVec F S32x20000 .f32 :=
  -- a vector of 128 column values along the 640000 rows
  let rows : FVec F S128 .f32 → FVec F S640000x128 .f32 := fun v =>
    broadcastInDim S640000x128 ![0, 1] bcast_S1x128_S640000x128_0_1 (broadcastInDim S1x128 ![1] bcast_S128_S1x128_1 v)
  let zero : FVec F S_ .f32 := constant (F := F) S_ .f32 0x00000000#32
  let cnt : FVec F S_ .f32 := constant (F := F) S_ .f32 0x491C4000#32
  -- %64 … %69 : x[b, n] * h[n, :], the rows (b, n) flattened
  let v66 : FVec F S32x20000x64 .f32 := broadcastInDim S32x20000x64 ![0, 1, 2] bcast_S32x20000x1_S32x20000x64_0_1_2 (broadcastInDim S32x20000x1 ![0, 1] bcast_S32x20000_S32x20000x1_0_1 a0)
  let v67 : FVec F S32x20000x64 .f32 := broadcastInDim S32x20000x64 ![0, 1, 2] bcast_S1x20000x64_S32x20000x64_0_1_2 (broadcastInDim S1x20000x64 ![1, 2] bcast_S20000x64_S1x20000x64_1_2 h)
  let v69 : FVec F S640000x64 .f32 := shapeCast S640000x64 (mulf v66 v67) shapeCasts_S32x20000x64_S640000x64
  -- %70 … %73 : z = · @ W1 + b1
  let v73 : FVec F S640000x128 .f32 := addf (Host.dotGeneral dot_S640000x64_S64x128_S640000x128_1_0_0_1_n_n none v69 a5) (rows a6)
  -- %74 … %76 : mu = sum over the rows / 640000
  let v74 : FVec F S128 .f32 := Host.reduceAdd v73 zero reducesTo_S640000x128_S128_d0 h_S_
  let v76 : FVec F S128 .f32 := Host.divf v74 (broadcastInDim S128 ![] bcast_S_S128 cnt)
  -- %77, the variance: the mean as a row, the centred squares, their sum over 640000 - 0, guarded by 640000 - 0 > 0
  let w3 : FVec F S1x128 .f32 := Host.divf (broadcastInDim S1x128 ![1] bcast_S128_S1x128_1 v74) (broadcastInDim S1x128 ![] bcast_S_S1x128 cnt)
  let w5 : FVec F S640000x128 .f32 := subf v73 (broadcastInDim S640000x128 ![0, 1] bcast_S1x128_S640000x128_0_1 w3)
  let w8 : FVec F S_ .f32 := subf cnt (sitofp .f32 (constantI S_ 32 0#32))
  let w11 : FVec F S128 .f32 := Host.divf (Host.reduceAdd (mulf w5 w5) zero reducesTo_S640000x128_S128_d0 h_S_) (broadcastInDim S128 ![] bcast_S_S128 w8)
  let v77 : FVec F S128 .f32 := select (broadcastInDim S128 ![] bcast_S_S128 (cmpf .ogt w8 zero)) w11
    (broadcastInDim S128 ![] bcast_S_S128 (constant (F := F) S_ .f32 0x7FC00000#32))
  -- %78 … %92 : (z - mu) * rsqrt (var + eps) * γ + β
  let v83 : FVec F S128 .f32 := Host.rsqrt (addf v77 (broadcastInDim S128 ![] bcast_S_S128 (constant (F := F) S_ .f32 0x3727C5AC#32)))
  let v92 : FVec F S640000x128 .f32 := addf (mulf (mulf (subf v73 (rows v76)) (rows v83)) (rows a7)) (rows a8)
  -- %93 : the positive part
  let v93 : FVec F S640000x128 .f32 := maximumf v92 (broadcastInDim S640000x128 ![] bcast_S_S640000x128 zero)
  -- %94 … %99 : · @ W2 + b2, as [32, 20000], added to x
  let v97 : FVec F S640000x1 .f32 := addf (Host.dotGeneral dot_S640000x128_S128x1_S640000x1_1_0_0_1_n_n none v93 a9)
    (broadcastInDim S640000x1 ![0, 1] bcast_S1x1_S640000x1_0_1 (broadcastInDim S1x1 ![1] bcast_S1_S1x1_1 a10))
  addf a0 (shapeCast S32x20000 v97 shapeCasts_S640000x1_S32x20000)

/-- The reference's result as a function of its eleven arguments. -/
def refOut (a0 : FVec F S32x20000 .f32) (a1 : IVec S2x640000 32) (a2 : FVec F S20000x64 .f32) (a3 : FVec F S64x64 .f32)
    (a4 : FVec F S64 .f32) (a5 : FVec F S64x128 .f32) (a6 a7 a8 : FVec F S128 .f32) (a9 : FVec F S128x1 .f32)
    (a10 : FVec F S1 .f32) : FVec F S32x20000 .f32 :=
  refTail a0 (refH a1 a2 a3 a4) a5 a6 a7 a8 a9 a10

/-! ## The fold of the operations at the buffers read later -/

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 4000000 in
/-- After operations %0 … %63 the buffer of %63 holds the prefix's value of the arguments. -/
theorem H_eq (V : Valuation τ sig (Elt F)) :
    after opsB (after opsA V) (main_v63 : DevRef τ sig)
      = refH (V (main_arg1 : DevRef τ sig)) (V (main_arg2 : DevRef τ sig)) (V (main_arg3 : DevRef τ sig)) (V (main_arg4 : DevRef τ sig)) := by
  after_results_simp
  rfl

set_option maxRecDepth 8192 in
set_option maxHeartbeats 4000000 in
/-- From any contents, operations %64 … %99 leave at %99 the head's value of the arguments and of %63. -/
theorem T_eq (W : Valuation τ sig (Elt F)) :
    after opsC W (main_v99 : DevRef τ sig)
      = refTail (W (main_arg0 : DevRef τ sig)) (W (main_v63 : DevRef τ sig)) (W (main_arg5 : DevRef τ sig)) (W (main_arg6 : DevRef τ sig))
          (W (main_arg7 : DevRef τ sig)) (W (main_arg8 : DevRef τ sig)) (W (main_arg9 : DevRef τ sig)) (W (main_arg10 : DevRef τ sig)) := by
  after_results_simp
  rfl

/-! ## The arguments are written by no operation -/

theorem AB_arg0 (V : Valuation τ sig (Elt F)) :
    after opsB (after opsA V) (main_arg0 : DevRef τ sig) = V (main_arg0 : DevRef τ sig) := by after_results_simp
theorem C_arg0 (W : Valuation τ sig (Elt F)) :
    after opsC W (main_arg0 : DevRef τ sig) = W (main_arg0 : DevRef τ sig) := by after_results_simp
theorem AB_arg1 (V : Valuation τ sig (Elt F)) :
    after opsB (after opsA V) (main_arg1 : DevRef τ sig) = V (main_arg1 : DevRef τ sig) := by after_results_simp
theorem C_arg1 (W : Valuation τ sig (Elt F)) :
    after opsC W (main_arg1 : DevRef τ sig) = W (main_arg1 : DevRef τ sig) := by after_results_simp
theorem AB_arg2 (V : Valuation τ sig (Elt F)) :
    after opsB (after opsA V) (main_arg2 : DevRef τ sig) = V (main_arg2 : DevRef τ sig) := by after_results_simp
theorem C_arg2 (W : Valuation τ sig (Elt F)) :
    after opsC W (main_arg2 : DevRef τ sig) = W (main_arg2 : DevRef τ sig) := by after_results_simp
theorem AB_arg3 (V : Valuation τ sig (Elt F)) :
    after opsB (after opsA V) (main_arg3 : DevRef τ sig) = V (main_arg3 : DevRef τ sig) := by after_results_simp
theorem C_arg3 (W : Valuation τ sig (Elt F)) :
    after opsC W (main_arg3 : DevRef τ sig) = W (main_arg3 : DevRef τ sig) := by after_results_simp
theorem AB_arg4 (V : Valuation τ sig (Elt F)) :
    after opsB (after opsA V) (main_arg4 : DevRef τ sig) = V (main_arg4 : DevRef τ sig) := by after_results_simp
theorem C_arg4 (W : Valuation τ sig (Elt F)) :
    after opsC W (main_arg4 : DevRef τ sig) = W (main_arg4 : DevRef τ sig) := by after_results_simp
theorem AB_arg5 (V : Valuation τ sig (Elt F)) :
    after opsB (after opsA V) (main_arg5 : DevRef τ sig) = V (main_arg5 : DevRef τ sig) := by after_results_simp
theorem C_arg5 (W : Valuation τ sig (Elt F)) :
    after opsC W (main_arg5 : DevRef τ sig) = W (main_arg5 : DevRef τ sig) := by after_results_simp
theorem AB_arg6 (V : Valuation τ sig (Elt F)) :
    after opsB (after opsA V) (main_arg6 : DevRef τ sig) = V (main_arg6 : DevRef τ sig) := by after_results_simp
theorem C_arg6 (W : Valuation τ sig (Elt F)) :
    after opsC W (main_arg6 : DevRef τ sig) = W (main_arg6 : DevRef τ sig) := by after_results_simp
theorem AB_arg7 (V : Valuation τ sig (Elt F)) :
    after opsB (after opsA V) (main_arg7 : DevRef τ sig) = V (main_arg7 : DevRef τ sig) := by after_results_simp
theorem C_arg7 (W : Valuation τ sig (Elt F)) :
    after opsC W (main_arg7 : DevRef τ sig) = W (main_arg7 : DevRef τ sig) := by after_results_simp
theorem AB_arg8 (V : Valuation τ sig (Elt F)) :
    after opsB (after opsA V) (main_arg8 : DevRef τ sig) = V (main_arg8 : DevRef τ sig) := by after_results_simp
theorem C_arg8 (W : Valuation τ sig (Elt F)) :
    after opsC W (main_arg8 : DevRef τ sig) = W (main_arg8 : DevRef τ sig) := by after_results_simp
theorem AB_arg9 (V : Valuation τ sig (Elt F)) :
    after opsB (after opsA V) (main_arg9 : DevRef τ sig) = V (main_arg9 : DevRef τ sig) := by after_results_simp
theorem C_arg9 (W : Valuation τ sig (Elt F)) :
    after opsC W (main_arg9 : DevRef τ sig) = W (main_arg9 : DevRef τ sig) := by after_results_simp
theorem AB_arg10 (V : Valuation τ sig (Elt F)) :
    after opsB (after opsA V) (main_arg10 : DevRef τ sig) = V (main_arg10 : DevRef τ sig) := by after_results_simp
theorem C_arg10 (W : Valuation τ sig (Elt F)) :
    after opsC W (main_arg10 : DevRef τ sig) = W (main_arg10 : DevRef τ sig) := by after_results_simp

/-- The whole line's fold at the result and at each argument. -/
theorem out_eq (V : Valuation τ sig (Elt F)) :
    after (opsA ++ (opsB ++ opsC)) V (main_v99 : DevRef τ sig)
      = refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) := by
  rw [after_app, after_app, T_eq, H_eq, AB_arg0, AB_arg5, AB_arg6, AB_arg7, AB_arg8, AB_arg9, AB_arg10]
  rfl

theorem arg0_eq (V : Valuation τ sig (Elt F)) :
    after (opsA ++ (opsB ++ opsC)) V (main_arg0 : DevRef τ sig) = V (main_arg0 : DevRef τ sig) := by
  rw [after_app, after_app, C_arg0, AB_arg0]
theorem arg1_eq (V : Valuation τ sig (Elt F)) :
    after (opsA ++ (opsB ++ opsC)) V (main_arg1 : DevRef τ sig) = V (main_arg1 : DevRef τ sig) := by
  rw [after_app, after_app, C_arg1, AB_arg1]
theorem arg2_eq (V : Valuation τ sig (Elt F)) :
    after (opsA ++ (opsB ++ opsC)) V (main_arg2 : DevRef τ sig) = V (main_arg2 : DevRef τ sig) := by
  rw [after_app, after_app, C_arg2, AB_arg2]
theorem arg3_eq (V : Valuation τ sig (Elt F)) :
    after (opsA ++ (opsB ++ opsC)) V (main_arg3 : DevRef τ sig) = V (main_arg3 : DevRef τ sig) := by
  rw [after_app, after_app, C_arg3, AB_arg3]
theorem arg4_eq (V : Valuation τ sig (Elt F)) :
    after (opsA ++ (opsB ++ opsC)) V (main_arg4 : DevRef τ sig) = V (main_arg4 : DevRef τ sig) := by
  rw [after_app, after_app, C_arg4, AB_arg4]
theorem arg5_eq (V : Valuation τ sig (Elt F)) :
    after (opsA ++ (opsB ++ opsC)) V (main_arg5 : DevRef τ sig) = V (main_arg5 : DevRef τ sig) := by
  rw [after_app, after_app, C_arg5, AB_arg5]
theorem arg6_eq (V : Valuation τ sig (Elt F)) :
    after (opsA ++ (opsB ++ opsC)) V (main_arg6 : DevRef τ sig) = V (main_arg6 : DevRef τ sig) := by
  rw [after_app, after_app, C_arg6, AB_arg6]
theorem arg7_eq (V : Valuation τ sig (Elt F)) :
    after (opsA ++ (opsB ++ opsC)) V (main_arg7 : DevRef τ sig) = V (main_arg7 : DevRef τ sig) := by
  rw [after_app, after_app, C_arg7, AB_arg7]
theorem arg8_eq (V : Valuation τ sig (Elt F)) :
    after (opsA ++ (opsB ++ opsC)) V (main_arg8 : DevRef τ sig) = V (main_arg8 : DevRef τ sig) := by
  rw [after_app, after_app, C_arg8, AB_arg8]
theorem arg9_eq (V : Valuation τ sig (Elt F)) :
    after (opsA ++ (opsB ++ opsC)) V (main_arg9 : DevRef τ sig) = V (main_arg9 : DevRef τ sig) := by
  rw [after_app, after_app, C_arg9, AB_arg9]
theorem arg10_eq (V : Valuation τ sig (Elt F)) :
    after (opsA ++ (opsB ++ opsC)) V (main_arg10 : DevRef τ sig) = V (main_arg10 : DevRef τ sig) := by
  rw [after_app, after_app, C_arg10, AB_arg10]

/-! ## The run -/

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..⟩
theorem opsB_sub : (opsB : List (HloOp τ sig (Elt F))).Forall fun op => op.bufs ⊆ tcRefs τ sig :=
  ⟨ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., binary_bufs_sub ..,
    binary_bufs_sub .., binary_bufs_sub .., unary_bufs_sub .., unary_bufs_sub .., binary_bufs_sub ..⟩
theorem opsC_sub : (opsC : List (HloOp τ sig (Elt F))).Forall fun op => op.bufs ⊆ tcRefs τ sig :=
  ⟨unary_bufs_sub .., unary_bufs_sub .., unary_bufs_sub .., unary_bufs_sub .., binary_bufs_sub .., reshape_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., reshape_bufs_sub .., binary_bufs_sub ..⟩

theorem ops_sub : (opsA ++ (opsB ++ opsC) : List (HloOp τ sig (Elt F))).Forall fun op => op.bufs ⊆ tcRefs τ sig :=
  List.forall_iff_forall_mem.2 fun op h => by
    rcases List.mem_append.1 h with h | h
    · exact List.forall_iff_forall_mem.1 opsA_sub op h
    rcases List.mem_append.1 h with h | h
    · exact List.forall_iff_forall_mem.1 opsB_sub op h
    · exact List.forall_iff_forall_mem.1 opsC_sub op h

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h

theorem ops_fresh : ∀ op ∈ (opsA ++ (opsB ++ opsC) : List (HloOp τ sig (Elt F))), op.fresh = ∅ := fun op h => by
  rcases List.mem_append.1 h with h | h
  · exact opsA_fresh op h
  rcases List.mem_append.1 h with h | h
  · exact opsB_fresh op h
  · exact opsC_fresh op h

/-- On every device, for any float values, from any memory with zero counters: every weakly fair execution of @main
    terminates with the result at `refOut` of the arguments' launch contents and the eleven arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v99)
        = refOut (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v99).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => opsA ++ (opsB ++ opsC)) main_eq (fun _ => ops_sub) m ρ
      (fun _ => ops_fresh))

end Cert.ReferenceIdeal.Hand

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.RefReal.lean ====
import proofs.«121308_j17678085390437_1_alg».proof.Proof.RefRun
import proofs.«121308_j17678085390437_1_alg».proof.Proof.LibRealValued
import Idealize.ShloMosaic.PureOps.Ideal.Laws

/-!
# The graph-convolution prefix keeps real entries real

At the ideal reading, with a real embedding table, weight matrix and bias, every entry of `refH` is a real number,
wherever the integer edge table points: the degree is a scatter-add of ones into zeros plus one, a real `≥ 1 > 0`, so
its reciprocal square root is a positive real; a gather re-indexes; a scatter-add and a `dot_general` are finite sums
of products of reals.
-/

noncomputable section

namespace Cert.ReferenceIdeal.Hand

open Cert.ReferenceIdeal Cert.ReferenceIdeal.Gen Idealize.ShloMosaic Cert.Lib.RealValued

/-- The literal `1.0` denotes the real `1`. -/
theorem ofBits_one_f32 : Ideal.ofBits .f32 0x3F800000#32 = ((1 : ℝ) : EReal) := by
  simp [Ideal.ofBits, Ideal.ieee, -EReal.coe_mul]; norm_num

/-- The scalar `1.0` is positive. -/
theorem const_one_pos : AllPos (constant (F := Ideal) S_ .f32 0x3F800000#32) :=
  fun _ => ⟨1, one_pos, ofBits_one_f32⟩

/-- The scalar `0.0` is nonnegative. -/
theorem const_zero_nonneg : AllNonneg (constant (F := Ideal) S_ .f32 0x00000000#32) :=
  fun _ => ⟨0, le_rfl, Ideal.ofBits_zero_f32.trans EReal.coe_zero.symm⟩

theorem refH_allReal (a1 : IVec S2x640000 32) {a2 : FVec Ideal S20000x64 .f32} {a3 : FVec Ideal S64x64 .f32}
    {a4 : FVec Ideal S64 .f32} (h2 : AllReal a2) (h3 : AllReal a3) (h4 : AllReal a4) :
    AllReal (refH (F := Ideal) a1 a2 a3 a4) := by
  unfold refH
  extract_lets v1 v3 v4 v5 v6 v7 v8 v9 v10 zero wrap v16 v23 v17 v24 v25 v27 v36 v41 v38 v37 v43 v53 v59
  -- the degree: a count of edges plus one
  have p4 : AllPos v4 := fun _ => const_one_pos _
  have n5 : AllNonneg v5 := fun _ => const_zero_nonneg _
  have n7 : AllNonneg v7 := AllNonneg.scatterAdd _ n5 _ p4.allNonneg
  have p8 : AllPos v8 := fun _ => const_one_pos _
  have p9 : AllPos v9 := AllNonneg.add_pos n7 p8
  -- its reciprocal square root, the edge weights and the self-loop weight
  have p10 : AllPos v10 := AllPos.hostRsqrt p9
  have p17 : AllPos v17 := AllPos.gather p10 _ _
  have p24 : AllPos v24 := AllPos.gather p10 _ _
  have r25 : AllReal v25 := (AllPos.mulf p17 p24).allReal
  have r27 : AllReal v27 := fun _ => ((AllPos.mulf p10 p10) _).isReal
  have r36 : AllReal v36 := AllReal.broadcastInDim (AllReal.broadcastInDim r25 _ _) _ _
  have r41 : AllReal v41 := AllReal.broadcastInDim r27 _ _
  have r38 : AllReal v38 := fun _ => (const_zero_nonneg _).isReal
  -- the two hops
  have r37 : AllReal v37 := AllReal.mulf (AllReal.gather h2 _ _) r36
  have r43 : AllReal v43 := AllReal.addf (AllReal.scatterAdd _ r38 _ r37) (AllReal.mulf h2 r41)
  have r53 : AllReal v53 := AllReal.mulf (AllReal.gather r43 _ _) r36
  have r59 : AllReal v59 := AllReal.addf (AllReal.scatterAdd _ r38 _ r53) (AllReal.mulf r43 r41)
  -- the dense layer
  exact AllReal.addf (AllReal.dotGeneral _ _ r59 h3) (AllReal.broadcastInDim (AllReal.broadcastInDim h4 _ _) _ _)

end Cert.ReferenceIdeal.Hand

end
-- ==== Proof.LibBatchStats.lean ====
/-
  Batch statistics on the extended reals, for values that are real numbers.

  A batch-normalisation layer needs the mean and the variance of a finite family of numbers. One program
  computes the variance as the mean of the squared deviations, another as the mean of the squares minus
  the square of the mean, a third accumulates the sums tile by tile over a padded, masked index range.
  On the extended reals none of these rearrangements is free: distributing a factor over a sum, or
  cancelling, fails at the infinities. All of them hold for REAL entries, and this module states them
  in the form the programs produce: sums of coerced reals in `EReal`, quotients by a nonzero real
  constant through `Ideal.div`.

  * `coe_sum`            the coercion ℝ → EReal commutes with finite sums;
  * `mul_sum_coe`        a real factor distributes over a sum of reals (false for a negative factor and
                          a sum that meets both infinities);
  * `sum_mul_coe`        the same with the factor on the right;
  * `div_coe_coe`        the quotient of a real by a nonzero real is the real quotient;
  * `mean_coe`           the mean of reals is the real mean;
  * `variance_eq`        mean of squared deviations = mean of squares − square of the mean, when the divisor
                          IS the number of terms;
  * `sum_tiles_masked`   a sum over `T` tiles of width `K`, the entries at positions `≥ N` replaced by `0`,
                          is the sum over the first `N` positions (`N ≤ T * K`): padding plus masking;
  * `sum_rows_cols`      a sum over a flattened `B × N` index (row-major) is the double sum.
-/
import Idealize.ShloMosaic.PureOps.Ideal
import Mathlib.Algebra.BigOperators.Fin
import Mathlib.Data.EReal.Basic
import Mathlib.Tactic

noncomputable section

namespace Cert.Lib.BatchStats

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor distributes over a sum of reals. -/
theorem mul_sum_coe {ι : Type*} (s : Finset ι) (x : ℝ) (f : ι → ℝ) :
    (x : EReal) * ∑ i ∈ s, (f i : EReal) = ∑ i ∈ s, (x : EReal) * (f i : EReal) := by
  rw [← coe_sum, ← EReal.coe_mul, Finset.mul_sum, coe_sum]
  simp only [EReal.coe_mul]

/-- The same, the factor on the right. -/
theorem sum_mul_coe {ι : Type*} (s : Finset ι) (x : ℝ) (f : ι → ℝ) :
    (∑ i ∈ s, (f i : EReal)) * (x : EReal) = ∑ i ∈ s, (f i : EReal) * (x : EReal) := by
  rw [← coe_sum, ← EReal.coe_mul, Finset.sum_mul, coe_sum]
  simp only [EReal.coe_mul]

/-- The quotient of a real by a nonzero real is the real quotient. -/
theorem div_coe_coe (a : ℝ) {n : ℝ} (hn : n ≠ 0) :
    Ideal.div (a : EReal) (n : EReal) = ((a / n : ℝ) : EReal) := by
  rw [Ideal.div_coe hn, ← EReal.coe_mul, mul_one_div]

/-- The mean of a family of reals is the real mean. -/
theorem mean_coe {ι : Type*} (s : Finset ι) (z : ι → ℝ) {n : ℝ} (hn : n ≠ 0) :
    Ideal.div (∑ i ∈ s, (z i : EReal)) (n : EReal) = (((∑ i ∈ s, z i) / n : ℝ) : EReal) := by
  rw [← coe_sum, div_coe_coe _ hn]

/-- The variance two ways. For reals `z i`, `i ∈ s`, and a divisor `n` that IS the number of terms:
    the mean of the squared deviations from the mean is the mean of the squares minus the square of the
    mean. (With another divisor the two differ by `(card/n − 1) · mean²`.) -/
theorem variance_eq {ι : Type*} (s : Finset ι) (z : ι → ℝ) {n : ℝ} (hn : n ≠ 0) (hcard : (s.card : ℝ) = n) :
    Ideal.div (∑ i ∈ s, ((z i : EReal) - Ideal.div (∑ j ∈ s, (z j : EReal)) (n : EReal))
        * ((z i : EReal) - Ideal.div (∑ j ∈ s, (z j : EReal)) (n : EReal))) (n : EReal)
      = Ideal.div (∑ i ∈ s, (z i : EReal) * (z i : EReal)) (n : EReal)
        - Ideal.div (∑ j ∈ s, (z j : EReal)) (n : EReal) * Ideal.div (∑ j ∈ s, (z j : EReal)) (n : EReal) := by
  rw [mean_coe s z hn]
  simp only [← EReal.coe_sub, ← EReal.coe_mul]
  rw [mean_coe s _ hn, mean_coe s _ hn, ← EReal.coe_sub]
  congr 1
  have h1 : ∑ i ∈ s, (z i - (∑ j ∈ s, z j) / n) * (z i - (∑ j ∈ s, z j) / n)
      = ∑ i ∈ s, z i * z i - 2 * ((∑ j ∈ s, z j) / n) * (∑ i ∈ s, z i) + (s.card : ℝ) * (((∑ j ∈ s, z j) / n) * ((∑ j ∈ s, z j) / n)) := by
    have : ∀ i, (z i - (∑ j ∈ s, z j) / n) * (z i - (∑ j ∈ s, z j) / n)
        = z i * z i - 2 * ((∑ j ∈ s, z j) / n) * z i + ((∑ j ∈ s, z j) / n) * ((∑ j ∈ s, z j) / n) := fun i => by ring
    simp only [this, Finset.sum_add_distrib, Finset.sum_sub_distrib, ← Finset.mul_sum, Finset.sum_const, nsmul_eq_mul]
    ring
  rw [h1, hcard]
  field_simp
  ring

/-- Padding and masking. A sum over `T` tiles of width `K`, each entry read at its global position
    `t * K + k` and replaced by `0` from position `N` on, is the sum over the first `N` positions. -/
theorem sum_tiles_masked {M : Type*} [AddCommMonoid M] (T K N : ℕ) (hN : N ≤ T * K) (f : ℕ → M) :
    ∑ t : Fin T, ∑ k : Fin K, (if t.val * K + k.val < N then f (t.val * K + k.val) else 0)
      = ∑ i : Fin N, f i.val := by
  have key : ∀ p : Fin T × Fin K, p.1.val * K + p.2.val = (finProdFinEquiv p).val := fun p => by
    rw [finProdFinEquiv_apply_val]; ring
  rw [← Finset.sum_product', Finset.univ_product_univ]
  calc ∑ p : Fin T × Fin K, (if p.1.val * K + p.2.val < N then f (p.1.val * K + p.2.val) else 0)
      = ∑ p : Fin T × Fin K, (fun j : Fin (T * K) => if j.val < N then f j.val else 0) (finProdFinEquiv p) :=
        Finset.sum_congr rfl fun p _ => by simp only [key]
    _ = ∑ j : Fin (T * K), (if j.val < N then f j.val else 0) :=
        Equiv.sum_comp finProdFinEquiv (fun j : Fin (T * K) => if j.val < N then f j.val else 0)
    _ = ∑ i : Fin N, f i.val := by
        rw [Fin.sum_univ_eq_sum_range (fun j => if j < N then f j else 0) (T * K),
          Fin.sum_univ_eq_sum_range (fun j => f j) N, Finset.sum_ite, Finset.sum_const_zero, add_zero]
        congr 1
        ext j
        simp only [Finset.mem_filter, Finset.mem_range]
        exact ⟨fun h => h.2, fun h => ⟨lt_of_lt_of_le h hN, h⟩⟩

/-- A sum over the row-major flattening of a `B × N` index is the double sum. -/
theorem sum_rows_cols {M : Type*} [AddCommMonoid M] (B N : ℕ) (g : ℕ → M) :
    ∑ i : Fin (B * N), g i.val = ∑ b : Fin B, ∑ n : Fin N, g (b.val * N + n.val) := by
  have key : ∀ p : Fin B × Fin N, p.1.val * N + p.2.val = (finProdFinEquiv p).val := fun p => by
    rw [finProdFinEquiv_apply_val]; ring
  rw [← Finset.sum_product', Finset.univ_product_univ]
  calc ∑ i : Fin (B * N), g i.val
      = ∑ p : Fin B × Fin N, (fun j : Fin (B * N) => g j.val) (finProdFinEquiv p) :=
        (Equiv.sum_comp finProdFinEquiv (fun j : Fin (B * N) => g j.val)).symm
    _ = ∑ p : Fin B × Fin N, g (p.1.val * N + p.2.val) := Finset.sum_congr rfl fun p _ => by simp only [key]

end Cert.Lib.BatchStats

end
-- ==== Proof.Spec.lean ====
/-
  The computation both programs perform, as functions on the extended reals, and the law that joins
  their two arrangements of it.

  With `x` the expression matrix `[32, 20000]`, `h` the graph-convolved gene embedding `[20000, 64]`, `W1`, `b1`
  the first layer, `γ`, `β` the batch-norm scale and shift, `W2`, `b2` the output layer:
  the hidden pre-activation of cell `b` and gene `n` is the row `x b n · h n` through the first layer — computed
  by one program as `Σ_j (x b n · h n j) · W1 j k + b1 k` (`zR`) and by the other, which projects the embedding
  once, as `x b n · (Σ_j h n j · W1 j k) + b1 k` (`zK`); the batch mean over all 640000 rows (`mu`); the batch
  variance, as the mean squared deviation (`varDev`) or as the mean square minus the squared mean (`varSq`); and the
  result `x b n + Σ_k relu((z − μ)·rsqrt(var + ε)·γ + β)_k · W2 k + b2` (`out`).
  For REAL `x`, `h`, `W1`, `b1` the two hidden arrays agree entry by entry (a real factor distributes over a sum
  of reals) and the two variances agree (the divisor is the number of rows): `out_zK_eq_out_zR`.
-/
import Idealize.ShloMosaic.PureOps.Ideal
import proofs.«121308_j17678085390437_1_alg».proof.Proof.LibBatchStats
import proofs.«121308_j17678085390437_1_alg».proof.Proof.LibRealValued

noncomputable section

namespace Cert.Spec

open Idealize.ShloMosaic Cert.Lib.BatchStats Cert.Lib.RealValued

/-- The variance's guard, as the f32 literal both programs spell. -/
def eps : EReal := Ideal.ofBits .f32 0x3727C5AC#32
/-- The number of rows, `32 · 20000`, as the f32 literal both programs divide by. -/
def cnt : EReal := Ideal.ofBits .f32 0x491C4000#32

/-- The literal `640000.0` denotes the real `640000`. -/
theorem cnt_eq : cnt = ((640000 : ℝ) : EReal) := by
  unfold cnt; simp [Ideal.ofBits, Ideal.ieee, -EReal.coe_mul]; norm_num

variable (x : Fin 32 → Fin 20000 → EReal) (h : Fin 20000 → Fin 64 → EReal) (W1 : Fin 64 → Fin 128 → EReal)
  (b1 γ β : Fin 128 → EReal) (W2 : Fin 128 → EReal) (b2 : EReal)

/-- The hidden pre-activation, each product of the row formed first. -/
def zR (b : Fin 32) (n : Fin 20000) (k : Fin 128) : EReal := (∑ j : Fin 64, (x b n * h n j) * W1 j k) + b1 k
/-- The hidden pre-activation, the embedding projected first. -/
def zK (b : Fin 32) (n : Fin 20000) (k : Fin 128) : EReal := x b n * (∑ j : Fin 64, h n j * W1 j k) + b1 k

/-- The sum over all cells and genes. -/
def sum2 (f : Fin 32 → Fin 20000 → EReal) : EReal := ∑ b : Fin 32, ∑ n : Fin 20000, f b n

variable (z : Fin 32 → Fin 20000 → Fin 128 → EReal)

/-- The batch mean of feature `k`. -/
def mu (k : Fin 128) : EReal := Ideal.div (sum2 fun b n => z b n k) cnt
/-- The batch variance as the mean squared deviation. -/
def varDev (k : Fin 128) : EReal := Ideal.div (sum2 fun b n => (z b n k - mu z k) * (z b n k - mu z k)) cnt
/-- The batch variance as the mean square minus the squared mean. -/
def varSq (k : Fin 128) : EReal := Ideal.div (sum2 fun b n => z b n k * z b n k) cnt - mu z k * mu z k

/-- The result at cell `b`, gene `n`, from a hidden array, a mean and a variance. -/
def out (μ v : Fin 128 → EReal) (b : Fin 32) (n : Fin 20000) : EReal :=
  x b n + ((∑ k : Fin 128, max ((((z b n k - μ k) * Ideal.rsqrt (v k + eps)) * γ k) + β k) 0 * W2 k) + b2)

/-! ## The law joining the two arrangements -/

omit z in
/-- Real inputs make every hidden entry a real. -/
theorem zR_isReal (hx : ∀ b n, IsReal (x b n)) (hh : ∀ n j, IsReal (h n j)) (hW : ∀ j k, IsReal (W1 j k)) (hb : ∀ k, IsReal (b1 k))
    (b : Fin 32) (n : Fin 20000) (k : Fin 128) : IsReal (zR x h W1 b1 b n k) :=
  (IsReal.sum _ _ fun j _ => ((hx b n).mul (hh n j)).mul (hW j k)).add (hb k)

omit z in
/-- Projecting the embedding first, or each scaled row: the same hidden entry, for real operands (a real factor
    distributes over a sum of reals). -/
theorem zK_eq_zR (hx : ∀ b n, IsReal (x b n)) (hh : ∀ n j, IsReal (h n j)) (hW : ∀ j k, IsReal (W1 j k))
    (b : Fin 32) (n : Fin 20000) (k : Fin 128) : zK x h W1 b1 b n k = zR x h W1 b1 b n k := by
  unfold zK zR
  congr 1
  obtain ⟨xr, hxr⟩ := hx b n
  choose hr hhr using hh
  choose wr hwr using hW
  rw [hxr]
  simp only [hhr, hwr, ← EReal.coe_mul]
  rw [mul_sum_coe]
  exact Finset.sum_congr rfl fun j _ => by rw [← EReal.coe_mul, mul_assoc]

/-- The sum over cells and genes as one sum over the pairs. -/
theorem sum2_eq_sum_prod (f : Fin 32 → Fin 20000 → EReal) : sum2 f = ∑ p : Fin 32 × Fin 20000, f p.1 p.2 := by
  unfold sum2; rw [← Finset.univ_product_univ, Finset.sum_product']

omit x h W1 b1 γ β W2 b2 in
/-- The two variances agree on a real hidden array: the divisor is the number of rows. -/
theorem varSq_eq_varDev (hz : ∀ b n k, IsReal (z b n k)) (k : Fin 128) : varSq z k = varDev z k := by
  choose zr hzr using hz
  simp only [varSq, varDev, mu, sum2_eq_sum_prod, hzr, cnt_eq]
  exact (variance_eq Finset.univ (fun p : Fin 32 × Fin 20000 => zr p.1 p.2 k) (n := 640000) (by norm_num)
    (by simp [Finset.card_univ, Fintype.card_prod])).symm

omit z in
/-- THE BRIDGE: the result computed from the projected-first hidden array, its mean and its mean-square variance is
    the result computed from the row-first hidden array, its mean and its mean-squared-deviation variance, for real
    `x`, `h`, `W1`, `b1`. -/
theorem out_zK_eq_out_zR (hx : ∀ b n, IsReal (x b n)) (hh : ∀ n j, IsReal (h n j)) (hW : ∀ j k, IsReal (W1 j k)) (hb : ∀ k, IsReal (b1 k))
    (b : Fin 32) (n : Fin 20000) :
    out x γ β W2 b2 (zK x h W1 b1) (mu (zK x h W1 b1)) (varSq (zK x h W1 b1)) b n
      = out x γ β W2 b2 (zR x h W1 b1) (mu (zR x h W1 b1)) (varDev (zR x h W1 b1)) b n := by
  have hz : zK x h W1 b1 = zR x h W1 b1 := funext fun b => funext fun n => funext fun k => zK_eq_zR x h W1 b1 hx hh hW b n k
  have hv : varSq (zR x h W1 b1) = varDev (zR x h W1 b1) :=
    funext fun k => varSq_eq_varDev _ (zR_isReal x h W1 b1 hx hh hW hb) k
  rw [hz, hv]

end Cert.Spec

end
-- ==== Proof.RefRead.lean ====
import proofs.«121308_j17678085390437_1_alg».proof.Proof.RefRun
import proofs.«121308_j17678085390437_1_alg».proof.Proof.Spec
import Idealize.ShloMosaic.Lib.ValueIdx
import Idealize.ShloMosaic.Lib.Pipeline.Value
import Idealize.ShloMosaic.Lib.IdealHost
import Idealize.ShloMosaic.Lib.StackMember
import Idealize.ShloMosaic.PureOps.Ideal.Laws

/-!
# The reference's result read at a cell and a gene

At the ideal reading, the head of the reference (`refTail`: everything after the graph convolution) read at the index
`(b, n)` is the shared target `Cert.Spec.out` at the hidden array `zR`, its batch mean `mu` and its mean squared deviation
`varDev`. Each operation is read at an index: a broadcast reads its operand at the kept coordinates, the reshape
`[32, 20000, 64] → [640000, 64]` reads row `b · 20000 + n` at `(b, n)`, a `dot_general` is the sum over its one contracted
coordinate, a column sum over the 640000 rows is the double sum over cells and genes. The variance's guard is evaluated:
its divisor `640000 - 0` is the count, which is positive, so the selection takes the quotient.
No entry needs to be real for this.
-/

noncomputable section

namespace Cert.ReferenceIdeal.Hand

open Cert.ReferenceIdeal Cert.ReferenceIdeal.Gen Idealize.ShloMosaic Idealize.ShloMosaic.ValueIdx Cert.Lib.BatchStats

/-! ## Indices and layout -/

/-- The row of cell `b` and gene `n` on the flattened axis of `32 · 20000` rows. -/
def flat (b : Fin 32) (n : Fin 20000) : Fin 640000 :=
  ⟨b.val * 20000 + n.val, by have := b.isLt; have := n.isLt; omega⟩

/-- A sum over a row-major flattened `B × N` axis of extent `T = B · N` is the double sum. -/
theorem sum_flat_gen {M : Type*} [AddCommMonoid M] {B N T : ℕ} (hT : B * N = T) (f : Fin T → M)
    (hlt : ∀ (b : Fin B) (n : Fin N), b.val * N + n.val < T) :
    ∑ i, f i = ∑ b : Fin B, ∑ n : Fin N, f ⟨b.val * N + n.val, hlt b n⟩ := by
  subst hT
  have key := sum_rows_cols B N (fun m : ℕ => if h : m < B * N then f ⟨m, h⟩ else 0)
  refine Eq.trans (Finset.sum_congr rfl fun i _ => ?_)
    (key.trans (Finset.sum_congr rfl fun b _ => Finset.sum_congr rfl fun n _ => ?_))
  · show f i = if h : i.val < B * N then f ⟨i.val, h⟩ else 0
    rw [dif_pos i.isLt]
  · show (if h : b.val * N + n.val < B * N then f ⟨b.val * N + n.val, h⟩ else 0) = _
    rw [dif_pos (hlt b n)]

/-- A sum over the flattened rows is the double sum over cells and genes. -/
theorem sum_flat {M : Type*} [AddCommMonoid M] (f : Fin 640000 → M) :
    ∑ i, f i = ∑ b : Fin 32, ∑ n : Fin 20000, f (flat b n) :=
  sum_flat_gen (B := 32) (N := 20000) (by norm_num) f fun b n => (flat b n).isLt

/-- A vector of 128 column values laid along the rows reads the column's value. -/
theorem rows_apply {α : Type} (v : S128.Idx → α) (i : Fin 640000) (k : Fin 128) :
    broadcastInDim S640000x128 ![0, 1] bcast_S1x128_S640000x128_0_1 (broadcastInDim S1x128 ![1] bcast_S128_S1x128_1 v) (ix2 i k)
      = v (ix1 k) := by
  refine (broadcastInDim_apply _ _ _ (ix2 i k) (ix2 ⟨0, Nat.one_pos⟩ k) fun a => ?_).trans ?_
  · match a with
    | ⟨0, _⟩ => rfl
    | ⟨1, _⟩ => rfl
  · refine broadcastInDim_apply _ _ _ _ (ix1 k) fun a => ?_
    match a with
    | ⟨0, _⟩ => rfl

/-- The product `x[b, n] * h[n, j]` over `[32, 20000, 64]`, flattened to rows, read at row `(b, n)`. -/
theorem z0_apply (a0 : FVec Ideal S32x20000 .f32) (h : FVec Ideal S20000x64 .f32) (b : Fin 32) (n : Fin 20000) (j : Fin 64) :
    shapeCast S640000x64
        (mulf (broadcastInDim S32x20000x64 ![0, 1, 2] bcast_S32x20000x1_S32x20000x64_0_1_2
                (broadcastInDim S32x20000x1 ![0, 1] bcast_S32x20000_S32x20000x1_0_1 a0))
              (broadcastInDim S32x20000x64 ![0, 1, 2] bcast_S1x20000x64_S32x20000x64_0_1_2
                (broadcastInDim S1x20000x64 ![1, 2] bcast_S20000x64_S1x20000x64_1_2 h)))
        shapeCasts_S32x20000x64_S640000x64 (ix2 (flat b n) j)
      = a0 (ix2 b n) * h (ix2 n j) := by
  refine (shapeCast_apply _ _ (ix2 (flat b n) j) (ix3 b n j) ?_).trans ?_
  · rw [Shape.rowMajor_val_three, Shape.rowMajor_val_two]; rfl
  · refine (mulf_apply _ _ _).trans (congrArg₂ (· * ·) ?_ ?_)
    · refine (broadcastInDim_apply _ _ _ (ix3 b n j) (ix3 b n ⟨0, Nat.one_pos⟩) fun a => ?_).trans ?_
      · match a with
        | ⟨0, _⟩ => rfl
        | ⟨1, _⟩ => rfl
        | ⟨2, _⟩ => rfl
      · refine broadcastInDim_apply _ _ _ _ (ix2 b n) fun a => ?_
        match a with
        | ⟨0, _⟩ => rfl
        | ⟨1, _⟩ => rfl
    · refine (broadcastInDim_apply _ _ _ (ix3 b n j) (ix3 ⟨0, Nat.one_pos⟩ n j) fun a => ?_).trans ?_
      · match a with
        | ⟨0, _⟩ => rfl
        | ⟨1, _⟩ => rfl
        | ⟨2, _⟩ => rfl
      · refine broadcastInDim_apply _ _ _ _ (ix2 n j) fun a => ?_
        match a with
        | ⟨0, _⟩ => rfl
        | ⟨1, _⟩ => rfl

/-- The column sums over the rows, from a zero initial value. -/
theorem colsum_apply (x : FVec Ideal S640000x128 .f32) (k : Fin 128) :
    Host.reduceAdd x (constant (F := Ideal) S_ .f32 0x00000000#32) reducesTo_S640000x128_S128_d0 h_S_ (ix1 k)
      = ∑ i : Fin 640000, x (ix2 i k) := by
  have hr : S640000x128.Reduces [0] S128 := by decide
  refine (hostReduceAdd_apply x _ _ _ (ix1 k)).trans ?_
  refine (Ideal.hostReduceAdd_single reducesTo_S640000x128_S128_d0 hr x _ (ix1 k)).trans ?_
  rw [constant_apply, Ideal.ofBits_zero_f32, zero_add]
  refine Finset.sum_congr rfl fun i _ => congrArg x (funext fun a => Fin.ext ?_)
  match a with
  | ⟨0, _⟩ => rfl
  | ⟨1, _⟩ => rfl

/-- The result column `[640000, 1]` as a `[32, 20000]` array. -/
theorem unflat_apply {α : Type} (v : S640000x1.Idx → α) (b : Fin 32) (n : Fin 20000) :
    shapeCast S32x20000 v shapeCasts_S640000x1_S32x20000 (ix2 b n) = v (ix2 (flat b n) ⟨0, Nat.one_pos⟩) := by
  refine shapeCast_apply v _ (ix2 b n) (ix2 (flat b n) ⟨0, Nat.one_pos⟩) ?_
  rw [Shape.rowMajor_val_two, Shape.rowMajor_val_two]
  show (b.val * 20000 + n.val) * 1 + 0 = b.val * 20000 + n.val
  omega

/-- The output bias laid along the rows. -/
theorem bias_apply {α : Type} (v : S1.Idx → α) (i : Fin 640000) :
    broadcastInDim S640000x1 ![0, 1] bcast_S1x1_S640000x1_0_1 (broadcastInDim S1x1 ![1] bcast_S1_S1x1_1 v) (ix2 i ⟨0, Nat.one_pos⟩)
      = v (ix1 ⟨0, Nat.one_pos⟩) := by
  refine (broadcastInDim_apply _ _ _ (ix2 i ⟨0, Nat.one_pos⟩) (ix2 ⟨0, Nat.one_pos⟩ ⟨0, Nat.one_pos⟩) fun a => ?_).trans ?_
  · match a with
    | ⟨0, _⟩ => rfl
    | ⟨1, _⟩ => rfl
  · refine broadcastInDim_apply _ _ _ _ (ix1 ⟨0, Nat.one_pos⟩) fun a => ?_
    match a with
    | ⟨0, _⟩ => rfl

/-- The two contractions of the head are plain matrix products. -/
theorem dot1_eq : dot_S640000x64_S64x128_S640000x128_1_0_0_1_n_n = DotDims.plain 640000 64 128 := rfl
theorem dot2_eq : dot_S640000x128_S128x1_S640000x1_1_0_0_1_n_n = DotDims.plain 640000 128 1 := rfl

/-! ## The head read at a cell and a gene -/

section Head

variable (a0 : FVec Ideal S32x20000 .f32) (h : FVec Ideal S20000x64 .f32) (a5 : FVec Ideal S64x128 .f32)
  (a6 a7 a8 : FVec Ideal S128 .f32) (a9 : FVec Ideal S128x1 .f32) (a10 : FVec Ideal S1 .f32)

/-- The hidden pre-activation of cell `b`, gene `n`, feature `k`, from the arrays read entry by entry. -/
abbrev Zof : Fin 32 → Fin 20000 → Fin 128 → EReal :=
  Cert.Spec.zR (fun b n => a0 (ix2 b n)) (fun n j => h (ix2 n j)) (fun j k => a5 (ix2 j k)) (fun k => a6 (ix1 k))

/-- The count `640000.0` is positive: the variance's guard takes the quotient, not the NaN literal. -/
theorem cnt_gt_zero : Ideal.cmp .ogt Cert.Spec.cnt (0 : EReal) = 1#1 := by
  have hpos : (0 : EReal) < Cert.Spec.cnt := by
    rw [Cert.Spec.cnt_eq]; exact_mod_cast (by norm_num : (0 : ℝ) < 640000)
  simp [Ideal.cmp, hpos]

set_option maxHeartbeats 1000000 in
/-- The head at `(b, n)`: every operation read at an index, the column sums over the flattened rows as double sums. -/
theorem refTail_apply (b : Fin 32) (n : Fin 20000) :
    refTail (F := Ideal) a0 h a5 a6 a7 a8 a9 a10 (ix2 b n)
      = Cert.Spec.out (fun b n => a0 (ix2 b n)) (fun k => a7 (ix1 k)) (fun k => a8 (ix1 k))
          (fun k => a9 (ix2 k ⟨0, Nat.one_pos⟩)) (a10 (ix1 ⟨0, Nat.one_pos⟩)) (Zof a0 h a5 a6)
          (Cert.Spec.mu (Zof a0 h a5 a6)) (Cert.Spec.varDev (Zof a0 h a5 a6)) b n := by
  generalize hf : refTail (F := Ideal) a0 h a5 a6 a7 a8 a9 a10 = f
  unfold refTail at hf
  extract_lets rows zero cnt v66 v67 v69 v73 v74 v76 w3 w5 w8 w11 v77 v83 v92 v93 v97 at hf
  subst hf
  have hrows : ∀ (v : FVec Ideal S128 .f32) (i : Fin 640000) (k : Fin 128), rows v (ix2 i k) = v (ix1 k) :=
    fun v i k => rows_apply v i k
  have hzero : zero ix0 = (0 : EReal) := Ideal.ofBits_zero_f32
  have hcnt : cnt ix0 = Cert.Spec.cnt := rfl
  -- z = (x ⊗ h) @ W1 + b1 at row (b, n)
  have e69 : ∀ (b : Fin 32) (n : Fin 20000) (j : Fin 64), v69 (ix2 (flat b n) j) = a0 (ix2 b n) * h (ix2 n j) :=
    fun b n j => z0_apply a0 h b n j
  have e73 : ∀ (b : Fin 32) (n : Fin 20000) (k : Fin 128), v73 (ix2 (flat b n) k) = (Zof a0 h a5 a6) b n k := fun b n k => by
    show addf (Host.dotGeneral (DotDims.plain 640000 64 128) none v69 a5) (rows a6) (ix2 (flat b n) k)
      = (∑ j : Fin 64, (a0 (ix2 b n) * h (ix2 n j)) * a5 (ix2 j k)) + a6 (ix1 k)
    refine (addf_apply _ _ _).trans (congrArg₂ (· + ·) ?_ (hrows a6 _ k))
    refine (StackMember.dotGeneral_plain_apply none v69 a5 (flat b n) k).trans ?_
    exact Finset.sum_congr rfl fun j _ => congrArg (· * a5 (ix2 j k)) (e69 b n j)
  -- the column sums and the mean
  have e74 : ∀ k : Fin 128, v74 (ix1 k) = Cert.Spec.sum2 (fun b n => (Zof a0 h a5 a6) b n k) := fun k =>
    (colsum_apply v73 k).trans ((sum_flat _).trans
      (Finset.sum_congr rfl fun b _ => Finset.sum_congr rfl fun n _ => e73 b n k))
  have e76 : ∀ k : Fin 128, v76 (ix1 k) = Cert.Spec.mu (Zof a0 h a5 a6) k := fun k => by
    show Host.divf v74 (broadcastInDim S128 ![] bcast_S_S128 cnt) (ix1 k) = _
    exact (hostDivf_apply _ _ _).trans (congrArg₂ Ideal.div (e74 k) ((broadcastInDim_scalar_apply _ _ _).trans hcnt))
  -- the variance: the mean again, the centred squares, their sum over 640000 - 0
  have ew3 : ∀ k : Fin 128, w3 (ix2 ⟨0, Nat.one_pos⟩ k) = Cert.Spec.mu (Zof a0 h a5 a6) k := fun k => by
    show Host.divf (broadcastInDim S1x128 ![1] bcast_S128_S1x128_1 v74) (broadcastInDim S1x128 ![] bcast_S_S1x128 cnt)
      (ix2 ⟨0, Nat.one_pos⟩ k) = _
    refine (hostDivf_apply _ _ _).trans (congrArg₂ Ideal.div ?_ ((broadcastInDim_scalar_apply _ _ _).trans hcnt))
    refine (broadcastInDim_apply _ _ _ _ (ix1 k) fun a => ?_).trans (e74 k)
    match a with
    | ⟨0, _⟩ => rfl
  have ew5 : ∀ (b : Fin 32) (n : Fin 20000) (k : Fin 128),
      w5 (ix2 (flat b n) k) = (Zof a0 h a5 a6) b n k - Cert.Spec.mu (Zof a0 h a5 a6) k := fun b n k => by
    show subf v73 (broadcastInDim S640000x128 ![0, 1] bcast_S1x128_S640000x128_0_1 w3) (ix2 (flat b n) k) = _
    refine (subf_apply _ _ _).trans (congrArg₂ (· - ·) (e73 b n k) ?_)
    refine (broadcastInDim_apply _ _ _ _ (ix2 ⟨0, Nat.one_pos⟩ k) fun a => ?_).trans (ew3 k)
    match a with
    | ⟨0, _⟩ => rfl
    | ⟨1, _⟩ => rfl
  have ew8 : w8 ix0 = Cert.Spec.cnt := by
    show cnt ix0 - (((0#32 : BitVec 32).toInt : ℝ) : EReal) = _
    rw [hcnt]; simp
  have ew11 : ∀ k : Fin 128, w11 (ix1 k) = Cert.Spec.varDev (Zof a0 h a5 a6) k := fun k => by
    show Host.divf (Host.reduceAdd (mulf w5 w5) zero reducesTo_S640000x128_S128_d0 h_S_)
      (broadcastInDim S128 ![] bcast_S_S128 w8) (ix1 k) = _
    refine (hostDivf_apply _ _ _).trans (congrArg₂ Ideal.div ?_ ((broadcastInDim_scalar_apply _ _ _).trans ew8))
    refine (colsum_apply (mulf w5 w5) k).trans ((sum_flat _).trans
      (Finset.sum_congr rfl fun b _ => Finset.sum_congr rfl fun n _ => ?_))
    exact (mulf_apply _ _ _).trans (congrArg₂ (· * ·) (ew5 b n k) (ew5 b n k))
  have e77 : ∀ k : Fin 128, v77 (ix1 k) = Cert.Spec.varDev (Zof a0 h a5 a6) k := fun k => by
    show select (broadcastInDim S128 ![] bcast_S_S128 (cmpf .ogt w8 zero)) w11
      (broadcastInDim S128 ![] bcast_S_S128 (constant (F := Ideal) S_ .f32 0x7FC00000#32)) (ix1 k) = _
    refine (select_apply _ _ _ _).trans ?_
    have hc : broadcastInDim S128 ![] bcast_S_S128 (cmpf .ogt w8 zero) (ix1 k) = 1#1 := by
      refine (broadcastInDim_scalar_apply _ _ _).trans ?_
      show Ideal.cmp .ogt (w8 ix0) (zero ix0) = 1#1
      rw [ew8, hzero]; exact cnt_gt_zero
    rw [hc, select_one]; exact ew11 k
  -- the normalisation, the positive part, the output layer
  have e83 : ∀ k : Fin 128, v83 (ix1 k) = Ideal.rsqrt (Cert.Spec.varDev (Zof a0 h a5 a6) k + Cert.Spec.eps) := fun k => by
    show Ideal.rsqrt (v77 (ix1 k)
      + broadcastInDim S128 ![] bcast_S_S128 (constant (F := Ideal) S_ .f32 0x3727C5AC#32) (ix1 k)) = _
    rw [e77 k]; rfl
  have e92 : ∀ (b : Fin 32) (n : Fin 20000) (k : Fin 128), v92 (ix2 (flat b n) k) = ((((Zof a0 h a5 a6) b n k - Cert.Spec.mu (Zof a0 h a5 a6) k) * Ideal.rsqrt (Cert.Spec.varDev (Zof a0 h a5 a6) k + Cert.Spec.eps)) * a7 (ix1 k)) + a8 (ix1 k) := fun b n k => by
    show addf (mulf (mulf (subf v73 (rows v76)) (rows v83)) (rows a7)) (rows a8) (ix2 (flat b n) k) = _
    refine (addf_apply _ _ _).trans (congrArg₂ (· + ·) ?_ (hrows a8 _ k))
    refine (mulf_apply _ _ _).trans (congrArg₂ (· * ·) ?_ (hrows a7 _ k))
    refine (mulf_apply _ _ _).trans (congrArg₂ (· * ·) ?_ ((hrows v83 _ k).trans (e83 k)))
    exact (subf_apply _ _ _).trans (congrArg₂ (· - ·) (e73 b n k) ((hrows v76 _ k).trans (e76 k)))
  have e93 : ∀ (b : Fin 32) (n : Fin 20000) (k : Fin 128), v93 (ix2 (flat b n) k) = max (((((Zof a0 h a5 a6) b n k - Cert.Spec.mu (Zof a0 h a5 a6) k) * Ideal.rsqrt (Cert.Spec.varDev (Zof a0 h a5 a6) k + Cert.Spec.eps)) * a7 (ix1 k)) + a8 (ix1 k)) 0 := fun b n k => by
    show maximumf v92 (broadcastInDim S640000x128 ![] bcast_S_S640000x128 zero) (ix2 (flat b n) k) = _
    exact (maximumf_apply _ _ _).trans (congrArg₂ max (e92 b n k) ((broadcastInDim_scalar_apply _ _ _).trans hzero))
  have e97 : ∀ (b : Fin 32) (n : Fin 20000), v97 (ix2 (flat b n) ⟨0, Nat.one_pos⟩)
      = (∑ k : Fin 128, max (((((Zof a0 h a5 a6) b n k - Cert.Spec.mu (Zof a0 h a5 a6) k) * Ideal.rsqrt (Cert.Spec.varDev (Zof a0 h a5 a6) k + Cert.Spec.eps)) * a7 (ix1 k)) + a8 (ix1 k)) 0 * a9 (ix2 k ⟨0, Nat.one_pos⟩)) + a10 (ix1 ⟨0, Nat.one_pos⟩) := fun b n => by
    show addf (Host.dotGeneral (DotDims.plain 640000 128 1) none v93 a9)
      (broadcastInDim S640000x1 ![0, 1] bcast_S1x1_S640000x1_0_1 (broadcastInDim S1x1 ![1] bcast_S1_S1x1_1 a10))
      (ix2 (flat b n) ⟨0, Nat.one_pos⟩) = _
    refine (addf_apply _ _ _).trans (congrArg₂ (· + ·) ?_ (bias_apply a10 _))
    refine (StackMember.dotGeneral_plain_apply none v93 a9 (flat b n) ⟨0, Nat.one_pos⟩).trans ?_
    exact Finset.sum_congr rfl fun k _ => congrArg (· * a9 (ix2 k ⟨0, Nat.one_pos⟩)) (e93 b n k)
  show addf a0 (shapeCast S32x20000 v97 shapeCasts_S640000x1_S32x20000) (ix2 b n) = _
  exact (addf_apply _ _ _).trans (congrArg₂ (· + ·) rfl ((unflat_apply v97 b n).trans (e97 b n)))

end Head

/-- The reference's result at cell `b` and gene `n` is the shared target's, at the hidden array `zR` of the
    graph-convolved embedding `refH`, its batch mean and its mean squared deviation. -/
theorem refOut_apply (a0 : FVec Ideal S32x20000 .f32) (a1 : IVec S2x640000 32) (a2 : FVec Ideal S20000x64 .f32)
    (a3 : FVec Ideal S64x64 .f32) (a4 : FVec Ideal S64 .f32) (a5 : FVec Ideal S64x128 .f32) (a6 a7 a8 : FVec Ideal S128 .f32)
    (a9 : FVec Ideal S128x1 .f32) (a10 : FVec Ideal S1 .f32) (b : Fin 32) (n : Fin 20000) :
    refOut (F := Ideal) a0 a1 a2 a3 a4 a5 a6 a7 a8 a9 a10 (ix2 b n)
      = Cert.Spec.out (fun b n => a0 (ix2 b n)) (fun k => a7 (ix1 k)) (fun k => a8 (ix1 k))
          (fun k => a9 (ix2 k ⟨0, Nat.one_pos⟩)) (a10 (ix1 ⟨0, Nat.one_pos⟩))
          (Cert.Spec.zR (fun b n => a0 (ix2 b n)) (fun n j => refH (F := Ideal) a1 a2 a3 a4 (ix2 n j)) (fun j k => a5 (ix2 j k)) (fun k => a6 (ix1 k)))
          (Cert.Spec.mu (Cert.Spec.zR (fun b n => a0 (ix2 b n)) (fun n j => refH (F := Ideal) a1 a2 a3 a4 (ix2 n j)) (fun j k => a5 (ix2 j k)) (fun k => a6 (ix1 k))))
          (Cert.Spec.varDev (Cert.Spec.zR (fun b n => a0 (ix2 b n)) (fun n j => refH (F := Ideal) a1 a2 a3 a4 (ix2 n j)) (fun j k => a5 (ix2 j k)) (fun k => a6 (ix1 k))))
          b n :=
  refTail_apply a0 (refH a1 a2 a3 a4) a5 a6 a7 a8 a9 a10 b n

end Cert.ReferenceIdeal.Hand

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«121308_j17678085390437_1_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Pre.lean ====
/-
  The precondition read back: every float input is real-valued.

  `finite_inputs` is the conjunction, input by input, of `jnp.all(jnp.abs(a) < inf)`; printed, a chain of `and`s of
  ten `and`-reductions. If the chain is `1` each reduction is `1`, and each of those says its input's entries are
  reals (the test `|a| < +∞` holds exactly of the reals).
-/
import proofs.«121308_j17678085390437_1_alg».proof.Pre_finite_inputs
import proofs.«121308_j17678085390437_1_alg».proof.Proof.LibFiniteTest
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx Cert.Lib.RealValued Cert.Lib.FiniteTest

instance : Subsingleton S_.Idx := ⟨fun _ _ => funext fun d => d.elim0⟩

/-- If the printed predicate is all ones, every float argument is real-valued. -/
theorem allReal_of_fn [Facts] (a0 : FVec Ideal S32x20000 .f32) (a1 : IVec S2x640000 32) (a2 : FVec Ideal S20000x64 .f32)
    (a3 : FVec Ideal S64x64 .f32) (a4 : FVec Ideal S64 .f32) (a5 : FVec Ideal S64x128 .f32) (a6 a7 a8 : FVec Ideal S128 .f32)
    (a9 : FVec Ideal S128x1 .f32) (a10 : FVec Ideal S1 .f32)
    (h : fn (F := Ideal) a0 a1 a2 a3 a4 a5 a6 a7 a8 a9 a10 = fun _ => 1#1) :
    AllReal a0 ∧ AllReal a2 ∧ AllReal a3 ∧ AllReal a4 ∧ AllReal a5 ∧ AllReal a6 ∧ AllReal a7 ∧ AllReal a8 ∧ AllReal a9 ∧ AllReal a10 := by
  have h0 := congrFun h ix0
  dsimp only [fn, fn_part1, fn_part2] at h0
  obtain ⟨h43, h47⟩ := IntOp.andi_eq_one.1 h0
  obtain ⟨h38, h42⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨allReal_of_all a0 _ _ _ _ _ ix0 h3, allReal_of_all a2 _ _ _ _ _ ix0 h7, allReal_of_all a3 _ _ _ _ _ ix0 h12,
    allReal_of_all a4 _ _ _ _ _ ix0 h17, allReal_of_all a5 _ _ _ _ _ ix0 h22, allReal_of_all a6 _ _ _ _ _ ix0 h27,
    allReal_of_all a7 _ _ _ _ _ ix0 h32, allReal_of_all a8 _ _ _ _ _ ix0 h37, allReal_of_all a9 _ _ _ _ _ ix0 h42,
    allReal_of_all a10 _ _ _ _ _ ix0 h47⟩

end Cert.Pre_finite_inputs.Decode

end
-- ==== Proof.Claims.lean ====
/-
  The five claims assembled.

  The three frames are the three programs' runs read at their argument arrays. The idealization rewrote nothing, so
  what it preserves is trivially true. For the algebraic claim both idealized programs run from memories that agree on the
  eleven arguments: the kernel's program ends with its result at the value its host tail computes from what the two
  pallas_calls leave (`W9`), the reference's at `refOut` of the arguments. Entry by entry the reference's result is the
  textbook formula over the row-first hidden array with the mean-squared-deviation variance (`refOut_apply`), the
  kernel's (the hypothesis `KernelOut`) the same formula over the projected-first hidden array with the
  mean-square-minus-squared-mean variance; the precondition makes every float argument real-valued, the graph
  convolution of real arrays is real-valued, and for real operands the two formulas agree (`out_zK_eq_out_zR`).
-/
import proofs.«121308_j17678085390437_1_alg».proof.Defs
import proofs.«121308_j17678085390437_1_alg».proof.Proof.Gen.Kernel
import proofs.«121308_j17678085390437_1_alg».proof.Proof.Gen.KernelIdeal
import proofs.«121308_j17678085390437_1_alg».proof.Proof.Gen.ReferenceIdeal
import proofs.«121308_j17678085390437_1_alg».proof.Proof.Gen.Pre_finite_inputs
import proofs.«121308_j17678085390437_1_alg».proof.Proof.KRun
import proofs.«121308_j17678085390437_1_alg».proof.Proof.KRunK
import proofs.«121308_j17678085390437_1_alg».proof.Proof.RefRun
import proofs.«121308_j17678085390437_1_alg».proof.Proof.RefReal
import proofs.«121308_j17678085390437_1_alg».proof.Proof.RefRead
import proofs.«121308_j17678085390437_1_alg».proof.Proof.Spec
import proofs.«121308_j17678085390437_1_alg».proof.Proof.Pre

set_option maxRecDepth 16384

noncomputable section

namespace Cert.Proof.Claims

open Idealize.ShloMosaic Idealize.SL.Sem Idealize.ShloMosaic.ValueIdx Cert.Lib.RealValued

/-! ## The frames, and what the idealization preserves -/

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-! ## The algebraic claim -/

/-- THE KERNEL'S RESULT, entry by entry: at cell `b` and gene `n` the value the kernel's program leaves in its result
    array is the textbook formula over the PROJECTED-FIRST hidden array `zK`, its batch mean and its
    mean-square-minus-squared-mean variance, of the argument arrays as launched. -/
def KernelOut : Prop :=
  ∀ (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (b : Fin 32) (n : Fin 20000),
    (Cert.KernelIdeal.Run.W9 m ρ c (Proc.devRef .tc Cert.KernelIdeal.main_v75) : Cert.KernelIdeal.S32x20000.Idx → EReal) (ix2 b n)
      = Cert.Spec.out (fun b n => (m ((c.tc : Thread Cert.KernelIdeal.nD Cert.KernelIdeal.τ).loc Cert.KernelIdeal.main_arg0)) (ix2 b n)) (fun k => (m ((c.tc : Thread Cert.KernelIdeal.nD Cert.KernelIdeal.τ).loc Cert.KernelIdeal.main_arg7)) (ix1 k)) (fun k => (m ((c.tc : Thread Cert.KernelIdeal.nD Cert.KernelIdeal.τ).loc Cert.KernelIdeal.main_arg8)) (ix1 k))
          (fun k => (m ((c.tc : Thread Cert.KernelIdeal.nD Cert.KernelIdeal.τ).loc Cert.KernelIdeal.main_arg9)) (ix2 k ⟨0, Nat.one_pos⟩)) ((m ((c.tc : Thread Cert.KernelIdeal.nD Cert.KernelIdeal.τ).loc Cert.KernelIdeal.main_arg10)) (ix1 ⟨0, Nat.one_pos⟩))
          (Cert.Spec.zK (fun b n => (m ((c.tc : Thread Cert.KernelIdeal.nD Cert.KernelIdeal.τ).loc Cert.KernelIdeal.main_arg0)) (ix2 b n))
        (fun n j => Cert.ReferenceIdeal.Hand.refH (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (ix2 n j))
        (fun j k => (m ((c.tc : Thread Cert.KernelIdeal.nD Cert.KernelIdeal.τ).loc Cert.KernelIdeal.main_arg5)) (ix2 j k)) (fun k => (m ((c.tc : Thread Cert.KernelIdeal.nD Cert.KernelIdeal.τ).loc Cert.KernelIdeal.main_arg6)) (ix1 k)))
          (Cert.Spec.mu (Cert.Spec.zK (fun b n => (m ((c.tc : Thread Cert.KernelIdeal.nD Cert.KernelIdeal.τ).loc Cert.KernelIdeal.main_arg0)) (ix2 b n))
        (fun n j => Cert.ReferenceIdeal.Hand.refH (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (ix2 n j))
        (fun j k => (m ((c.tc : Thread Cert.KernelIdeal.nD Cert.KernelIdeal.τ).loc Cert.KernelIdeal.main_arg5)) (ix2 j k)) (fun k => (m ((c.tc : Thread Cert.KernelIdeal.nD Cert.KernelIdeal.τ).loc Cert.KernelIdeal.main_arg6)) (ix1 k))))
          (Cert.Spec.varSq (Cert.Spec.zK (fun b n => (m ((c.tc : Thread Cert.KernelIdeal.nD Cert.KernelIdeal.τ).loc Cert.KernelIdeal.main_arg0)) (ix2 b n))
        (fun n j => Cert.ReferenceIdeal.Hand.refH (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (ix2 n j))
        (fun j k => (m ((c.tc : Thread Cert.KernelIdeal.nD Cert.KernelIdeal.τ).loc Cert.KernelIdeal.main_arg5)) (ix2 j k)) (fun k => (m ((c.tc : Thread Cert.KernelIdeal.nD Cert.KernelIdeal.τ).loc Cert.KernelIdeal.main_arg6)) (ix1 k)))) b n

/-- Both idealized programs, from memories agreeing on the arguments, end with equal results: the reference's row-first
    formula with the mean-squared-deviation variance and the kernel's projected-first formula with the other variance
    agree on real-valued arguments, and the precondition makes the arguments real-valued. -/
theorem algebraic_of (hko : KernelOut) : Cert.algebraic_KernelIdeal_ReferenceIdeal := by
  intro m ρ m' ρ' hpre hagree
  refine ⟨fun c => Cert.KernelIdeal.Run.W9 m ρ c (Proc.devRef .tc Cert.KernelIdeal.main_v75),
    Cert.KernelIdeal.Run.run_main (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10⟩ := hagree c
  rw [e0, e1, e2, e3, e4, e5, e6, e7, e8, e9, e10]
  obtain ⟨r0, r2, r3, r4, r5, r6, r7, r8, r9, r10⟩ :=
    Cert.Pre_finite_inputs.Decode.allReal_of_fn _ _ _ _ _ _ _ _ _ _ _ (hpre c)
  funext i
  obtain ⟨b, n, rfl⟩ : ∃ (b : Fin 32) (n : Fin 20000), i = ix2 b n := ⟨i 0, i 1, eq_ix2 i⟩
  refine (Cert.ReferenceIdeal.Hand.refOut_apply _ _ _ _ _ _ _ _ _ _ _ b n).trans ?_
  refine Eq.trans ?_ (hko m ρ c b n).symm
  exact (Cert.Spec.out_zK_eq_out_zR _ _ _ _ _ _ _ _ (fun b n => r0 (ix2 b n))
    (fun n j => Cert.ReferenceIdeal.Hand.refH_allReal _ r2 r3 r4 (ix2 n j)) (fun j k => r5 (ix2 j k)) (fun k => r6 (ix1 k)) b n).symm

end Cert.Proof.Claims

end
-- ==== Proof.LibBcast3.lean ====
/-
  Rank-3 broadcasts read at an index.

  A kernel that forms `z[p, q, r] = x[p, q] · y[q, r] + v[r]` (an outer product along a middle axis, a bias along
  the last) writes each operand as a shape cast that inserts unit axes followed by a broadcast to `[a, b, c]`.
  Read at the index `(p, q, r)` each composition is the operand at the coordinates it keeps:

  * `bcast_ab1_apply`   `[a, b] → [a, b, 1] → [a, b, c]`  reads `x (p, q)`;
  * `bcast_1bc_apply`   `[b, c] → [1, b, c] → [a, b, c]`  reads `y (q, r)`;
  * `bcast_11c_apply`   `[c] → [1, 1, c] → [a, b, c]`     reads `v r`;
  * `bcast_1b1_apply`   `[1, b] → [1, b, 1] → [a, b, c]`  reads `w (0, q)` (a per-column mask);
  * `cast_c1_c_apply`   `[c, 1] → [c]`                    reads `u (r, 0)` (a column of a weight matrix).
-/
import Idealize.ShloMosaic.Lib.ValueIdx
import Idealize.ShloMosaic.Lib.Pipeline.Value

noncomputable section

namespace Cert.Lib.Bcast3

open Idealize.ShloMosaic Idealize.ShloMosaic.ValueIdx

variable {α : Type}

/-- `[a, b] → [a, b, 1] → [a, b, c]` at `(p, q, r)` is the matrix at `(p, q)`. -/
theorem bcast_ab1_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (r : Fin c) :
    broadcastTo ⟨3, ![a, b, c]⟩ (shapeCast ⟨3, ![a, b, 1]⟩ x h1) h2 (ix3 p q r) = x (ix2 p q) := by
  refine (broadcastTo_apply _ h2 (ix3 p q r) (ix3 p q ⟨0, Nat.one_pos⟩) fun d => ?_).trans ?_
  · match d with
    | ⟨0, _⟩ => show p.val = if a = 1 then 0 else p.val; split_ifs with h <;> [(have := p.isLt; omega); rfl]
    | ⟨1, _⟩ => show q.val = if b = 1 then 0 else q.val; split_ifs with h <;> [(have := q.isLt; omega); rfl]
    | ⟨2, _⟩ => rfl
  · refine shapeCast_apply x h1 _ (ix2 p q) ?_
    rw [Shape.rowMajor_val_two, Shape.rowMajor_val_three]
    show p.val * b + q.val = (p.val * b + q.val) * 1 + 0
    omega

/-- `[b, c] → [1, b, c] → [a, b, c]` at `(p, q, r)` is the matrix at `(q, r)`. -/
theorem bcast_1bc_apply {a b c : ℕ} (y : (⟨2, ![b, c]⟩ : Shape).Idx → α)
    (h1 : (⟨2, ![b, c]⟩ : Shape).ShapeCasts ⟨3, ![1, b, c]⟩) (h2 : (⟨3, ![1, b, c]⟩ : Shape).Broadcasts ⟨3, ![a, b, c]⟩)
    (p : Fin a) (q : Fin b) (r : Fin c) :
    broadcastTo ⟨3, ![a, b, c]⟩ (shapeCast ⟨3, ![1, b, c]⟩ y h1) h2 (ix3 p q r) = y (ix2 q r) := by
  refine (broadcastTo_apply _ h2 (ix3 p q r) (ix3 ⟨0, Nat.one_pos⟩ q r) fun d => ?_).trans ?_
  · match d with
    | ⟨0, _⟩ => rfl
    | ⟨1, _⟩ => show q.val = if b = 1 then 0 else q.val; split_ifs with h <;> [(have := q.isLt; omega); rfl]
    | ⟨2, _⟩ => show r.val = if c = 1 then 0 else r.val; split_ifs with h <;> [(have := r.isLt; omega); rfl]
  · refine shapeCast_apply y h1 _ (ix2 q r) ?_
    rw [Shape.rowMajor_val_two, Shape.rowMajor_val_three]
    show q.val * c + r.val = (0 * b + q.val) * c + r.val
    rw [Nat.zero_mul, Nat.zero_add]

/-- `[c] → [1, 1, c] → [a, b, c]` at `(p, q, r)` is the vector at `r`. -/
theorem bcast_11c_apply {a b c : ℕ} (v : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (r : Fin c) :
    broadcastTo ⟨3, ![a, b, c]⟩ (shapeCast ⟨3, ![1, 1, c]⟩ v h1) h2 (ix3 p q r) = v (ix1 r) := by
  refine (broadcastTo_apply _ h2 (ix3 p q r) (ix3 ⟨0, Nat.one_pos⟩ ⟨0, Nat.one_pos⟩ r) fun d => ?_).trans ?_
  · match d with
    | ⟨0, _⟩ => rfl
    | ⟨1, _⟩ => rfl
    | ⟨2, _⟩ => show r.val = if c = 1 then 0 else r.val; split_ifs with h <;> [(have := r.isLt; omega); rfl]
  · refine shapeCast_apply v h1 _ (ix1 r) ?_
    rw [Shape.rowMajor_val_one, Shape.rowMajor_val_three]
    show r.val = (0 * 1 + 0) * c + r.val
    omega

/-- `[1, b] → [1, b, 1] → [a, b, c]` at `(p, q, r)` is the row at `(0, q)`. -/
theorem bcast_1b1_apply {a b c : ℕ} (w : (⟨2, ![1, b]⟩ : Shape).Idx → α)
    (h1 : (⟨2, ![1, b]⟩ : Shape).ShapeCasts ⟨3, ![1, b, 1]⟩) (h2 : (⟨3, ![1, b, 1]⟩ : Shape).Broadcasts ⟨3, ![a, b, c]⟩)
    (p : Fin a) (q : Fin b) (r : Fin c) :
    broadcastTo ⟨3, ![a, b, c]⟩ (shapeCast ⟨3, ![1, b, 1]⟩ w h1) h2 (ix3 p q r) = w (ix2 ⟨0, Nat.one_pos⟩ q) := by
  refine (broadcastTo_apply _ h2 (ix3 p q r) (ix3 ⟨0, Nat.one_pos⟩ q ⟨0, Nat.one_pos⟩) fun d => ?_).trans ?_
  · match d with
    | ⟨0, _⟩ => rfl
    | ⟨1, _⟩ => show q.val = if b = 1 then 0 else q.val; split_ifs with h <;> [(have := q.isLt; omega); rfl]
    | ⟨2, _⟩ => rfl
  · refine shapeCast_apply w h1 _ (ix2 ⟨0, Nat.one_pos⟩ q) ?_
    rw [Shape.rowMajor_val_two, Shape.rowMajor_val_three]
    show 0 * b + q.val = (0 * b + q.val) * 1 + 0
    omega

/-- `[c, 1] → [c]` at `r` is the column at `(r, 0)`. -/
theorem cast_c1_c_apply {c : ℕ} (u : (⟨2, ![c, 1]⟩ : Shape).Idx → α) (h : (⟨2, ![c, 1]⟩ : Shape).ShapeCasts ⟨1, ![c]⟩) (r : Fin c) :
    shapeCast ⟨1, ![c]⟩ u h (ix1 r) = u (ix2 r ⟨0, Nat.one_pos⟩) := by
  refine shapeCast_apply u h _ (ix2 r ⟨0, Nat.one_pos⟩) ?_
  rw [Shape.rowMajor_val_two, Shape.rowMajor_val_one]
  show r.val * 1 + 0 = r.val
  omega

end Cert.Lib.Bcast3

end
-- ==== Proof.KPayload.lean ====
/-
  The final call's stored value, read at an index of the extended reals.

  The body broadcasts the expression block `[32, 256]` along a new last axis, the projected-embedding block
  `[256, 128]` along a new first axis and every per-feature vector `[128]` along two new leading axes, all to
  `[32, 256, 128]`; forms `z = x · hw + b1`, normalises `(z − μ) · rsqrt(var + ε) · γ + β`, rectifies, multiplies by
  the output weight's column and sums over the last axis; adds the output bias and the expression entry.
  Read at `(p, q)` every broadcast keeps the coordinates its operand has, the lane sum is a sum over the 128
  features, and the result is the textbook formula over the loaded blocks (`final_pay_apply`).
-/
import proofs.«121308_j17678085390437_1_alg».proof.Proof.Gen.KernelIdeal.Skeleton
import proofs.«121308_j17678085390437_1_alg».proof.Proof.LibBcast3
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx Cert.Lib.Bcast3

/-- The vector reciprocal square root read at an index. -/
theorem rsqrt_apply {s : Shape} {φ : FTy} (v : FVec Ideal s φ) (i : s.Idx) : rsqrt v i = Ideal.rsqrt (v i) := rfl

/-- Re-inserting the reduced (last) coordinate `r` at `(p, q)` gives `(p, q, r)`. -/
theorem lift2 (p : Fin 32) (q : Fin 256) (r : Fin 128) : reduces_S32x256x128_S32x256.lift (ix2 p q) r = ix3 p q r := by
  funext a; match a with | ⟨0, _⟩ => rfl | ⟨1, _⟩ => rfl | ⟨2, _⟩ => rfl

/-- The final call's stored value at row `p`, column `q` of its block, from the nine loaded blocks: the expression entry
    plus the projection, over the 128 hidden features, of the rectified normalised hidden row, plus the output bias. -/
theorem final_pay_apply (x0 : FVec Ideal S32x256 .f32) (x1 : FVec Ideal S256x128 .f32) (x2 x3 x4 : FVec Ideal S128 .f32) (x5 : FVec Ideal S128x1 .f32)
    (x6 : FVec Ideal S1 .f32) (x7 x8 : FVec Ideal S128 .f32) (p : Fin 32) (q : Fin 256) :
    k1_pay1 (k1_pay2 x0) (k1_pay3 x0 x1 x2 x7 x8 x3 x4 x5) (k1_pay4 x6) (ix2 p q)
      = x0 (ix2 p q) + ((∑ r : Fin 128, max ((((x0 (ix2 p q) * x1 (ix2 q r) + x2 (ix1 r)) - x7 (ix1 r)) * Ideal.rsqrt (x8 (ix1 r) + Ideal.ofBits .f32 0x3727C5AC#32)) * x3 (ix1 r) + x4 (ix1 r)) (Ideal.ofBits .f32 0x00000000#32) * x5 (ix2 r ⟨0, Nat.one_pos⟩)) + x6 (ix1 ⟨0, Nat.one_pos⟩)) := by
  have e2 : k1_pay2 x0 = x0 := by unfold k1_pay2; exact shapeCast_self _ _
  unfold k1_pay1 k1_pay3 k1_pay4
  rw [e2]
  simp only [addf_apply, broadcast_apply, shapeCast_self]
  refine congrArg (x0 (ix2 p q) + ·) (congrArg₂ (· + ·) ?_ ?_)
  · refine (Ideal.multiReduction_add_single _ 0x00000000#32 reduces_S32x256x128_S32x256 _ _ (ix2 p q)).trans (Finset.sum_congr rfl fun (r : Fin 128) _ => ?_)
    refine (congrArg _ (lift2 p q r)).trans ?_
    simp only [mulf_apply, maximumf_apply, addf_apply, subf_apply, broadcast_apply]
    rw [bcast_ab1_apply, bcast_1bc_apply, bcast_11c_apply, bcast_11c_apply, bcast_11c_apply, bcast_11c_apply, bcast_11c_apply, bcast_11c_apply]
    rw [cast_c1_c_apply]
    rfl
  · first | rfl | (unfold extractAt; exact congrArg x6 (funext fun a => by match a with | ⟨0, _⟩ => rfl))

end Cert.KernelIdeal.Payload

end
-- ==== Proof.KFinalValue.lean ====
/-
  The final call's result array as one function of the arrays it reads, at the extended reals.

  Point `t` of the final call reads columns `256 t … 256 t + 255` of the padded expression matrix and rows
  `256 t … 256 t + 255` of the padded projected embedding (`iblk_x`, `iblk_h`), every other operand whole
  (`iblk_2 … iblk_8`), and writes columns `256 t … 256 t + 255` of the result. What it writes there is the block of
  ONE whole-array function `G1` of the nine arrays (`flushed9_eq`: the body's stored value read at an index is the
  textbook formula over the loaded blocks, and each block entry is the array's entry at the block's offset); the
  79 blocks tile the result (`cover9`: gene `g` lies in block `g / 256`); so after the call the result array IS
  `G1` of the arrays the call was entered with (`final9`).
-/
import proofs.«121308_j17678085390437_1_alg».proof.Proof.FinalRegion
import proofs.«121308_j17678085390437_1_alg».proof.Proof.KPayload
import Idealize.ShloMosaic.Lib.Pipeline.Value
import Idealize.ShloMosaic.Lib.ValueIdx

set_option maxRecDepth 16384

noncomputable section

namespace Cert.KernelIdeal.FinalValue

open Cert.KernelIdeal Cert.KernelIdeal.Gen Cert.KernelIdeal.Final Cert.KernelIdeal.Payload
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the expression block and the output block move along the genes, the
    projected-embedding block along its rows, every other window stays at block 0. -/
theorem idx_facts : ∀ t : Fin cfg1.N,
    win1_0.index t (0 : Fin 2) = 0 ∧ win1_0.index t (1 : Fin 2) = t.val
    ∧ win1_1.index t (0 : Fin 2) = t.val ∧ win1_1.index t (1 : Fin 2) = 0
    ∧ win1_2.index t (0 : Fin 1) = 0 ∧ win1_3.index t (0 : Fin 1) = 0 ∧ win1_4.index t (0 : Fin 1) = 0
    ∧ win1_5.index t (0 : Fin 2) = 0 ∧ win1_5.index t (1 : Fin 2) = 0
    ∧ win1_6.index t (0 : Fin 1) = 0 ∧ win1_7.index t (0 : Fin 1) = 0 ∧ win1_8.index t (0 : Fin 1) = 0
    ∧ win1_9.index t (0 : Fin 2) = 0 ∧ win1_9.index t (1 : Fin 2) = t.val :=
  (by decide +kernel : ∀ t : Fin grid1.N, _)

theorem t_lt (t : Fin cfg1.N) : t.val < 79 := by have := t.isLt; have h : cfg1.N = 79 := N_1; omega

/-- The expression block at point `t`: columns `256 t … 256 t + 255` of the padded matrix. -/
theorem iblk_x (c : Dev nD) (t : Fin cfg1.N) (p : Fin 32) (q : Fin 256) :
    iblk1 V c 0 t (ix2 p q) = V c main_v65 (ix2 p ⟨t.val * 256 + q.val, by have := t_lt t; have := q.isLt; omega⟩) := by
  obtain ⟨e0, e1, -⟩ := idx_facts t
  unfold iblk1
  show V c main_v65 (((cfg1.win 0).blk t).view.emb (ix2 p q)) = _
  refine congrArg (V c main_v65) (funext fun a => Fin.ext ?_)
  match a with
  | ⟨0, _⟩ => show win1_0.index t (0 : Fin 2) * 32 + 1 * p.val = p.val; omega
  | ⟨1, _⟩ => show win1_0.index t (1 : Fin 2) * 256 + 1 * q.val = t.val * 256 + q.val; omega

/-- The projected-embedding block at point `t`: rows `256 t … 256 t + 255` of the padded matrix. -/
theorem iblk_h (c : Dev nD) (t : Fin cfg1.N) (q : Fin 256) (r : Fin 128) :
    iblk1 V c 1 t (ix2 q r) = V c main_v66 (ix2 ⟨t.val * 256 + q.val, by have := t_lt t; have := q.isLt; omega⟩ r) := by
  obtain ⟨e0, e1, e2, e3, e4, e5, e6, e7, e8, e9, e10, e11, e12, e13⟩ := idx_facts t
  unfold iblk1
  show V c main_v66 (((cfg1.win 1).blk t).view.emb (ix2 q r)) = _
  refine congrArg (V c main_v66) (funext fun a => Fin.ext ?_)
  match a with
  | ⟨0, _⟩ => show win1_1.index t (0 : Fin 2) * 256 + 1 * q.val = t.val * 256 + q.val; omega
  | ⟨1, _⟩ => show win1_1.index t (1 : Fin 2) * 128 + 1 * r.val = r.val; omega

/-- Window 2 is its whole array at every point. -/
theorem iblk_2 (c : Dev nD) (t : Fin cfg1.N) (r : Fin 128) : iblk1 V c 2 t (ix1 r) = V c main_arg6 (ix1 r) := by
  obtain ⟨e0, e1, e2, e3, e4, e5, e6, e7, e8, e9, e10, e11, e12, e13⟩ := idx_facts t
  unfold iblk1
  show V c main_arg6 (((cfg1.win 2).blk t).view.emb (ix1 r)) = _
  refine congrArg (V c main_arg6) (funext fun a => Fin.ext ?_)
  match a with
  | ⟨0, _⟩ => show win1_2.index t (0 : Fin 1) * 128 + 1 * r.val = r.val; omega

/-- Window 3 is its whole array at every point. -/
theorem iblk_3 (c : Dev nD) (t : Fin cfg1.N) (r : Fin 128) : iblk1 V c 3 t (ix1 r) = V c main_arg7 (ix1 r) := by
  obtain ⟨e0, e1, e2, e3, e4, e5, e6, e7, e8, e9, e10, e11, e12, e13⟩ := idx_facts t
  unfold iblk1
  show V c main_arg7 (((cfg1.win 3).blk t).view.emb (ix1 r)) = _
  refine congrArg (V c main_arg7) (funext fun a => Fin.ext ?_)
  match a with
  | ⟨0, _⟩ => show win1_3.index t (0 : Fin 1) * 128 + 1 * r.val = r.val; omega

/-- Window 4 is its whole array at every point. -/
theorem iblk_4 (c : Dev nD) (t : Fin cfg1.N) (r : Fin 128) : iblk1 V c 4 t (ix1 r) = V c main_arg8 (ix1 r) := by
  obtain ⟨e0, e1, e2, e3, e4, e5, e6, e7, e8, e9, e10, e11, e12, e13⟩ := idx_facts t
  unfold iblk1
  show V c main_arg8 (((cfg1.win 4).blk t).view.emb (ix1 r)) = _
  refine congrArg (V c main_arg8) (funext fun a => Fin.ext ?_)
  match a with
  | ⟨0, _⟩ => show win1_4.index t (0 : Fin 1) * 128 + 1 * r.val = r.val; omega

/-- Window 7 is its whole array at every point. -/
theorem iblk_7 (c : Dev nD) (t : Fin cfg1.N) (r : Fin 128) : iblk1 V c 7 t (ix1 r) = V c main_v69 (ix1 r) := by
  obtain ⟨e0, e1, e2, e3, e4, e5, e6, e7, e8, e9, e10, e11, e12, e13⟩ := idx_facts t
  unfold iblk1
  show V c main_v69 (((cfg1.win 7).blk t).view.emb (ix1 r)) = _
  refine congrArg (V c main_v69) (funext fun a => Fin.ext ?_)
  match a with
  | ⟨0, _⟩ => show win1_7.index t (0 : Fin 1) * 128 + 1 * r.val = r.val; omega

/-- Window 8 is its whole array at every point. -/
theorem iblk_8 (c : Dev nD) (t : Fin cfg1.N) (r : Fin 128) : iblk1 V c 8 t (ix1 r) = V c main_v73 (ix1 r) := by
  obtain ⟨e0, e1, e2, e3, e4, e5, e6, e7, e8, e9, e10, e11, e12, e13⟩ := idx_facts t
  unfold iblk1
  show V c main_v73 (((cfg1.win 8).blk t).view.emb (ix1 r)) = _
  refine congrArg (V c main_v73) (funext fun a => Fin.ext ?_)
  match a with
  | ⟨0, _⟩ => show win1_8.index t (0 : Fin 1) * 128 + 1 * r.val = r.val; omega

/-- The output weight's window is its whole array at every point. -/
theorem iblk_5 (c : Dev nD) (t : Fin cfg1.N) (r : Fin 128) :
    iblk1 V c 5 t (ix2 r ⟨0, Nat.one_pos⟩) = V c main_arg9 (ix2 r ⟨0, Nat.one_pos⟩) := by
  obtain ⟨e0, e1, e2, e3, e4, e5, e6, e7, e8, e9, e10, e11, e12, e13⟩ := idx_facts t
  unfold iblk1
  show V c main_arg9 (((cfg1.win 5).blk t).view.emb (ix2 r ⟨0, Nat.one_pos⟩)) = _
  refine congrArg (V c main_arg9) (funext fun a => Fin.ext ?_)
  match a with
  | ⟨0, _⟩ => show win1_5.index t (0 : Fin 2) * 128 + 1 * r.val = r.val; omega
  | ⟨1, _⟩ => show win1_5.index t (1 : Fin 2) * 1 + 1 * 0 = 0; omega

/-- The output bias's window is its whole array at every point. -/
theorem iblk_6 (c : Dev nD) (t : Fin cfg1.N) :
    iblk1 V c 6 t (ix1 ⟨0, Nat.one_pos⟩) = V c main_arg10 (ix1 ⟨0, Nat.one_pos⟩) := by
  obtain ⟨e0, e1, e2, e3, e4, e5, e6, e7, e8, e9, e10, e11, e12, e13⟩ := idx_facts t
  unfold iblk1
  show V c main_arg10 (((cfg1.win 6).blk t).view.emb (ix1 ⟨0, Nat.one_pos⟩)) = _
  refine congrArg (V c main_arg10) (funext fun a => Fin.ext ?_)
  match a with
  | ⟨0, _⟩ => show win1_6.index t (0 : Fin 1) * 1 + 1 * 0 = 0; omega

/-- What the final call's result array holds, index by index, as ONE function of the nine arrays the call reads:
    at cell `i 0` and (padded) gene `i 1` the expression entry plus the projection of the rectified, normalised hidden
    row plus the output bias. -/
def G1 (xp : S32x20224.Idx → EReal) (hp : S20224x128.Idx → EReal) (b1 γ β : S128.Idx → EReal) (w2 : S128x1.Idx → EReal)
    (b2 : S1.Idx → EReal) (μ v : S128.Idx → EReal) : S32x20224.Idx → EReal := fun i =>
  xp i + ((∑ r : Fin 128, max ((((xp i * hp (ix2 ⟨(i 1).val, idx2_lt1 i⟩ r) + b1 (ix1 r)) - μ (ix1 r))
      * Ideal.rsqrt (v (ix1 r) + Ideal.ofBits .f32 0x3727C5AC#32)) * γ (ix1 r) + β (ix1 r)) (Ideal.ofBits .f32 0x00000000#32)
      * w2 (ix2 r ⟨0, Nat.one_pos⟩)) + b2 (ix1 ⟨0, Nat.one_pos⟩))

/-- WHAT POINT `t` WRITES BACK is block `t` of `G1` of the arrays as the call finds them. -/
theorem flushed9_eq (c : Dev nD) (t : Fin cfg1.N) :
    (dat1 V c).flushed 9 t = ((cfg1.win 9).blk t).view.read (Elt Ideal)
      (G1 (V c main_v65) (V c main_v66) (V c main_arg6) (V c main_arg7) (V c main_arg8) (V c main_arg9) (V c main_arg10) (V c main_v69) (V c main_v73)) := by
  show (cfg1.win 9).cut (grid1.coords t) ((dat1 V c).after 9 t) = _
  rw [after1_9]
  unfold out1
  rw [View.canon_unit_zero hz2]
  simp only [View.ld_unit_zero (S := S32x256) hz2, View.ld_unit_zero (S := S256x128) hz2, View.ld_unit_zero (S := S128) hz1,
    View.ld_unit_zero (S := S128x1) hz2, View.ld_unit_zero (S := S1) hz1]
  funext j
  obtain ⟨p, q, rfl⟩ : ∃ (p : Fin 32) (q : Fin 256), j = ix2 p q := ⟨j 0, j 1, eq_ix2 j⟩
  have hemb : ((cfg1.win 9).blk t).view.emb (ix2 p q) = ix2 p ⟨t.val * 256 + q.val, by have := t_lt t; have := q.isLt; omega⟩ := by
    obtain ⟨e0, e1, e2, e3, e4, e5, e6, e7, e8, e9, e10, e11, e12, e13⟩ := idx_facts t
    refine funext fun a => Fin.ext ?_
    match a with
    | ⟨0, _⟩ => show win1_9.index t (0 : Fin 2) * 32 + 1 * p.val = p.val; omega
    | ⟨1, _⟩ => show win1_9.index t (1 : Fin 2) * 256 + 1 * q.val = t.val * 256 + q.val; omega
  show k1_pay1 (k1_pay2 (iblk1 V c 0 t)) (k1_pay3 (iblk1 V c 0 t) (iblk1 V c 1 t) (iblk1 V c 2 t) (iblk1 V c 7 t) (iblk1 V c 8 t) (iblk1 V c 3 t)
      (iblk1 V c 4 t) (iblk1 V c 5 t)) (k1_pay4 (iblk1 V c 6 t)) (ix2 p q)
    = G1 (V c main_v65) (V c main_v66) (V c main_arg6) (V c main_arg7) (V c main_arg8) (V c main_arg9) (V c main_arg10) (V c main_v69) (V c main_v73)
      (((cfg1.win 9).blk t).view.emb (ix2 p q))
  rw [hemb]
  refine (final_pay_apply (iblk1 V c 0 t) (iblk1 V c 1 t) (iblk1 V c 2 t) (iblk1 V c 3 t) (iblk1 V c 4 t) (iblk1 V c 5 t) (iblk1 V c 6 t)
    (iblk1 V c 7 t) (iblk1 V c 8 t) p q).trans ?_
  simp only [iblk_x, iblk_h, iblk_2, iblk_3, iblk_4, iblk_5, iblk_6, iblk_7, iblk_8]
  rfl

/-- An index of the result array is in point `t`'s block iff each coordinate is in the block's range on its axis. -/
theorem mem_blk9 (t : Fin cfg1.N) (i : S32x20224.Idx) :
    i ∈ ((cfg1.win 9).blk t).view.set ↔ ∀ a : Fin 2, win1_9.index t a * S32x256.size a ≤ (i a).val ∧ (i a).val < win1_9.index t a * S32x256.size a + S32x256.size a := by
  show i ∈ ((View.whole main_v74).slice (win1_9.rect t)).set ↔ _
  rw [View.set_slice_whole, Rect.mem_set_unit]
  exact Iff.rfl

/-- The 79 output blocks tile the padded result: gene `g` is in block `g / 256`. -/
theorem cover9 (i : S32x20224.Idx) : ∃ t : Fin cfg1.N, (cfg1.win 9).flush t = true ∧ i ∈ ((cfg1.win 9).blk t).view.set := by
  have hi0 : (i 0).val < 32 := idx2_lt0 i
  have hi1 : (i 1).val < 20224 := idx2_lt1 i
  have hN : cfg1.N = 79 := N_1
  have ht : (i 1).val / 256 < cfg1.N := by rw [hN]; omega
  refine ⟨⟨(i 1).val / 256, ht⟩, flush1_9 _, ?_⟩
  rw [mem_blk9]
  obtain ⟨e0, e1, e2, e3, e4, e5, e6, e7, e8, e9, e10, e11, e12, e13⟩ := idx_facts ⟨(i 1).val / 256, ht⟩
  intro a
  match a with
  | ⟨0, _⟩ =>
    show win1_9.index ⟨(i 1).val / 256, ht⟩ (0 : Fin 2) * 32 ≤ (i 0).val ∧ (i 0).val < win1_9.index ⟨(i 1).val / 256, ht⟩ (0 : Fin 2) * 32 + 32
    omega
  | ⟨1, _⟩ =>
    show win1_9.index ⟨(i 1).val / 256, ht⟩ (1 : Fin 2) * 256 ≤ (i 1).val ∧ (i 1).val < win1_9.index ⟨(i 1).val / 256, ht⟩ (1 : Fin 2) * 256 + 256
    have : win1_9.index ⟨(i 1).val / 256, ht⟩ (1 : Fin 2) = (i 1).val / 256 := e13
    omega

/-- THE RESULT ARRAY after the final call: `G1` of the arrays the call was entered with, at every index. -/
theorem final9 (c : Dev nD) : (dat1 V c).arrAt 9 cfg1.N
    = G1 (V c main_v65) (V c main_v66) (V c main_arg6) (V c main_arg7) (V c main_arg8) (V c main_arg9) (V c main_arg10) (V c main_v69) (V c main_v73) :=
  (dat1 V c).arrAt_eq_of_cover 9 _ (fun t _ => flushed9_eq V c t) cover9

end Cert.KernelIdeal.FinalValue
end
-- ==== Proof.LibPad2.lean ====
/-
  A matrix padded on the high side, read at an index.

  `jnp.pad(x, ((0, r), (0, c)))` of an `[a, b]` matrix is an `[a', b']` matrix that holds `x` on the rows `< a` and
  columns `< b` and the padding value everywhere else (`pad2_hi_apply`: no low padding, no interior padding).
-/
import Idealize.ShloMosaic.PureOps.ShapeOps
import Idealize.ShloMosaic.Lib.ValueIdx

noncomputable section

namespace Cert.Lib.Pad2

open Idealize.ShloMosaic Idealize.ShloMosaic.ValueIdx

variable {α : Type}

/-- A high-side pad of a matrix at `(p, q)`: the matrix entry inside the original extent, the padding value outside. -/
theorem pad2_hi_apply {a b a' b' : ℕ} (hi : Fin 2 → ℕ) (x : (⟨2, ![a, b]⟩ : Shape).Idx → α) {u : Shape} (v : u.Idx → α)
    (h : (⟨2, ![a, b]⟩ : Shape).Pads ![0, 0] hi ![0, 0] ⟨2, ![a', b']⟩) (hu : 0 < u.numel) (p : Fin a') (q : Fin b') :
    pad ⟨2, ![a', b']⟩ ![0, 0] hi ![0, 0] x v h hu (ix2 p q)
      = if hpq : p.val < a ∧ q.val < b then x (ix2 ⟨p.val, hpq.1⟩ ⟨q.val, hpq.2⟩) else v (Shape.Idx.first hu) := by
  unfold pad
  by_cases hpq : p.val < a ∧ q.val < b
  · rw [dif_pos hpq, dif_pos]
    · refine congrArg x (funext fun d => Fin.ext ?_)
      match d with
      | ⟨0, _⟩ => show (p.val - 0) / (0 + 1) = p.val; simp
      | ⟨1, _⟩ => show (q.val - 0) / (0 + 1) = q.val; simp
    · intro d
      match d with
      | ⟨0, _⟩ =>
        show 0 ≤ p.val ∧ (p.val - 0) % (0 + 1) = 0 ∧ (p.val - 0) / (0 + 1) < a
        exact ⟨Nat.zero_le _, Nat.mod_one _, by simpa using hpq.1⟩
      | ⟨1, _⟩ =>
        show 0 ≤ q.val ∧ (q.val - 0) % (0 + 1) = 0 ∧ (q.val - 0) / (0 + 1) < b
        exact ⟨Nat.zero_le _, Nat.mod_one _, by simpa using hpq.2⟩
  · rw [dif_neg hpq, dif_neg]
    intro hall
    apply hpq
    have h0 : (p.val - 0) / (0 + 1) < a := (hall ⟨0, Nat.zero_lt_two⟩).2.2
    have h1 : (q.val - 0) / (0 + 1) < b := (hall ⟨1, Nat.one_lt_two⟩).2.2
    exact ⟨by simpa using h0, by simpa using h1⟩

end Cert.Lib.Pad2

end
-- ==== Proof.StatsValue.lean ====
/-
  The two accumulators of the statistics call in closed form, at the ideal reading.

  At grid point `t` the body forms, from the expression block `x` [32,256] (columns `256 t …` of the padded matrix), the
  projected-embedding block `h` [256,128] (rows `256 t …`) and the bias `b` [128], the image
  `P[p, q, r] = (x[p, q] · h[q, r] + b[r]) · mask[q]`, `mask[q] = 1` if `256 t + q < 20000` and `0` otherwise, and adds
  `Σ_q Σ_p P[p, q, r]` to the first accumulator and `Σ_q Σ_p P[p, q, r]²` to the second. When the padded matrices are the
  true ones on the first 20000 columns (rows) and zero beyond, `P` is the hidden pre-activation `X[p, j] · HW[j, r] + b[r]`
  of gene `j = 256 t + q` on the true columns and `(0 · 0 + b[r]) · 0 = 0` on the padding. The 79 tiles of 256 columns,
  masked from column 20000 on, are the 20000 genes; so after the last point the accumulators hold
  `Σ_b Σ_n (X[b, n] · HW[n, r] + b[r])` and `Σ_b Σ_n (X[b, n] · HW[n, r] + b[r])²`. On the extended reals `x · 1 = x`,
  `x · 0 = 0`, `0 + x = x` and finite sums commute and re-associate everywhere: no entry needs to be real.
-/
import proofs.«121308_j17678085390437_1_alg».proof.Proof.StatsRegion
import proofs.«121308_j17678085390437_1_alg».proof.Proof.Spec
import proofs.«121308_j17678085390437_1_alg».proof.Proof.LibBatchStats
import proofs.«121308_j17678085390437_1_alg».proof.Proof.LibBcast3
import Idealize.ShloMosaic.PureOps.Ideal.Laws
import Idealize.ShloMosaic.Lib.ValueIdx
import Idealize.ShloMosaic.Lib.Pipeline.Value

set_option maxRecDepth 16384

noncomputable section

namespace Cert.KernelIdeal.StatsValue

open Cert.KernelIdeal Cert.KernelIdeal.Gen Cert.KernelIdeal.Stats
open Idealize.ShloMosaic Idealize.ShloMosaic.TcCoe Idealize.ShloMosaic.ValueIdx Cert.Lib.Bcast3 Cert.Lib.BatchStats
open Idealize.SL Idealize.SL.Sem
open Idealize.ShloMosaic.Pipeline (Dat Cfg Window)

/-! ## The body's masked affine image, read at an index -/

/-- The mask of column `q` of the block at grid coordinate `n`: 1 on the array's 20000 true columns, 0 on the padding. -/
def mask (n q : ℕ) : EReal := if n * 256 + q < 20000 then 1 else 0

/-- The mask's word: the signed comparison `256 n + q < 20000` of 32-bit words, widened to 32 bits. Below 79 blocks of 256
    columns nothing wraps, and the word is 1 or 0 as the comparison of the naturals says — decided over the 79 × 256 pairs. -/
theorem maskWord_toInt : ∀ (n : Fin 79) (q : Fin 256),
    (BitVec.setWidth 32 (IntOp.cmpi .slt (IntOp.addi (Scalar.muli (BitVec.ofNat 32 n.val) 256#32) (BitVec.ofNat 32 q.val)) 20000#32)).toInt
      = if n.val * 256 + q.val < 20000 then 1 else 0 := by decide +kernel

/-- `k0_pay4` at `(p, q, r)`: the affine image `x · h + b` of the three blocks, times the column's mask. -/
theorem pay4_apply (i : grid0.Coords) (x0 : FVec Ideal S32x256 .f32) (x1 : FVec Ideal S256x128 .f32) (x2 : FVec Ideal S128 .f32)
    (p : Fin 32) (q : Fin 256) (r : Fin 128) :
    k0_pay4 i x0 x1 x2 (ix3 p q r) = (x0 (ix2 p q) * x1 (ix2 q r) + x2 (ix1 r)) * mask (i 0).val q.val := by
  unfold k0_pay4
  simp only [mulf_apply, addf_apply, shapeCast_self]
  rw [bcast_ab1_apply, bcast_1bc_apply, bcast_11c_apply, bcast_1b1_apply]
  simp only [sitofp_apply, extui_apply]
  refine congrArg ((x0 (ix2 p q) * x1 (ix2 q r) + x2 (ix1 r)) * ·) ?_
  rw [show cmpi CmpIPredicate.slt (addi (broadcast S1x256 (Scalar.muli (BitVec.ofNat 32 (i 0).val) 256#32)) (iota Kind.tc S1x256 32 [1] iota_S1x256_d1_w32))
        (broadcast S1x256 20000#32) (ix2 ⟨0, Nat.one_pos⟩ q)
      = IntOp.cmpi .slt (IntOp.addi (Scalar.muli (BitVec.ofNat 32 (i 0).val) 256#32) (iota Kind.tc S1x256 32 [1] iota_S1x256_d1_w32 (ix2 ⟨0, Nat.one_pos⟩ q))) 20000#32 from rfl,
    iota_single_apply]
  show (((BitVec.setWidth 32 (IntOp.cmpi .slt (IntOp.addi (Scalar.muli (BitVec.ofNat 32 (i 0).val) 256#32) (BitVec.ofNat 32 q.val)) 20000#32)).toInt : ℝ) : EReal) = _
  rw [maskWord_toInt ⟨(i 0).val, (i 0).isLt⟩ q]
  unfold mask
  split_ifs <;> simp

/-- Re-inserting the reduced coordinates. -/
theorem lift_q (q : Fin 256) (r : Fin 128) : reduces_S256x128_S128.lift (ix1 r) q = ix2 q r := by
  funext a; match a with | ⟨0, _⟩ => rfl | ⟨1, _⟩ => rfl
theorem lift_p (p : Fin 32) (q : Fin 256) (r : Fin 128) : reduces_S32x256x128_S256x128.lift (ix2 q r) p = ix3 p q r := by
  funext a; match a with | ⟨0, _⟩ => rfl | ⟨1, _⟩ => rfl | ⟨2, _⟩ => rfl

/-- The zero splats the accumulators start from. -/
theorem pay2_apply (r : Fin 128) : k0_pay2 (F := Ideal) (ix1 r) = 0 := by
  unfold k0_pay2; simp only [shapeCast_self, broadcast_apply]; exact Ideal.ofBits_zero_f32
theorem pay3_apply (r : Fin 128) : k0_pay3 (F := Ideal) (ix1 r) = 0 := by
  unfold k0_pay3; simp only [shapeCast_self, broadcast_apply]; exact Ideal.ofBits_zero_f32

/-- `k0_pay5` at feature `r`: the accumulator plus the sum of the image over the block's 256 columns and 32 rows. -/
theorem pay5_apply (i : grid0.Coords) (x0 : FVec Ideal S32x256 .f32) (x1 : FVec Ideal S256x128 .f32) (x2 acc : FVec Ideal S128 .f32) (r : Fin 128) :
    k0_pay5 i x0 x1 x2 acc (ix1 r) = acc (ix1 r) + ∑ q : Fin 256, ∑ p : Fin 32, k0_pay4 i x0 x1 x2 (ix3 p q r) := by
  unfold k0_pay5
  simp only [shapeCast_self, addf_apply]
  refine congrArg (acc (ix1 r) + ·) ?_
  refine (Ideal.multiReduction_add_single _ 0x00000000#32 reduces_S256x128_S128 _ _ (ix1 r)).trans (Finset.sum_congr rfl fun (q : Fin 256) _ => ?_)
  refine (congrArg _ (lift_q q r)).trans ?_
  refine (Ideal.multiReduction_add_single _ 0x00000000#32 reduces_S32x256x128_S256x128 _ _ (ix2 q r)).trans (Finset.sum_congr rfl fun (p : Fin 32) _ => ?_)
  exact congrArg _ (lift_p p q r)

/-- `k0_pay1 ∘ k0_pay6` at feature `r`: the accumulator plus the sum of the image's square. -/
theorem pay6_apply (i : grid0.Coords) (x0 : FVec Ideal S32x256 .f32) (x1 : FVec Ideal S256x128 .f32) (x2 acc : FVec Ideal S128 .f32) (r : Fin 128) :
    k0_pay1 (k0_pay6 i x0 x1 x2 acc) (ix1 r)
      = acc (ix1 r) + ∑ q : Fin 256, ∑ p : Fin 32, k0_pay4 i x0 x1 x2 (ix3 p q r) * k0_pay4 i x0 x1 x2 (ix3 p q r) := by
  unfold k0_pay1 k0_pay6
  simp only [shapeCast_self, addf_apply]
  refine congrArg (acc (ix1 r) + ·) ?_
  refine (Ideal.multiReduction_add_single _ 0x00000000#32 reduces_S256x128_S128 _ _ (ix1 r)).trans (Finset.sum_congr rfl fun (q : Fin 256) _ => ?_)
  refine (congrArg _ (lift_q q r)).trans ?_
  refine (Ideal.multiReduction_add_single _ 0x00000000#32 reduces_S32x256x128_S256x128 _ _ (ix2 q r)).trans (Finset.sum_congr rfl fun (p : Fin 32) _ => ?_)
  refine (congrArg _ (lift_p p q r)).trans ?_
  rfl

/-! ## The blocks, read off the arrays -/

section Region

variable (V : (c : Dev nD) → (b : Ref sig .tc) → Buf (Elt Ideal) ((c : Thread nD τ).loc b))

/-- The printed index maps over the grid: the expression block moves along the columns, the projected-embedding block
    along the rows, the bias stays; and the body's grid coordinate is the point's number. -/
theorem idx_facts : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 1) = 0 ∧ (grid0.coords t 0).val = t.val :=
  (by decide +kernel : ∀ t : Fin grid0.N, _)

theorem t_lt (t : Fin cfg0.N) : t.val < 79 := by have := t.isLt; have h : cfg0.N = 79 := N_0; omega

/-- The expression block at point `t`: columns `256 t … 256 t + 255` of the padded matrix. -/
theorem iblk_x (c : Dev nD) (t : Fin cfg0.N) (p : Fin 32) (q : Fin 256) :
    iblk0 V c 0 t (ix2 p q) = V c main_v65 (ix2 p ⟨t.val * 256 + q.val, by have := t_lt t; have := q.isLt; omega⟩) := by
  obtain ⟨e0, e1, -⟩ := idx_facts t
  unfold iblk0
  show V c main_v65 (((cfg0.win 0).blk t).view.emb (ix2 p q)) = _
  refine congrArg (V c main_v65) (funext fun a => Fin.ext ?_)
  match a with
  | ⟨0, _⟩ => show win0_0.index t (0 : Fin 2) * 32 + 1 * p.val = p.val; omega
  | ⟨1, _⟩ => show win0_0.index t (1 : Fin 2) * 256 + 1 * q.val = t.val * 256 + q.val; omega

/-- The projected-embedding block at point `t`: rows `256 t … 256 t + 255` of the padded matrix. -/
theorem iblk_h (c : Dev nD) (t : Fin cfg0.N) (q : Fin 256) (r : Fin 128) :
    iblk0 V c 1 t (ix2 q r) = V c main_v66 (ix2 ⟨t.val * 256 + q.val, by have := t_lt t; have := q.isLt; omega⟩ r) := by
  obtain ⟨-, -, e2, e3, -⟩ := idx_facts t
  unfold iblk0
  show V c main_v66 (((cfg0.win 1).blk t).view.emb (ix2 q r)) = _
  refine congrArg (V c main_v66) (funext fun a => Fin.ext ?_)
  match a with
  | ⟨0, _⟩ => show win0_1.index t (0 : Fin 2) * 256 + 1 * q.val = t.val * 256 + q.val; omega
  | ⟨1, _⟩ => show win0_1.index t (1 : Fin 2) * 128 + 1 * r.val = r.val; omega

/-- The bias's window is its whole array at every point. -/
theorem iblk_b (c : Dev nD) (t : Fin cfg0.N) (r : Fin 128) : iblk0 V c 2 t (ix1 r) = V c main_arg6 (ix1 r) := by
  obtain ⟨-, -, -, -, e4, -⟩ := idx_facts t
  unfold iblk0
  show V c main_arg6 (((cfg0.win 2).blk t).view.emb (ix1 r)) = _
  refine congrArg (V c main_arg6) (funext fun a => Fin.ext ?_)
  match a with
  | ⟨0, _⟩ => show win0_2.index t (0 : Fin 1) * 128 + 1 * r.val = r.val; omega

/-! ## One point's contribution -/

variable (c : Dev nD) (X : Fin 32 → Fin 20000 → EReal) (HW : Fin 20000 → Fin 128 → EReal)

/-- The hidden pre-activation of cell `p` and gene `j` at feature `r` (0 beyond the 20000 genes). -/
def hid (r : Fin 128) (p : Fin 32) (j : ℕ) : EReal :=
  if h : j < 20000 then X p ⟨j, h⟩ * HW ⟨j, h⟩ r + V c main_arg6 (ix1 r) else 0

/-- Its square. -/
def hidSq (r : Fin 128) (p : Fin 32) (j : ℕ) : EReal :=
  if h : j < 20000 then (X p ⟨j, h⟩ * HW ⟨j, h⟩ r + V c main_arg6 (ix1 r)) * (X p ⟨j, h⟩ * HW ⟨j, h⟩ r + V c main_arg6 (ix1 r)) else 0

variable (hX : ∀ (p : Fin 32) (j : Fin 20224), V c main_v65 (ix2 p j) = if h : j.val < 20000 then X p ⟨j.val, h⟩ else 0)
  (hH : ∀ (j : Fin 20224) (r : Fin 128), V c main_v66 (ix2 j r) = if h : j.val < 20000 then HW ⟨j.val, h⟩ r else 0)

include hX hH in
/-- The image at point `t`, row `p`, column `q`, feature `r`: the hidden pre-activation of gene `256 t + q` on the true
    columns, 0 on the padding (where the padded operands are 0 and the mask is 0). -/
theorem image_apply (t : Fin cfg0.N) (p : Fin 32) (q : Fin 256) (r : Fin 128) :
    k0_pay4 (grid0.coords t) (iblk0 V c 0 t) (iblk0 V c 1 t) (iblk0 V c 2 t) (ix3 p q r)
      = if t.val * 256 + q.val < 20000 then hid V c X HW r p (t.val * 256 + q.val) else 0 := by
  refine (pay4_apply (grid0.coords t) (iblk0 V c 0 t) (iblk0 V c 1 t) (iblk0 V c 2 t) p q r).trans ?_
  rw [iblk_x, iblk_h, iblk_b, hX, hH, (idx_facts t).2.2.2.2.2]
  unfold mask hid
  by_cases hj : t.val * 256 + q.val < 20000
  · simp only [hj, dite_true, if_true, mul_one]
  · simp only [hj, dite_false, if_false, mul_zero]

include hX hH in
theorem imageSq_apply (t : Fin cfg0.N) (p : Fin 32) (q : Fin 256) (r : Fin 128) :
    k0_pay4 (grid0.coords t) (iblk0 V c 0 t) (iblk0 V c 1 t) (iblk0 V c 2 t) (ix3 p q r)
        * k0_pay4 (grid0.coords t) (iblk0 V c 0 t) (iblk0 V c 1 t) (iblk0 V c 2 t) (ix3 p q r)
      = if t.val * 256 + q.val < 20000 then hidSq V c X HW r p (t.val * 256 + q.val) else 0 := by
  rw [image_apply V c X HW hX hH t p q r]
  unfold hid hidSq
  by_cases hj : t.val * 256 + q.val < 20000
  · simp only [hj, dite_true, if_true]
  · simp only [hj, if_false, mul_zero]

/-- Point `t`'s contribution to the first accumulator at feature `r`, -/
def tileS (r : Fin 128) (t : ℕ) : EReal :=
  ∑ q : Fin 256, ∑ p : Fin 32, if t * 256 + q.val < 20000 then hid V c X HW r p (t * 256 + q.val) else 0
/-- and to the second. -/
def tileQ (r : Fin 128) (t : ℕ) : EReal :=
  ∑ q : Fin 256, ∑ p : Fin 32, if t * 256 + q.val < 20000 then hidSq V c X HW r p (t * 256 + q.val) else 0

include hX hH in
/-- One step of the first accumulator adds the point's contribution. -/
theorem stepS (t : Fin cfg0.N) (acc : FVec Ideal S128 .f32) (r : Fin 128) :
    k0_pay5 (grid0.coords t) (iblk0 V c 0 t) (iblk0 V c 1 t) (iblk0 V c 2 t) acc (ix1 r) = acc (ix1 r) + tileS V c X HW r t.val := by
  refine (pay5_apply (grid0.coords t) (iblk0 V c 0 t) (iblk0 V c 1 t) (iblk0 V c 2 t) acc r).trans ?_
  refine congrArg (acc (ix1 r) + ·) ?_
  exact Finset.sum_congr rfl fun q _ => Finset.sum_congr rfl fun p _ => image_apply V c X HW hX hH t p q r

include hX hH in
/-- One step of the second accumulator adds the point's contribution. -/
theorem stepQ (t : Fin cfg0.N) (acc : FVec Ideal S128 .f32) (r : Fin 128) :
    k0_pay1 (k0_pay6 (grid0.coords t) (iblk0 V c 0 t) (iblk0 V c 1 t) (iblk0 V c 2 t) acc) (ix1 r) = acc (ix1 r) + tileQ V c X HW r t.val := by
  refine (pay6_apply (grid0.coords t) (iblk0 V c 0 t) (iblk0 V c 1 t) (iblk0 V c 2 t) acc r).trans ?_
  refine congrArg (acc (ix1 r) + ·) ?_
  exact Finset.sum_congr rfl fun q _ => Finset.sum_congr rfl fun p _ => imageSq_apply V c X HW hX hH t p q r

/-! ## The accumulators after each point, and after the last -/

include hX hH in
/-- After point `n` the first accumulator holds the contributions of the points up to `n`. -/
theorem accS_range (r : Fin 128) : ∀ n : ℕ, n < 79 → accS (F := Ideal) V c n (ix1 r) = ∑ t ∈ Finset.range (n + 1), tileS V c X HW r t
  | 0, _ => by
    rw [accS_zero, stepS V c X HW hX hH (pt 0) _ r, pay2_apply, zero_add, Finset.sum_range_one]; rfl
  | n + 1, hn => by
    have hp : (pt (n + 1)).val = n + 1 := congrArg Fin.val (pt_of_lt (n + 1) (lt_of_lt_of_eq hn (show 79 = cfg0.N from N_0.symm)))
    rw [accS_succ, stepS V c X HW hX hH (pt (n + 1)) _ r, accS_range r n (by omega), hp, Finset.sum_range_succ _ (n + 1)]

include hX hH in
/-- After point `n` the second accumulator holds the contributions of the points up to `n`. -/
theorem accQ_range (r : Fin 128) : ∀ n : ℕ, n < 79 → accQ (F := Ideal) V c n (ix1 r) = ∑ t ∈ Finset.range (n + 1), tileQ V c X HW r t
  | 0, _ => by
    rw [accQ_zero, stepQ V c X HW hX hH (pt 0) _ r, pay3_apply, zero_add, Finset.sum_range_one]; rfl
  | n + 1, hn => by
    have hp : (pt (n + 1)).val = n + 1 := congrArg Fin.val (pt_of_lt (n + 1) (lt_of_lt_of_eq hn (show 79 = cfg0.N from N_0.symm)))
    rw [accQ_succ, stepQ V c X HW hX hH (pt (n + 1)) _ r, accQ_range r n (by omega), hp, Finset.sum_range_succ _ (n + 1)]

/-- The 79 tiles of 256 columns, masked beyond column 20000, sum to the sum over the cells and the 20000 genes. -/
theorem tiles_sum (g : Fin 32 → ℕ → EReal) :
    (∑ t ∈ Finset.range 79, ∑ q : Fin 256, ∑ p : Fin 32, if t * 256 + q.val < 20000 then g p (t * 256 + q.val) else 0)
      = ∑ p : Fin 32, ∑ n : Fin 20000, g p n.val := by
  rw [Finset.sum_range (fun t => ∑ q : Fin 256, ∑ p : Fin 32, if t * 256 + q.val < 20000 then g p (t * 256 + q.val) else 0)]
  calc ∑ t : Fin 79, ∑ q : Fin 256, ∑ p : Fin 32, (if t.val * 256 + q.val < 20000 then g p (t.val * 256 + q.val) else 0)
      = ∑ t : Fin 79, ∑ p : Fin 32, ∑ q : Fin 256, (if t.val * 256 + q.val < 20000 then g p (t.val * 256 + q.val) else 0) :=
        Finset.sum_congr rfl fun t _ => Finset.sum_comm
    _ = ∑ p : Fin 32, ∑ t : Fin 79, ∑ q : Fin 256, (if t.val * 256 + q.val < 20000 then g p (t.val * 256 + q.val) else 0) := Finset.sum_comm
    _ = ∑ p : Fin 32, ∑ n : Fin 20000, g p n.val :=
        Finset.sum_congr rfl fun p _ => sum_tiles_masked 79 256 20000 (by norm_num) (g p)

include hX hH in
/-- THE SUMS in closed form: after the last point the first accumulator holds, at feature `r`, the sum of the hidden
    pre-activation over all cells and genes. -/
theorem accS_closed (r : Fin 128) :
    accS (F := Ideal) V c 78 (ix1 r) = Cert.Spec.sum2 (fun b n => X b n * HW n r + V c main_arg6 (ix1 r)) := by
  rw [accS_range V c X HW hX hH r 78 (by norm_num)]
  unfold tileS
  rw [tiles_sum (fun p j => hid V c X HW r p j)]
  unfold Cert.Spec.sum2 hid
  exact Finset.sum_congr rfl fun b _ => Finset.sum_congr rfl fun n _ => by rw [dif_pos n.isLt]

include hX hH in
/-- THE SUMS OF SQUARES in closed form: likewise the second, of its square. -/
theorem accQ_closed (r : Fin 128) :
    accQ (F := Ideal) V c 78 (ix1 r)
      = Cert.Spec.sum2 (fun b n => (X b n * HW n r + V c main_arg6 (ix1 r)) * (X b n * HW n r + V c main_arg6 (ix1 r))) := by
  rw [accQ_range V c X HW hX hH r 78 (by norm_num)]
  unfold tileQ
  rw [tiles_sum (fun p j => hidSq V c X HW r p j)]
  unfold Cert.Spec.sum2 hidSq
  exact Finset.sum_congr rfl fun b _ => Finset.sum_congr rfl fun n _ => by rw [dif_pos n.isLt]

end Region

end Cert.KernelIdeal.StatsValue

end
-- ==== Proof.KPrefix.lean ====
import proofs.«121308_j17678085390437_1_alg».proof.Proof.Gen.KernelIdeal.Launch
import Idealize.ShloMosaic.Lib.StableHlo.Run
import Idealize.ShloMosaic.Lib.ValueIdx
import Idealize.ShloMosaic.Lib.StackMember
import Idealize.ShloMosaic.PureOps.Ideal.Laws

/-!
# The kernel program's host prefix

Before its first region the kernel program runs, on the host, a graph convolution and then
projects the embedding once through the first layer: `hw = h @ W1`. Over any contents `W` of the buffers:

* `hw_apply`: the projected embedding at `(n, r)` is `∑ j, h[n, j] * W1[j, r]`;
* `c11_eq`: the integer scalar written last is the constant `0`.
-/

noncomputable section

namespace Cert.KernelIdeal.Prefix

open Cert.KernelIdeal Cert.KernelIdeal.Gen Idealize.ShloMosaic Idealize.ShloMosaic.TcCoe Idealize.SL.Sem
  Idealize.ShloMosaic.StableHlo Idealize.ShloMosaic.ValueIdx

variable (W : Valuation τ sig (Elt Ideal))

/-- The projection is a plain matrix product. -/
theorem dotP_eq : dot_S20000x64_S64x128_S20000x128_1_0_0_1_n_n = DotDims.plain 20000 64 128 := rfl

set_option maxRecDepth 8192 in
set_option maxHeartbeats 2000000 in
/-- The buffer of the projection holds the product of the graph convolution's buffer and the first layer's weights. -/
theorem v64_eq :
    after main_part1_ops0 W (Proc.devRef .tc main_v64)
      = Host.dotGeneral (F := Ideal) (φ₁ := .f32) (φ₂ := .f32) dot_S20000x64_S64x128_S20000x128_1_0_0_1_n_n none
          (after main_part1_ops0 W (Proc.devRef .tc main_v63)) (W (Proc.devRef .tc main_arg5)) := by
  after_results_simp

/-- The projected embedding read at gene `n` and feature `r`, for the three buffers' contents under any names. -/
theorem hw_apply' (n : Fin 20000) (r : Fin 128) (hw : FVec Ideal S20000x128 .f32) (h : FVec Ideal S20000x64 .f32)
    (w1 : FVec Ideal S64x128 .f32) (ehw : hw = after main_part1_ops0 W (Proc.devRef .tc main_v64))
    (eh : h = after main_part1_ops0 W (Proc.devRef .tc main_v63)) (ew : w1 = W (Proc.devRef .tc main_arg5)) :
    hw (ix2 n r) = ∑ j : Fin 64, h (ix2 n j) * w1 (ix2 j r) := by
  subst ehw eh ew
  rw [v64_eq]
  exact StackMember.dotGeneral_plain_apply none _ _ n r

/-- The same, stated of the buffers themselves. -/
theorem hw_apply (n : Fin 20000) (r : Fin 128) :
    (show FVec Ideal S20000x128 .f32 from after main_part1_ops0 W (Proc.devRef .tc main_v64)) (ix2 n r)
      = ∑ j : Fin 64, (show FVec Ideal S20000x64 .f32 from after main_part1_ops0 W (Proc.devRef .tc main_v63)) (ix2 n j)
          * (show FVec Ideal S64x128 .f32 from W (Proc.devRef .tc main_arg5)) (ix2 j r) :=
  hw_apply' W n r _ _ _ rfl rfl rfl

set_option maxRecDepth 8192 in
/-- The integer scalar written last is `0`. -/
theorem c11_eq : after main_part1_ops0 W (Proc.devRef .tc main_c_11) = constantI S_ 32 0#32 := by
  after_results_simp

end Cert.KernelIdeal.Prefix

end
-- ==== Proof.KPrefixH.lean ====
/-
  The kernel program's graph convolution is the reference's.

  Both programs open with the same host operations on the same four arguments — the degree count by a scatter-add of
  ones, its reciprocal square root, the edge weights by two gathers, two hops of gather / scale / scatter-add plus the
  self loop, the dense layer. Read through the kernel program's first two stretches the embedding buffer holds exactly
  the reference's function of the edge list, the gene embedding, the layer's weight and its bias.
-/
import proofs.«121308_j17678085390437_1_alg».proof.Proof.Gen.KernelIdeal.Launch
import proofs.«121308_j17678085390437_1_alg».proof.Proof.RefRun
import Idealize.ShloMosaic.Lib.StableHlo.Run
import Idealize.ShloMosaic.PureOps.Ideal
set_option maxRecDepth 16384
noncomputable section
namespace Cert.KernelIdeal.Prefix
open Cert.KernelIdeal Cert.KernelIdeal.Gen Idealize.ShloMosaic Idealize.ShloMosaic.StableHlo
variable (W : Valuation τ sig (Elt Ideal))
set_option maxHeartbeats 8000000 in
/-- After the first two host stretches the embedding buffer is the reference's graph convolution of the arguments. -/
theorem kH_eq : StableHlo.after main_part1_ops0 (StableHlo.after main_part0_ops0 W) (Proc.devRef .tc main_v63)
    = Cert.ReferenceIdeal.Hand.refH (F := Ideal) (W (Proc.devRef .tc main_arg1)) (W (Proc.devRef .tc main_arg2))
        (W (Proc.devRef .tc main_arg3)) (W (Proc.devRef .tc main_arg4)) := by
  after_results_simp
  rfl
end Cert.KernelIdeal.Prefix
end
-- ==== Proof.KHost.lean ====
/-
  The kernel program's result, read at an index.

  The host stretches, over any buffer contents: the closing slice, the mean `sum / 640000` and the variance
  `sumsq / 640000 − mean²`, the two paddings, and what each stretch leaves alone. Through the run's boundaries:
  the final call reads the expression matrix padded with 224 zero columns, the projected embedding `h · W1` padded with
  224 zero rows (`h` the graph convolution of the launch arguments — the reference's function of them), the five small
  arguments as launched, and the mean and variance formed from the two accumulators' last values. With the
  accumulators in closed form — the sums over all 640000 (cell, gene) pairs of the hidden entry and of its square, the
  padding masked off — the final call's array at cell `b`, gene `n` is the shared formula over the projected-first
  hidden array, its mean and its mean-square variance (`kernel_out`).
-/
import proofs.«121308_j17678085390437_1_alg».proof.Proof.KRun
import proofs.«121308_j17678085390437_1_alg».proof.Proof.KFinalValue
import proofs.«121308_j17678085390437_1_alg».proof.Proof.Spec
import proofs.«121308_j17678085390437_1_alg».proof.Proof.LibPad2
import proofs.«121308_j17678085390437_1_alg».proof.Proof.StatsValue
import proofs.«121308_j17678085390437_1_alg».proof.Proof.KPrefix
import proofs.«121308_j17678085390437_1_alg».proof.Proof.KPrefixH
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostRead

open Cert.KernelIdeal Cert.KernelIdeal.Gen Cert.KernelIdeal.Stats Cert.KernelIdeal.Final Cert.KernelIdeal.Run Cert.KernelIdeal.FinalValue
open Idealize.ShloMosaic Idealize.ShloMosaic.TcCoe Idealize.ShloMosaic.ValueIdx Idealize.ShloMosaic.StableHlo
open Idealize.SL Idealize.SL.Sem

local macro "keeps_tac" ops:ident : tactic => `(tactic| exact StableHlo.after_of_forall_not_mem _ _ (List.forall_iff_forall_mem.mp (by
    simp only [$ops:ident, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-! ## Each host stretch, over any buffer contents `W` -/

section Abstract
variable (W : Valuation τ sig (Elt Ideal))

/-- The closing slice. -/
theorem ops5_v75 : StableHlo.after main_part1_ops5 W (Proc.devRef .tc main_v75)
    = extractStridedSlice S32x20000 ![0, 0] (W (Proc.devRef .tc main_v74)) slices_S32x20224_S32x20000_0_0 := by
  after_results

/-- The batch mean from the first sum. -/
theorem ops4_v69 : StableHlo.after main_part1_ops4 W (Proc.devRef .tc main_v69)
    = Host.divf (W (Proc.devRef .tc main_v67_0)) (broadcastInDim S128 ![] bcast_S_S128 (constant (F := Ideal) S_ .f32 0x491C4000#32)) := by
  after_results

/-- The batch variance from the two sums. -/
theorem ops4_v73 : StableHlo.after main_part1_ops4 W (Proc.devRef .tc main_v73)
    = subf (Host.divf (W (Proc.devRef .tc main_v67_1)) (broadcastInDim S128 ![] bcast_S_S128 (constant (F := Ideal) S_ .f32 0x491C4000#32)))
        (mulf (Host.divf (W (Proc.devRef .tc main_v67_0)) (broadcastInDim S128 ![] bcast_S_S128 (constant (F := Ideal) S_ .f32 0x491C4000#32)))
          (Host.divf (W (Proc.devRef .tc main_v67_0)) (broadcastInDim S128 ![] bcast_S_S128 (constant (F := Ideal) S_ .f32 0x491C4000#32)))) := by
  after_results

/-- The padded expression matrix. -/
theorem ops1_v65 : StableHlo.after main_part1_ops1 W (Proc.devRef .tc main_v65)
    = pad S32x20224 ![0, 0] ![0, 224] ![0, 0] (W (Proc.devRef .tc main_arg0)) (sitofp (F := Ideal) .f32 (W (Proc.devRef .tc main_c_11))) pads_S32x20000_S32x20224_000_02240 h_S_ := by
  after_results
  rfl

/-- The padded projected embedding. -/
theorem ops3_v66 : StableHlo.after main_part1_ops3 W (Proc.devRef .tc main_v66)
    = pad S20224x128 ![0, 0] ![224, 0] ![0, 0] (W (Proc.devRef .tc main_v64)) (sitofp (F := Ideal) .f32 (W (Proc.devRef .tc main_c_12))) pads_S20000x128_S20224x128_02240_000 h_S_ := by
  after_results
  rfl

theorem ops2_c12 : StableHlo.after main_part1_ops2 W (Proc.devRef .tc main_c_12) = constantI S_ 32 0#32 := by
  after_results

/-! ### What each stretch leaves alone -/

theorem keep4_main_v65 : StableHlo.after main_part1_ops4 W (Proc.devRef .tc main_v65) = W (Proc.devRef .tc main_v65) := by keeps_tac main_part1_ops4
theorem keep4_main_v66 : StableHlo.after main_part1_ops4 W (Proc.devRef .tc main_v66) = W (Proc.devRef .tc main_v66) := by keeps_tac main_part1_ops4
theorem keep4_main_arg6 : StableHlo.after main_part1_ops4 W (Proc.devRef .tc main_arg6) = W (Proc.devRef .tc main_arg6) := by keeps_tac main_part1_ops4
theorem keep4_main_arg7 : StableHlo.after main_part1_ops4 W (Proc.devRef .tc main_arg7) = W (Proc.devRef .tc main_arg7) := by keeps_tac main_part1_ops4
theorem keep4_main_arg8 : StableHlo.after main_part1_ops4 W (Proc.devRef .tc main_arg8) = W (Proc.devRef .tc main_arg8) := by keeps_tac main_part1_ops4
theorem keep4_main_arg9 : StableHlo.after main_part1_ops4 W (Proc.devRef .tc main_arg9) = W (Proc.devRef .tc main_arg9) := by keeps_tac main_part1_ops4
theorem keep4_main_arg10 : StableHlo.after main_part1_ops4 W (Proc.devRef .tc main_arg10) = W (Proc.devRef .tc main_arg10) := by keeps_tac main_part1_ops4
theorem keep3_main_v65 : StableHlo.after main_part1_ops3 W (Proc.devRef .tc main_v65) = W (Proc.devRef .tc main_v65) := by keeps_tac main_part1_ops3
theorem keep3_main_arg6 : StableHlo.after main_part1_ops3 W (Proc.devRef .tc main_arg6) = W (Proc.devRef .tc main_arg6) := by keeps_tac main_part1_ops3
theorem keep3_main_arg7 : StableHlo.after main_part1_ops3 W (Proc.devRef .tc main_arg7) = W (Proc.devRef .tc main_arg7) := by keeps_tac main_part1_ops3
theorem keep3_main_arg8 : StableHlo.after main_part1_ops3 W (Proc.devRef .tc main_arg8) = W (Proc.devRef .tc main_arg8) := by keeps_tac main_part1_ops3
theorem keep3_main_arg9 : StableHlo.after main_part1_ops3 W (Proc.devRef .tc main_arg9) = W (Proc.devRef .tc main_arg9) := by keeps_tac main_part1_ops3
theorem keep3_main_arg10 : StableHlo.after main_part1_ops3 W (Proc.devRef .tc main_arg10) = W (Proc.devRef .tc main_arg10) := by keeps_tac main_part1_ops3
theorem keep2_main_v65 : StableHlo.after main_part1_ops2 W (Proc.devRef .tc main_v65) = W (Proc.devRef .tc main_v65) := by keeps_tac main_part1_ops2
theorem keep2_main_v64 : StableHlo.after main_part1_ops2 W (Proc.devRef .tc main_v64) = W (Proc.devRef .tc main_v64) := by keeps_tac main_part1_ops2
theorem keep2_main_arg6 : StableHlo.after main_part1_ops2 W (Proc.devRef .tc main_arg6) = W (Proc.devRef .tc main_arg6) := by keeps_tac main_part1_ops2
theorem keep2_main_arg7 : StableHlo.after main_part1_ops2 W (Proc.devRef .tc main_arg7) = W (Proc.devRef .tc main_arg7) := by keeps_tac main_part1_ops2
theorem keep2_main_arg8 : StableHlo.after main_part1_ops2 W (Proc.devRef .tc main_arg8) = W (Proc.devRef .tc main_arg8) := by keeps_tac main_part1_ops2
theorem keep2_main_arg9 : StableHlo.after main_part1_ops2 W (Proc.devRef .tc main_arg9) = W (Proc.devRef .tc main_arg9) := by keeps_tac main_part1_ops2
theorem keep2_main_arg10 : StableHlo.after main_part1_ops2 W (Proc.devRef .tc main_arg10) = W (Proc.devRef .tc main_arg10) := by keeps_tac main_part1_ops2
theorem keep1_main_v64 : StableHlo.after main_part1_ops1 W (Proc.devRef .tc main_v64) = W (Proc.devRef .tc main_v64) := by keeps_tac main_part1_ops1
theorem keep1_main_c_11 : StableHlo.after main_part1_ops1 W (Proc.devRef .tc main_c_11) = W (Proc.devRef .tc main_c_11) := by keeps_tac main_part1_ops1
theorem keep1_main_arg6 : StableHlo.after main_part1_ops1 W (Proc.devRef .tc main_arg6) = W (Proc.devRef .tc main_arg6) := by keeps_tac main_part1_ops1
theorem keep1_main_arg7 : StableHlo.after main_part1_ops1 W (Proc.devRef .tc main_arg7) = W (Proc.devRef .tc main_arg7) := by keeps_tac main_part1_ops1
theorem keep1_main_arg8 : StableHlo.after main_part1_ops1 W (Proc.devRef .tc main_arg8) = W (Proc.devRef .tc main_arg8) := by keeps_tac main_part1_ops1
theorem keep1_main_arg9 : StableHlo.after main_part1_ops1 W (Proc.devRef .tc main_arg9) = W (Proc.devRef .tc main_arg9) := by keeps_tac main_part1_ops1
theorem keep1_main_arg10 : StableHlo.after main_part1_ops1 W (Proc.devRef .tc main_arg10) = W (Proc.devRef .tc main_arg10) := by keeps_tac main_part1_ops1
theorem keep0_main_arg0 : StableHlo.after main_part1_ops0 W (Proc.devRef .tc main_arg0) = W (Proc.devRef .tc main_arg0) := by keeps_tac main_part1_ops0
theorem keep0_main_arg5 : StableHlo.after main_part1_ops0 W (Proc.devRef .tc main_arg5) = W (Proc.devRef .tc main_arg5) := by keeps_tac main_part1_ops0
theorem keep0_main_arg6 : StableHlo.after main_part1_ops0 W (Proc.devRef .tc main_arg6) = W (Proc.devRef .tc main_arg6) := by keeps_tac main_part1_ops0
theorem keep0_main_arg7 : StableHlo.after main_part1_ops0 W (Proc.devRef .tc main_arg7) = W (Proc.devRef .tc main_arg7) := by keeps_tac main_part1_ops0
theorem keep0_main_arg8 : StableHlo.after main_part1_ops0 W (Proc.devRef .tc main_arg8) = W (Proc.devRef .tc main_arg8) := by keeps_tac main_part1_ops0
theorem keep0_main_arg9 : StableHlo.after main_part1_ops0 W (Proc.devRef .tc main_arg9) = W (Proc.devRef .tc main_arg9) := by keeps_tac main_part1_ops0
theorem keep0_main_arg10 : StableHlo.after main_part1_ops0 W (Proc.devRef .tc main_arg10) = W (Proc.devRef .tc main_arg10) := by keeps_tac main_part1_ops0
theorem keepP_main_arg0 : StableHlo.after main_part0_ops0 W (Proc.devRef .tc main_arg0) = W (Proc.devRef .tc main_arg0) := by keeps_tac main_part0_ops0
theorem keepP_main_arg1 : StableHlo.after main_part0_ops0 W (Proc.devRef .tc main_arg1) = W (Proc.devRef .tc main_arg1) := by keeps_tac main_part0_ops0
theorem keepP_main_arg2 : StableHlo.after main_part0_ops0 W (Proc.devRef .tc main_arg2) = W (Proc.devRef .tc main_arg2) := by keeps_tac main_part0_ops0
theorem keepP_main_arg3 : StableHlo.after main_part0_ops0 W (Proc.devRef .tc main_arg3) = W (Proc.devRef .tc main_arg3) := by keeps_tac main_part0_ops0
theorem keepP_main_arg4 : StableHlo.after main_part0_ops0 W (Proc.devRef .tc main_arg4) = W (Proc.devRef .tc main_arg4) := by keeps_tac main_part0_ops0
theorem keepP_main_arg5 : StableHlo.after main_part0_ops0 W (Proc.devRef .tc main_arg5) = W (Proc.devRef .tc main_arg5) := by keeps_tac main_part0_ops0
theorem keepP_main_arg6 : StableHlo.after main_part0_ops0 W (Proc.devRef .tc main_arg6) = W (Proc.devRef .tc main_arg6) := by keeps_tac main_part0_ops0
theorem keepP_main_arg7 : StableHlo.after main_part0_ops0 W (Proc.devRef .tc main_arg7) = W (Proc.devRef .tc main_arg7) := by keeps_tac main_part0_ops0
theorem keepP_main_arg8 : StableHlo.after main_part0_ops0 W (Proc.devRef .tc main_arg8) = W (Proc.devRef .tc main_arg8) := by keeps_tac main_part0_ops0
theorem keepP_main_arg9 : StableHlo.after main_part0_ops0 W (Proc.devRef .tc main_arg9) = W (Proc.devRef .tc main_arg9) := by keeps_tac main_part0_ops0
theorem keepP_main_arg10 : StableHlo.after main_part0_ops0 W (Proc.devRef .tc main_arg10) = W (Proc.devRef .tc main_arg10) := by keeps_tac main_part0_ops0

end Abstract

/-! ## The buffers the two calls read, through the run's boundaries -/

section Concrete
variable (c : Dev nD)

theorem c11_eq (W : Valuation τ sig (Elt Ideal)) : StableHlo.after main_part1_ops0 W (Proc.devRef .tc main_c_11) = constantI S_ 32 0#32 := by
  after_results

theorem W7_main_arg6 : W7 m ρ c (Proc.devRef .tc main_arg6) = m ((c : Thread nD τ).loc main_arg6) :=
  (keep4_main_arg6 (W6 m ρ c)).trans (((W6_arr m ρ c 2).trans (arr_in0 (V5 m ρ) c 2 (by decide))).trans ((keep3_main_arg6 (W4 m ρ c)).trans ((keep2_main_arg6 (W3 m ρ c)).trans ((keep1_main_arg6 (W2 m ρ c)).trans ((keep0_main_arg6 (W1 m ρ c)).trans ((keepP_main_arg6 (W0 m ρ c)).trans (rfl)))))))
theorem W7_main_arg7 : W7 m ρ c (Proc.devRef .tc main_arg7) = m ((c : Thread nD τ).loc main_arg7) :=
  (keep4_main_arg7 (W6 m ρ c)).trans ((W6_of_ne m ρ c main_arg7 (by decide)).trans ((keep3_main_arg7 (W4 m ρ c)).trans ((keep2_main_arg7 (W3 m ρ c)).trans ((keep1_main_arg7 (W2 m ρ c)).trans ((keep0_main_arg7 (W1 m ρ c)).trans ((keepP_main_arg7 (W0 m ρ c)).trans (rfl)))))))
theorem W7_main_arg8 : W7 m ρ c (Proc.devRef .tc main_arg8) = m ((c : Thread nD τ).loc main_arg8) :=
  (keep4_main_arg8 (W6 m ρ c)).trans ((W6_of_ne m ρ c main_arg8 (by decide)).trans ((keep3_main_arg8 (W4 m ρ c)).trans ((keep2_main_arg8 (W3 m ρ c)).trans ((keep1_main_arg8 (W2 m ρ c)).trans ((keep0_main_arg8 (W1 m ρ c)).trans ((keepP_main_arg8 (W0 m ρ c)).trans (rfl)))))))
theorem W7_main_arg9 : W7 m ρ c (Proc.devRef .tc main_arg9) = m ((c : Thread nD τ).loc main_arg9) :=
  (keep4_main_arg9 (W6 m ρ c)).trans ((W6_of_ne m ρ c main_arg9 (by decide)).trans ((keep3_main_arg9 (W4 m ρ c)).trans ((keep2_main_arg9 (W3 m ρ c)).trans ((keep1_main_arg9 (W2 m ρ c)).trans ((keep0_main_arg9 (W1 m ρ c)).trans ((keepP_main_arg9 (W0 m ρ c)).trans (rfl)))))))
theorem W7_main_arg10 : W7 m ρ c (Proc.devRef .tc main_arg10) = m ((c : Thread nD τ).loc main_arg10) :=
  (keep4_main_arg10 (W6 m ρ c)).trans ((W6_of_ne m ρ c main_arg10 (by decide)).trans ((keep3_main_arg10 (W4 m ρ c)).trans ((keep2_main_arg10 (W3 m ρ c)).trans ((keep1_main_arg10 (W2 m ρ c)).trans ((keep0_main_arg10 (W1 m ρ c)).trans ((keepP_main_arg10 (W0 m ρ c)).trans (rfl)))))))
theorem W5_main_arg6 : W5 m ρ c (Proc.devRef .tc main_arg6) = m ((c : Thread nD τ).loc main_arg6) :=
  (keep3_main_arg6 (W4 m ρ c)).trans ((keep2_main_arg6 (W3 m ρ c)).trans ((keep1_main_arg6 (W2 m ρ c)).trans ((keep0_main_arg6 (W1 m ρ c)).trans ((keepP_main_arg6 (W0 m ρ c)).trans (rfl)))))
theorem W2_main_arg0 : W2 m ρ c (Proc.devRef .tc main_arg0) = m ((c : Thread nD τ).loc main_arg0) :=
  (keep0_main_arg0 (W1 m ρ c)).trans ((keepP_main_arg0 (W0 m ρ c)).trans (rfl))
theorem W1_main_arg5 : W1 m ρ c (Proc.devRef .tc main_arg5) = m ((c : Thread nD τ).loc main_arg5) :=
  (keepP_main_arg5 (W0 m ρ c)).trans (rfl)

/-- The expression matrix padded with 224 zero columns. -/
def xpad : S32x20224.Idx → EReal :=
  pad S32x20224 ![0, 0] ![0, 224] ![0, 0] (m ((c : Thread nD τ).loc main_arg0)) (sitofp (F := Ideal) .f32 (constantI S_ 32 0#32)) pads_S32x20000_S32x20224_000_02240 h_S_
/-- The projected embedding padded with 224 zero rows. -/
def hpad : S20224x128.Idx → EReal :=
  pad S20224x128 ![0, 0] ![224, 0] ![0, 0] (W2 m ρ c (Proc.devRef .tc main_v64)) (sitofp (F := Ideal) .f32 (constantI S_ 32 0#32)) pads_S20000x128_S20224x128_02240_000 h_S_

theorem W5_v65 : W5 m ρ c (Proc.devRef .tc main_v65) = xpad m c :=
  (keep3_main_v65 (W4 m ρ c)).trans ((keep2_main_v65 (W3 m ρ c)).trans ((ops1_v65 (W2 m ρ c)).trans (by
    rw [W2_main_arg0 m ρ c, show W2 m ρ c (Proc.devRef .tc main_c_11) = constantI S_ 32 0#32 from c11_eq (W1 m ρ c)]; rfl)))
theorem W7_v65 : W7 m ρ c (Proc.devRef .tc main_v65) = xpad m c :=
  (keep4_main_v65 (W6 m ρ c)).trans ((W6_arr m ρ c 0).trans ((arr_in0 (V5 m ρ) c 0 (by decide)).trans (W5_v65 m ρ c)))
theorem W5_v66 : W5 m ρ c (Proc.devRef .tc main_v66) = hpad m ρ c :=
  (ops3_v66 (W4 m ρ c)).trans (by
    rw [show W4 m ρ c (Proc.devRef .tc main_c_12) = constantI S_ 32 0#32 from ops2_c12 (W3 m ρ c),
      show W4 m ρ c (Proc.devRef .tc main_v64) = W2 m ρ c (Proc.devRef .tc main_v64) from
        (keep2_main_v64 (W3 m ρ c)).trans (keep1_main_v64 (W2 m ρ c))]; rfl)
theorem W7_v66 : W7 m ρ c (Proc.devRef .tc main_v66) = hpad m ρ c :=
  (keep4_main_v66 (W6 m ρ c)).trans ((W6_arr m ρ c 1).trans ((arr_in0 (V5 m ρ) c 1 (by decide)).trans (W5_v66 m ρ c)))

/-- The batch mean the final call reads: the first accumulator's last value over the count. -/
theorem W7_v69 : W7 m ρ c (Proc.devRef .tc main_v69)
    = Host.divf (accS (V5 m ρ) c 78) (broadcastInDim S128 ![] bcast_S_S128 (constant (F := Ideal) S_ .f32 0x491C4000#32)) :=
  (ops4_v69 (W6 m ρ c)).trans (by
    rw [show W6 m ρ c (Proc.devRef .tc main_v67_0) = accS (V5 m ρ) c 78 from (W6_arr m ρ c 3).trans (sum_out (V5 m ρ) c)])
/-- The batch variance the final call reads. -/
theorem W7_v73 : W7 m ρ c (Proc.devRef .tc main_v73)
    = subf (Host.divf (accQ (V5 m ρ) c 78) (broadcastInDim S128 ![] bcast_S_S128 (constant (F := Ideal) S_ .f32 0x491C4000#32)))
        (mulf (Host.divf (accS (V5 m ρ) c 78) (broadcastInDim S128 ![] bcast_S_S128 (constant (F := Ideal) S_ .f32 0x491C4000#32)))
          (Host.divf (accS (V5 m ρ) c 78) (broadcastInDim S128 ![] bcast_S_S128 (constant (F := Ideal) S_ .f32 0x491C4000#32)))) :=
  (ops4_v73 (W6 m ρ c)).trans (by
    rw [show W6 m ρ c (Proc.devRef .tc main_v67_0) = accS (V5 m ρ) c 78 from (W6_arr m ρ c 3).trans (sum_out (V5 m ρ) c),
      show W6 m ρ c (Proc.devRef .tc main_v67_1) = accQ (V5 m ρ) c 78 from (W6_arr m ρ c 4).trans (sumsq_out (V5 m ρ) c)])

/-- The program's result: the final call's array with the padding sliced off. -/
theorem res_eq : W9 m ρ c (Proc.devRef .tc main_v75)
    = extractStridedSlice S32x20000 ![0, 0]
        (G1 (V7 m ρ c main_v65) (V7 m ρ c main_v66) (V7 m ρ c main_arg6) (V7 m ρ c main_arg7) (V7 m ρ c main_arg8) (V7 m ρ c main_arg9)
          (V7 m ρ c main_arg10) (V7 m ρ c main_v69) (V7 m ρ c main_v73)) slices_S32x20224_S32x20000_0_0 :=
  (ops5_v75 (W8 m ρ c)).trans (by
    rw [show W8 m ρ c (Proc.devRef .tc main_v74) = _ from (W8_arr m ρ c 9).trans (final9 (V7 m ρ) c)])

end Concrete

/-! ## Read at an index -/

section Index
variable (c : Dev nD)

open Cert.Lib.Pad2 Cert.KernelIdeal.StatsValue

/-- The integer `0` converted to a float is `0`. -/
theorem sitofp_zero : FloatOps.sitofp (F := Ideal) .f32 (0#32 : BitVec 32) = (0 : EReal) := by
  show (((0#32 : BitVec 32).toInt : ℝ) : EReal) = 0
  simp

/-- The graph-convolved embedding, as the reference's function of the launch arguments. -/
abbrev Hf (n : Fin 20000) (j : Fin 64) : EReal :=
  Cert.ReferenceIdeal.Hand.refH (F := Ideal) (m ((c : Thread nD τ).loc main_arg1)) (m ((c : Thread nD τ).loc main_arg2))
    (m ((c : Thread nD τ).loc main_arg3)) (m ((c : Thread nD τ).loc main_arg4)) (ix2 n j)
abbrev Xf (b : Fin 32) (n : Fin 20000) : EReal := (m ((c : Thread nD τ).loc main_arg0) : S32x20000.Idx → EReal) (ix2 b n)
abbrev W1f (j : Fin 64) (k : Fin 128) : EReal := (m ((c : Thread nD τ).loc main_arg5) : S64x128.Idx → EReal) (ix2 j k)
abbrev B1f (k : Fin 128) : EReal := (m ((c : Thread nD τ).loc main_arg6) : S128.Idx → EReal) (ix1 k)

/-- The projected embedding's entry, as a number. -/
abbrev HWraw (n : Fin 20000) (r : Fin 128) : EReal :=
  (show FVec Ideal S20000x128 .f32 from W2 m ρ c (Proc.devRef .tc main_v64)) (ix2 n r)

/-- The padded expression matrix: the matrix on the first 20000 columns, zero beyond. -/
theorem xpad_apply (p : Fin 32) (j : Fin 20224) :
    xpad m c (ix2 p j) = if h : j.val < 20000 then Xf m c p ⟨j.val, h⟩ else (0 : EReal) := by
  unfold xpad
  refine (pad2_hi_apply ![0, 224] _ _ pads_S32x20000_S32x20224_000_02240 h_S_ p j).trans ?_
  by_cases h : j.val < 20000
  · rw [dif_pos ⟨p.isLt, h⟩, dif_pos h]
  · rw [dif_neg (fun hh => h hh.2), dif_neg h]; exact sitofp_zero

/-- The padded projected embedding: the projection on the first 20000 rows, zero beyond. -/
theorem hpad_apply (j : Fin 20224) (r : Fin 128) :
    hpad m ρ c (ix2 j r) = if h : j.val < 20000 then HWraw m ρ c ⟨j.val, h⟩ r else (0 : EReal) := by
  unfold hpad
  refine (pad2_hi_apply ![224, 0] _ _ pads_S20000x128_S20224x128_02240_000 h_S_ j r).trans ?_
  by_cases h : j.val < 20000
  · rw [dif_pos ⟨h, r.isLt⟩, dif_pos h]
  · rw [dif_neg (fun hh => h hh.1), dif_neg h]; exact sitofp_zero

/-- The projected embedding at gene `n`, feature `r`. -/
theorem hw_eq (n : Fin 20000) (r : Fin 128) : HWraw m ρ c n r = ∑ j : Fin 64, Hf m c n j * W1f m c j r :=
  Cert.KernelIdeal.Prefix.hw_apply' (W1 m ρ c) n r _ _ _ rfl (Cert.KernelIdeal.Prefix.kH_eq (W0 m ρ c)).symm (W1_main_arg5 m ρ c).symm

theorem hX (p : Fin 32) (j : Fin 20224) :
    V5 m ρ c main_v65 (ix2 p j) = if h : j.val < 20000 then Xf m c p ⟨j.val, h⟩ else (0 : EReal) :=
  (congrFun (W5_v65 m ρ c) _).trans (xpad_apply m c p j)

theorem hH (j : Fin 20224) (r : Fin 128) :
    V5 m ρ c main_v66 (ix2 j r) = if h : j.val < 20000 then (∑ i : Fin 64, Hf m c ⟨j.val, h⟩ i * W1f m c i r) else (0 : EReal) := by
  refine (congrFun (W5_v66 m ρ c) _).trans ((hpad_apply m ρ c j r).trans ?_)
  by_cases h : j.val < 20000
  · rw [dif_pos h, dif_pos h]; exact hw_eq m ρ c ⟨j.val, h⟩ r
  · rw [dif_neg h, dif_neg h]

abbrev Gf (k : Fin 128) : EReal := (show FVec Ideal S128 .f32 from m ((c : Thread nD τ).loc main_arg7)) (ix1 k)
abbrev Bf (k : Fin 128) : EReal := (show FVec Ideal S128 .f32 from m ((c : Thread nD τ).loc main_arg8)) (ix1 k)
abbrev W2f (k : Fin 128) : EReal := (show FVec Ideal S128x1 .f32 from m ((c : Thread nD τ).loc main_arg9)) (ix2 k ⟨0, Nat.one_pos⟩)
abbrev B2f : EReal := (show FVec Ideal S1 .f32 from m ((c : Thread nD τ).loc main_arg10)) (ix1 ⟨0, Nat.one_pos⟩)
/-- The hidden pre-activation as this program forms it. -/
abbrev Zf : Fin 32 → Fin 20000 → Fin 128 → EReal := Cert.Spec.zK (Xf m c) (Hf m c) (W1f m c) (B1f m c)

/-- `G1` at a row and a column. -/
theorem G1_apply (xp : S32x20224.Idx → EReal) (hp : S20224x128.Idx → EReal) (b1 γ β : S128.Idx → EReal) (w2 : S128x1.Idx → EReal)
    (b2 : S1.Idx → EReal) (μ v : S128.Idx → EReal) (p : Fin 32) (q : Fin 20224) :
    G1 xp hp b1 γ β w2 b2 μ v (ix2 p q)
      = xp (ix2 p q) + ((∑ r : Fin 128, max ((((xp (ix2 p q) * hp (ix2 q r) + b1 (ix1 r)) - μ (ix1 r))
          * Ideal.rsqrt (v (ix1 r) + Ideal.ofBits .f32 0x3727C5AC#32)) * γ (ix1 r) + β (ix1 r)) (Ideal.ofBits .f32 0x00000000#32)
          * w2 (ix2 r ⟨0, Nat.one_pos⟩)) + b2 (ix1 ⟨0, Nat.one_pos⟩)) := rfl

/-- The batch mean the final call reads is the mean of the hidden array. -/
theorem mu_eq (r : Fin 128) : (show FVec Ideal S128 .f32 from V7 m ρ c main_v69) (ix1 r) = Cert.Spec.mu (Zf m c) r := by
  refine (congrFun (W7_v69 m ρ c) (ix1 r)).trans ?_
  show Ideal.div (accS (V5 m ρ) c 78 (ix1 r)) (Ideal.ofBits .f32 0x491C4000#32) = _
  rw [accS_closed (V5 m ρ) c (Xf m c) (fun n r => ∑ j : Fin 64, Hf m c n j * W1f m c j r) (hX m ρ c) (hH m ρ c) r,
    show V5 m ρ c main_arg6 = m ((c : Thread nD τ).loc main_arg6) from W5_main_arg6 m ρ c]
  rfl

/-- The batch variance the final call reads is the mean square minus the squared mean of the hidden array. -/
theorem var_eq (r : Fin 128) : (show FVec Ideal S128 .f32 from V7 m ρ c main_v73) (ix1 r) = Cert.Spec.varSq (Zf m c) r := by
  refine (congrFun (W7_v73 m ρ c) (ix1 r)).trans ?_
  show Ideal.div (accQ (V5 m ρ) c 78 (ix1 r)) (Ideal.ofBits .f32 0x491C4000#32)
      - Ideal.div (accS (V5 m ρ) c 78 (ix1 r)) (Ideal.ofBits .f32 0x491C4000#32) * Ideal.div (accS (V5 m ρ) c 78 (ix1 r)) (Ideal.ofBits .f32 0x491C4000#32) = _
  rw [accS_closed (V5 m ρ) c (Xf m c) (fun n r => ∑ j : Fin 64, Hf m c n j * W1f m c j r) (hX m ρ c) (hH m ρ c) r,
    accQ_closed (V5 m ρ) c (Xf m c) (fun n r => ∑ j : Fin 64, Hf m c n j * W1f m c j r) (hX m ρ c) (hH m ρ c) r,
    show V5 m ρ c main_arg6 = m ((c : Thread nD τ).loc main_arg6) from W5_main_arg6 m ρ c]
  rfl

/-- THE KERNEL PROGRAM'S RESULT at cell `b`, gene `n`: the shared formula over the projected-first hidden array, its mean
    and its mean-square variance. -/
theorem kernel_out (b : Fin 32) (n : Fin 20000) :
    (show FVec Ideal S32x20000 .f32 from W9 m ρ c (Proc.devRef .tc main_v75)) (ix2 b n)
      = Cert.Spec.out (Xf m c) (Gf m c) (Bf m c) (W2f m c) (B2f m c) (Zf m c) (Cert.Spec.mu (Zf m c)) (Cert.Spec.varSq (Zf m c)) b n := by
  have hn : n.val < 20224 := by have := n.isLt; omega
  refine (congrFun (res_eq m ρ c) (ix2 b n)).trans ?_
  refine (extractStridedSlice_apply _ _ _ (ix2 b n) (ix2 b ⟨n.val, hn⟩) (fun a => by
    match a with
    | ⟨0, _⟩ => show b.val = 0 + b.val; omega
    | ⟨1, _⟩ => show n.val = 0 + n.val; omega)).trans ?_
  refine (G1_apply _ _ _ _ _ _ _ _ _ b ⟨n.val, hn⟩).trans ?_
  have e_x : V7 m ρ c main_v65 (ix2 b ⟨n.val, hn⟩) = Xf m c b n :=
    (congrFun (W7_v65 m ρ c) _).trans ((xpad_apply m c b ⟨n.val, hn⟩).trans (dif_pos n.isLt))
  have e_h : ∀ r : Fin 128, V7 m ρ c main_v66 (ix2 ⟨n.val, hn⟩ r) = ∑ j : Fin 64, Hf m c n j * W1f m c j r := fun r =>
    (congrFun (W7_v66 m ρ c) _).trans ((hpad_apply m ρ c ⟨n.val, hn⟩ r).trans ((dif_pos n.isLt).trans (hw_eq m ρ c n r)))
  have e_b1 : ∀ r : Fin 128, V7 m ρ c main_arg6 (ix1 r) = B1f m c r := fun r => congrFun (W7_main_arg6 m ρ c) _
  have e_g : ∀ r : Fin 128, V7 m ρ c main_arg7 (ix1 r) = Gf m c r := fun r => congrFun (W7_main_arg7 m ρ c) _
  have e_be : ∀ r : Fin 128, V7 m ρ c main_arg8 (ix1 r) = Bf m c r := fun r => congrFun (W7_main_arg8 m ρ c) _
  have e_w2 : ∀ r : Fin 128, V7 m ρ c main_arg9 (ix2 r ⟨0, Nat.one_pos⟩) = W2f m c r := fun r => congrFun (W7_main_arg9 m ρ c) _
  have e_b2 : V7 m ρ c main_arg10 (ix1 ⟨0, Nat.one_pos⟩) = B2f m c := congrFun (W7_main_arg10 m ρ c) _
  rw [e_x]
  unfold Cert.Spec.out
  refine congrArg (Xf m c b n + ·) (congrArg₂ (· + ·) (Finset.sum_congr rfl fun r _ => ?_) e_b2)
  have e_mu : V7 m ρ c main_v69 (ix1 r) = Cert.Spec.mu (Zf m c) r := mu_eq m ρ c r
  have e_var : V7 m ρ c main_v73 (ix1 r) = Cert.Spec.varSq (Zf m c) r := var_eq m ρ c r
  rw [e_h r, e_b1 r, e_g r, e_be r, e_w2 r, e_mu, e_var, Ideal.ofBits_zero_f32]
  rfl

end Index

end Cert.KernelIdeal.HostRead
end
-- ==== Proof.lean ====
/-
  The kernel computes the reference's function, on real inputs, at the extended reals.

  The computation: a two-hop graph convolution of the gene embedding (degree-normalised scatter-adds and gathers over the
  edge list, then a dense layer) gives an embedding `h [20000, 64]`; every cell's expression `x b n` scales gene `n`'s
  embedding row, the 640000 scaled rows go through a linear layer, batch normalisation with batch statistics over all
  640000 rows, a rectifier and a second linear layer to one number per row, which is added back to `x`.
  The reference forms the 640000 × 64 matrix of scaled rows and multiplies it by the first layer's weight. The kernel
  projects the embedding once (`h · W1`, on the host) and lets each cell's expression scale the projected row inside a
  first call that accumulates, tile of 256 genes by tile, the column sums and the column sums of squares of the hidden
  array (in two scratch accumulators carried over the 79 grid points, the 224 padding genes masked off); the host turns
  the two sums into the mean and the variance `E[z²] − (E z)²`; a second call normalises, rectifies and projects tile by
  tile; the padding is sliced off.

  The proof: each program's run is read to a closed term of its arguments (the reference's straight from its host
  operations; the kernel's through the nine stretches of its @main, the two calls' results being the fold of their
  write-backs over the grid); each closed term is read at an index down to ONE formula (Proof/Spec.lean's `out`) over a
  hidden array, a mean and a variance — the reference's over the row-first hidden array and the mean squared deviation,
  the kernel's over the projected-first hidden array and the mean square minus the squared mean; and for REAL entries
  (the precondition makes every float input real-valued, and the graph convolution keeps real arrays real: the degree is a
  count plus one, so its reciprocal square root meets no corner) a real factor distributes over a sum of reals and the
  two variances agree because the divisor `640000` is the number of rows. The three frames are the same runs with the
  result forgotten; the idealization rewrote nothing, so what it preserves is trivial.
-/
import proofs.«121308_j17678085390437_1_alg».proof.Defs
import proofs.«121308_j17678085390437_1_alg».proof.Proof.Gen.Kernel
import proofs.«121308_j17678085390437_1_alg».proof.Proof.Gen.Kernel.Skeleton
import proofs.«121308_j17678085390437_1_alg».proof.Proof.Gen.Kernel.Launch
import proofs.«121308_j17678085390437_1_alg».proof.Proof.Gen.Kernel.Regions
import proofs.«121308_j17678085390437_1_alg».proof.Proof.Gen.Kernel.Points
import proofs.«121308_j17678085390437_1_alg».proof.Proof.Gen.KernelIdeal
import proofs.«121308_j17678085390437_1_alg».proof.Proof.Gen.KernelIdeal.Skeleton
import proofs.«121308_j17678085390437_1_alg».proof.Proof.Gen.KernelIdeal.Launch
import proofs.«121308_j17678085390437_1_alg».proof.Proof.Gen.KernelIdeal.Regions
import proofs.«121308_j17678085390437_1_alg».proof.Proof.Gen.KernelIdeal.Points
import proofs.«121308_j17678085390437_1_alg».proof.Proof.Gen.ReferenceIdeal
import proofs.«121308_j17678085390437_1_alg».proof.Proof.Gen.Pre_finite_inputs
import proofs.«121308_j17678085390437_1_alg».proof.Proof.Claims
import proofs.«121308_j17678085390437_1_alg».proof.Proof.KHost
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic_of fun m ρ c b n => Cert.KernelIdeal.HostRead.kernel_out m ρ c b n⟩

end Cert.Proof

end
